-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x3 : Shape := ⟨2, ![30000, 3]⟩
abbrev S30000x128 : Shape := ⟨2, ![30000, 128]⟩
abbrev S30000x32 : Shape := ⟨2, ![30000, 32]⟩
abbrev S15x3 : Shape := ⟨2, ![15, 3]⟩
abbrev S128x32 : Shape := ⟨2, ![128, 32]⟩
abbrev S32 : Shape := ⟨1, ![32]⟩
abbrev S32x120 : Shape := ⟨2, ![32, 120]⟩
abbrev S120 : Shape := ⟨1, ![120]⟩
abbrev S128 : Shape := ⟨1, ![128]⟩
abbrev S_ : Shape := ⟨0, ![]⟩

class Facts : Prop where
  bcast_S_S30000x3 : S_.BroadcastsInDim S30000x3 (![] : Fin 0 → Fin S30000x3.rank)
  reducesTo_S30000x3_S_d0_1 : S30000x3.ReducesTo [0, 1] S_
  h_S_ : 0 < S_.numel
  bcast_S_S30000x128 : S_.BroadcastsInDim S30000x128 (![] : Fin 0 → Fin S30000x128.rank)
  reducesTo_S30000x128_S_d0_1 : S30000x128.ReducesTo [0, 1] S_
  bcast_S_S15x3 : S_.BroadcastsInDim S15x3 (![] : Fin 0 → Fin S15x3.rank)
  reducesTo_S15x3_S_d0_1 : S15x3.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x120 : S_.BroadcastsInDim S32x120 (![] : Fin 0 → Fin S32x120.rank)
  reducesTo_S32x120_S_d0_1 : S32x120.ReducesTo [0, 1] S_
  bcast_S_S120 : S_.BroadcastsInDim S120 (![] : Fin 0 → Fin S120.rank)
  reducesTo_S120_S_d0 : S120.ReducesTo [0] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S120 .f32) (main_arg9 : FVec F S128 .f32) (main_arg10 : FVec F S128 .f32) (main_v33 : IVec S_ 1) : IVec S_ 1 :=
  let main_v34 : FVec F S120 .f32 := Host.absf main_arg8
  let main_cst_12 : FVec F S_ .f32 := constant S_ .f32 0x7F800000#32
  let main_v35 : FVec F S120 .f32 := broadcastInDim S120 ![] bcast_S_S120 main_cst_12
  let main_v36 : IVec S120 1 := cmpf .olt main_v34 main_v35
  let main_c_13 : IVec S_ 1 := constantI S_ 1 1#1
  let main_v37 : IVec S_ 1 := (fun x v => Host.reduce IntOp.andi x v reducesTo_S120_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x32 .f32) (main_arg6 : FVec F S32 .f32) (main_arg7 : FVec F S32x120 .f32) (main_arg8 : FVec F S120 .f32) (main_arg9 : FVec F S128 .f32) (main_arg10 : FVec F S128 .f32) (main_v13 : IVec S_ 1) (main_v16 : IVec S15x3 1) : IVec S_ 1 :=
  let main_c_5 : IVec S_ 1 := constantI S_ 1 1#1
  let main_v17 : IVec S_ 1 := (fun x v => Host.reduce IntOp.andi x v reducesTo_S15x3_S_d0_1 h_S_) main_v16 main_c_5
  let main_v18 : IVec S_ 1 := andi main_v13 main_v17
  let main_v19 : FVec F S128x32 .f32 := Host.absf main_arg5
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x120 .f32 := Host.absf main_arg7
  let main_cst_10 : FVec F S_ .f32 := constant S_ .f32 0x7F800000#32
  let main_v30 : FVec F S32x120 .f32 := broadcastInDim S32x120 ![] bcast_S_S32x120 main_cst_10
  let main_v31 : IVec S32x120 1 := cmpf .olt main_v29 main_v30
  let main_c_11 : IVec S_ 1 := constantI S_ 1 1#1
  let main_v32 : IVec S_ 1 := (fun x v => Host.reduce IntOp.andi x v reducesTo_S32x120_S_d0_1 h_S_) main_v31 main_c_11
  let main_v33 : IVec S_ 1 := andi main_v28 main_v32
  fn_part2 (F := F) main_arg8 main_arg9 main_arg10 main_v33

def fn {F : FTy → Type} [FloatOps F] (main_arg0 : FVec F S30000x3 .f32) (main_arg1 : FVec F S30000x3 .f32) (main_arg2 : FVec F S30000x128 .f32) (main_arg3 : IVec S30000x32 32) (main_arg4 : FVec F S15x3 .f32) (main_arg5 : FVec F S128x32 .f32) (main_arg6 : FVec F S32 .f32) (main_arg7 : FVec F S32x120 .f32) (main_arg8 : FVec F S120 .f32) (main_arg9 : FVec F S128 .f32) (main_arg10 : FVec F S128 .f32) : IVec S_ 1 :=
  let main_v0 : FVec F S30000x3 .f32 := Host.absf main_arg0
  let main_cst : FVec F S_ .f32 := constant S_ .f32 0x7F800000#32
  let main_v1 : FVec F S30000x3 .f32 := broadcastInDim S30000x3 ![] bcast_S_S30000x3 main_cst
  let main_v2 : IVec S30000x3 1 := cmpf .olt main_v0 main_v1
  let main_c : IVec S_ 1 := constantI S_ 1 1#1
  let main_v3 : IVec S_ 1 := (fun x v => Host.reduce IntOp.andi x v reducesTo_S30000x3_S_d0_1 h_S_) main_v2 main_c
  let main_v4 : FVec F S30000x3 .f32 := Host.absf main_arg1
  let main_cst_0 : FVec F S_ .f32 := constant S_ .f32 0x7F800000#32
  let main_v5 : FVec F S30000x3 .f32 := broadcastInDim S30000x3 ![] bcast_S_S30000x3 main_cst_0
  let main_v6 : IVec S30000x3 1 := cmpf .olt main_v4 main_v5
  let main_c_1 : IVec S_ 1 := constantI S_ 1 1#1
  let main_v7 : IVec S_ 1 := (fun x v => Host.reduce IntOp.andi x v reducesTo_S30000x3_S_d0_1 h_S_) main_v6 main_c_1
  let main_v8 : IVec S_ 1 := andi main_v3 main_v7
  let main_v9 : FVec F S30000x128 .f32 := Host.absf main_arg2
  let main_cst_2 : FVec F S_ .f32 := constant S_ .f32 0x7F800000#32
  let main_v10 : FVec F S30000x128 .f32 := broadcastInDim S30000x128 ![] bcast_S_S30000x128 main_cst_2
  let main_v11 : IVec S30000x128 1 := cmpf .olt main_v9 main_v10
  let main_c_3 : IVec S_ 1 := constantI S_ 1 1#1
  let main_v12 : IVec S_ 1 := (fun x v => Host.reduce IntOp.andi x v reducesTo_S30000x128_S_d0_1 h_S_) main_v11 main_c_3
  let main_v13 : IVec S_ 1 := andi main_v8 main_v12
  let main_v14 : FVec F S15x3 .f32 := Host.absf main_arg4
  let main_cst_4 : FVec F S_ .f32 := constant S_ .f32 0x7F800000#32
  let main_v15 : FVec F S15x3 .f32 := broadcastInDim S15x3 ![] bcast_S_S15x3 main_cst_4
  let main_v16 : IVec S15x3 1 := cmpf .olt main_v14 main_v15
  fn_part1 (F := F) main_arg5 main_arg6 main_arg7 main_arg8 main_arg9 main_arg10 main_v13 main_v16
-- ==== Kernel.lean ====
abbrev S30000x3 : Shape := ⟨2, ![30000, 3]⟩
abbrev S30000x128 : Shape := ⟨2, ![30000, 128]⟩
abbrev S30000x32 : Shape := ⟨2, ![30000, 32]⟩
abbrev S15x3 : Shape := ⟨2, ![15, 3]⟩
abbrev S128x32 : Shape := ⟨2, ![128, 32]⟩
abbrev S32 : Shape := ⟨1, ![32]⟩
abbrev S32x120 : Shape := ⟨2, ![32, 120]⟩
abbrev S120 : Shape := ⟨1, ![120]⟩
abbrev S128 : Shape := ⟨1, ![128]⟩
abbrev S8x128 : Shape := ⟨2, ![8, 128]⟩
abbrev S_ : Shape := ⟨0, ![]⟩
abbrev S1x3 : Shape := ⟨2, ![1, 3]⟩
abbrev S30001x3 : Shape := ⟨2, ![30001, 3]⟩
abbrev S1x128 : Shape := ⟨2, ![1, 128]⟩
abbrev S30001x128 : Shape := ⟨2, ![30001, 128]⟩
abbrev S30000x32x1 : Shape := ⟨3, ![30000, 32, 1]⟩
abbrev S30000x32x3 : Shape := ⟨3, ![30000, 32, 3]⟩
abbrev S30000x32x128 : Shape := ⟨3, ![30000, 32, 128]⟩
abbrev S600x3 : Shape := ⟨2, ![600, 3]⟩
abbrev S600x32x3 : Shape := ⟨3, ![600, 32, 3]⟩
abbrev S600x32x128 : Shape := ⟨3, ![600, 32, 128]⟩
abbrev S600x128 : Shape := ⟨2, ![600, 128]⟩
abbrev S600x1x3 : Shape := ⟨3, ![600, 1, 3]⟩
abbrev S600x1x128 : Shape := ⟨3, ![600, 1, 128]⟩
abbrev S600x32 : Shape := ⟨2, ![600, 32]⟩
abbrev S1x32 : Shape := ⟨2, ![1, 32]⟩
abbrev S600x120 : Shape := ⟨2, ![600, 120]⟩
abbrev S1x120 : Shape := ⟨2, ![1, 120]⟩
abbrev S3 : Shape := ⟨1, ![3]⟩
abbrev S1x1x3 : Shape := ⟨3, ![1, 1, 3]⟩
abbrev S600x32x1 : Shape := ⟨3, ![600, 32, 1]⟩
abbrev S600x8 : Shape := ⟨2, ![600, 8]⟩
abbrev S3000x128 : Shape := ⟨2, ![3000, 128]⟩

abbrev nBuf : Space → Nat
  | .hbm => 66
  | .vmem => 22
  | .smem => 0
  | _ => 0

abbrev bufTy : (tb : Table) → Fin (tcTables nBuf tb) → BufTy
  | .hbm, ⟨0, _⟩ => ⟨S30000x3, .f32⟩
  | .hbm, ⟨1, _⟩ => ⟨S30000x3, .f32⟩
  | .hbm, ⟨2, _⟩ => ⟨S30000x128, .f32⟩
  | .hbm, ⟨3, _⟩ => ⟨S30000x32, .i32⟩
  | .hbm, ⟨4, _⟩ => ⟨S15x3, .f32⟩
  | .hbm, ⟨5, _⟩ => ⟨S128x32, .f32⟩
  | .hbm, ⟨6, _⟩ => ⟨S32, .f32⟩
  | .hbm, ⟨7, _⟩ => ⟨S32x120, .f32⟩
  | .hbm, ⟨8, _⟩ => ⟨S120, .f32⟩
  | .hbm, ⟨9, _⟩ => ⟨S128, .f32⟩
  | .hbm, ⟨10, _⟩ => ⟨S128, .f32⟩
  | .hbm, ⟨11, _⟩ => ⟨S8x128, .f32⟩
  | .hbm, ⟨12, _⟩ => ⟨S_, .f32⟩
  | .hbm, ⟨13, _⟩ => ⟨S1x3, .f32⟩
  | .hbm, ⟨14, _⟩ => ⟨S30001x3, .f32⟩
  | .hbm, ⟨15, _⟩ => ⟨S_, .f32⟩
  | .hbm, ⟨16, _⟩ => ⟨S1x128, .f32⟩
  | .hbm, ⟨17, _⟩ => ⟨S30001x128, .f32⟩
  | .hbm, ⟨18, _⟩ => ⟨S_, .i32⟩
  | .hbm, ⟨19, _⟩ => ⟨S30000x32, .i32⟩
  | .hbm, ⟨20, _⟩ => ⟨S30000x32, .i1⟩
  | .hbm, ⟨21, _⟩ => ⟨S_, .i32⟩
  | .hbm, ⟨22, _⟩ => ⟨S30000x32, .i32⟩
  | .hbm, ⟨23, _⟩ => ⟨S30000x32, .i32⟩
  | .hbm, ⟨24, _⟩ => ⟨S30000x32, .i32⟩
  | .hbm, ⟨25, _⟩ => ⟨S30000x32x1, .i32⟩
  | .hbm, ⟨26, _⟩ => ⟨S30000x32x3, .f32⟩
  | .hbm, ⟨27, _⟩ => ⟨S_, .i32⟩
  | .hbm, ⟨28, _⟩ => ⟨S30000x32, .i32⟩
  | .hbm, ⟨29, _⟩ => ⟨S30000x32, .i1⟩
  | .hbm, ⟨30, _⟩ => ⟨S_, .i32⟩
  | .hbm, ⟨31, _⟩ => ⟨S30000x32, .i32⟩
  | .hbm, ⟨32, _⟩ => ⟨S30000x32, .i32⟩
  | .hbm, ⟨33, _⟩ => ⟨S30000x32, .i32⟩
  | .hbm, ⟨34, _⟩ => ⟨S30000x32x1, .i32⟩
  | .hbm, ⟨35, _⟩ => ⟨S30000x32x128, .f32⟩
  | .hbm, ⟨36, _⟩ => ⟨S30000x128, .f32⟩
  | .hbm, ⟨37, _⟩ => ⟨S_, .f32⟩
  | .hbm, ⟨38, _⟩ => ⟨S128, .f32⟩
  | .hbm, ⟨39, _⟩ => ⟨S_, .f32⟩
  | .hbm, ⟨40, _⟩ => ⟨S128, .f32⟩
  | .hbm, ⟨41, _⟩ => ⟨S128, .f32⟩
  | .hbm, ⟨42, _⟩ => ⟨S_, .i32⟩
  | .hbm, ⟨43, _⟩ => ⟨S_, .f32⟩
  | .hbm, ⟨44, _⟩ => ⟨S128, .f32⟩
  | .hbm, ⟨45, _⟩ => ⟨S1x128, .f32⟩
  | .hbm, ⟨46, _⟩ => ⟨S_, .f32⟩
  | .hbm, ⟨47, _⟩ => ⟨S1x128, .f32⟩
  | .hbm, ⟨48, _⟩ => ⟨S1x128, .f32⟩
  | .hbm, ⟨49, _⟩ => ⟨S30000x128, .f32⟩
  | .hbm, ⟨50, _⟩ => ⟨S30000x128, .f32⟩
  | .hbm, ⟨51, _⟩ => ⟨S30000x128, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S30000x128, .f32⟩
  | .local _ .vmem, ⟨0, _⟩ => ⟨S600x3, .f32⟩
  | .local _ .vmem, ⟨1, _⟩ => ⟨S600x3, .f32⟩
  | .local _ .vmem, ⟨2, _⟩ => ⟨S600x32x3, .f32⟩
  | .local _ .vmem, ⟨3, _⟩ => ⟨S600x32x3, .f32⟩
  | .local _ .vmem, ⟨4, _⟩ => ⟨S600x32x128, .f32⟩
  | .local _ .vmem, ⟨5, _⟩ => ⟨S600x32x128, .f32⟩
  | .local _ .vmem, ⟨6, _⟩ => ⟨S15x3, .f32⟩
  | .local _ .vmem, ⟨7, _⟩ => ⟨S128x32, .f32⟩
  | .local _ .vmem, ⟨8, _⟩ => ⟨S32, .f32⟩
  | .local _ .vmem, ⟨9, _⟩ => ⟨S32x120, .f32⟩
  | .local _ .vmem, ⟨10, _⟩ => ⟨S120, .f32⟩
  | .local _ .vmem, ⟨11, _⟩ => ⟨S8x128, .f32⟩
  | .local _ .vmem, ⟨12, _⟩ => ⟨S600x128, .f32⟩
  | .local _ .vmem, ⟨13, _⟩ => ⟨S600x128, .f32⟩
  | .local _ .vmem, ⟨14, _⟩ => ⟨S3000x128, .f32⟩
  | .local _ .vmem, ⟨15, _⟩ => ⟨S3000x128, .f32⟩
  | .local _ .vmem, ⟨16, _⟩ => ⟨S128, .f32⟩
  | .local _ .vmem, ⟨17, _⟩ => ⟨S128, .f32⟩
  | .local _ .vmem, ⟨18, _⟩ => ⟨S128, .f32⟩
  | .local _ .vmem, ⟨19, _⟩ => ⟨S128, .f32⟩
  | .local _ .vmem, ⟨20, _⟩ => ⟨S3000x128, .f32⟩
  | .local _ .vmem, ⟨21, _⟩ => ⟨S3000x128, .f32⟩
  | _, _ => ⟨S30000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_c : Ref sig .tc := ⟨.hbm, 18, rfl⟩
abbrev main_v4 : Ref sig .tc := ⟨.hbm, 19, rfl⟩
abbrev main_v5 : Ref sig .tc := ⟨.hbm, 20, rfl⟩
abbrev main_c_2 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_c_3 : Ref sig .tc := ⟨.hbm, 27, rfl⟩
abbrev main_v11 : Ref sig .tc := ⟨.hbm, 28, rfl⟩
abbrev main_v12 : Ref sig .tc := ⟨.hbm, 29, rfl⟩
abbrev main_c_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_cst_5 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_c_7 : Ref sig .tc := ⟨.hbm, 42, rfl⟩
abbrev main_call0_cst : Ref sig .tc := ⟨.hbm, 43, rfl⟩
abbrev main_call0_v0 : Ref sig .tc := ⟨.hbm, 44, rfl⟩
abbrev main_call0_v1 : Ref sig .tc := ⟨.hbm, 45, rfl⟩
abbrev main_call0_cst_0 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_v7 : Ref sig .tc := ⟨.hbm, 52, rfl⟩
abbrev main_call0_cst_1 : Ref sig .tc := ⟨.hbm, 53, rfl⟩
abbrev main_call0_v8 : Ref sig .tc := ⟨.hbm, 54, rfl⟩
abbrev main_call0_cst_2 : Ref sig .tc := ⟨.hbm, 55, rfl⟩
abbrev main_call0_v9 : Ref sig .tc := ⟨.hbm, 56, rfl⟩
abbrev main_call0_v10 : Ref sig .tc := ⟨.hbm, 57, rfl⟩
abbrev main_call0_v11 : Ref sig .tc := ⟨.hbm, 58, rfl⟩
abbrev main_call0_cst_3 : Ref sig .tc := ⟨.hbm, 59, rfl⟩
abbrev main_call0_v12 : Ref sig .tc := ⟨.hbm, 60, rfl⟩
abbrev main_call0_cst_4 : Ref sig .tc := ⟨.hbm, 61, rfl⟩
abbrev main_call0_call0_v0 : Ref sig .tc := ⟨.hbm, 62, rfl⟩
abbrev main_call0_call0_v1 : Ref sig .tc := ⟨.hbm, 63, rfl⟩
abbrev main_v22 : Ref sig .tc := ⟨.hbm, 64, rfl⟩
abbrev main_v23 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S600x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S600x32x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S600x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S15x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x120 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S120 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S600x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S3000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S3000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1x3 : S_.BroadcastsInDim S1x3 (![] : Fin 0 → Fin S1x3.rank)
  concatenates_S30000x3_S1x3_S30001x3_d0 : Shape.Concatenates [S30000x3, S1x3] S30001x3 0
  bcast_S_S1x128 : S_.BroadcastsInDim S1x128 (![] : Fin 0 → Fin S1x128.rank)
  concatenates_S30000x128_S1x128_S30001x128_d0 : Shape.Concatenates [S30000x128, S1x128] S30001x128 0
  bcast_S_S30000x32 : S_.BroadcastsInDim S30000x32 (![] : Fin 0 → Fin S30000x32.rank)
  bcast_S30000x32_S30000x32x1_0_1 : S30000x32.BroadcastsInDim S30000x32x1 (![0, 1] : Fin 2 → Fin S30000x32x1.rank)
  inb_S600x3_S600x3_0_0 : ∀ a, (![0, 0] : Fin 2 → Nat) a + S600x3.size a ≤ S600x3.size a
  h_S600x3 : 0 < S600x3.numel
  inb_S600x32x3_S600x32x3_0_0_0 : ∀ a, (![0, 0, 0] : Fin 3 → Nat) a + S600x32x3.size a ≤ S600x32x3.size a
  h_S600x32x3 : 0 < S600x32x3.numel
  shapeCasts_S600x32x3_S600x32x3 : S600x32x3.ShapeCasts S600x32x3
  inb_S600x32x128_S600x32x128_0_0_0 : ∀ a, (![0, 0, 0] : Fin 3 → Nat) a + S600x32x128.size a ≤ S600x32x128.size a
  h_S600x32x128 : 0 < S600x32x128.numel
  shapeCasts_S600x32x128_S600x32x128 : S600x32x128.ShapeCasts S600x32x128
  shapeCasts_S600x3_S600x1x3 : S600x3.ShapeCasts S600x1x3
  broadcasts_S600x1x3_S600x32x3 : S600x1x3.Broadcasts S600x32x3
  slices_S600x32x128_o0_0_0_S600x1x128 : S600x32x128.Slices ![0, 0, 0] S600x1x128
  shapeCasts_S600x1x128_S600x128 : S600x1x128.ShapeCasts S600x128
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S600x32 : S1x32.Broadcasts S600x32
  inb_S32x120_S32x120_0_0 : ∀ a, (![0, 0] : Fin 2 → Nat) a + S32x120.size a ≤ S32x120.size a
  h_S32x120 : 0 < S32x120.numel
  inb_S120_S120_0 : ∀ a, (![0] : Fin 1 → Nat) a + S120.size a ≤ S120.size a
  h_S120 : 0 < S120.numel
  shapeCasts_S120_S1x120 : S120.ShapeCasts S1x120
  broadcasts_S1x120_S600x120 : S1x120.Broadcasts S600x120
  inb_S15x3_S15x3_0_0 : ∀ a, (![0, 0] : Fin 2 → Nat) a + S15x3.size a ≤ S15x3.size a
  h_S15x3 : 0 < S15x3.numel
  inb_S8x128_S8x128_0_0 : ∀ a, (![0, 0] : Fin 2 → Nat) a + S8x128.size a ≤ S8x128.size a
  h_S8x128 : 0 < S8x128.numel
  slices_S15x3_o0_0_S1x3 : S15x3.Slices ![0, 0] S1x3
  shapeCasts_S1x3_S3 : S1x3.ShapeCasts S3
  shapeCasts_S3_S1x1x3 : S3.ShapeCasts S1x1x3
  broadcasts_S1x1x3_S600x32x3 : S1x1x3.Broadcasts S600x32x3
  reduces_S600x32x3_S600x32 : S600x32x3.Reduces [2] S600x32
  shapeCasts_S600x32_S600x32x1 : S600x32.ShapeCasts S600x32x1
  broadcasts_S600x32x1_S600x32x128 : S600x32x1.Broadcasts S600x32x128
  reduces_S600x32x128_S600x128 : S600x32x128.Reduces [1] S600x128
  slices_S600x120_o0_0_S600x8 : S600x120.Slices ![0, 0] S600x8
  slices_S15x3_o1_0_S1x3 : S15x3.Slices ![1, 0] S1x3
  slices_S600x120_o0_8_S600x8 : S600x120.Slices ![0, 8] S600x8
  slices_S15x3_o2_0_S1x3 : S15x3.Slices ![2, 0] S1x3
  slices_S600x120_o0_16_S600x8 : S600x120.Slices ![0, 16] S600x8
  slices_S15x3_o3_0_S1x3 : S15x3.Slices ![3, 0] S1x3
  slices_S600x120_o0_24_S600x8 : S600x120.Slices ![0, 24] S600x8
  slices_S15x3_o4_0_S1x3 : S15x3.Slices ![4, 0] S1x3
  slices_S600x120_o0_32_S600x8 : S600x120.Slices ![0, 32] S600x8
  slices_S15x3_o5_0_S1x3 : S15x3.Slices ![5, 0] S1x3
  slices_S600x120_o0_40_S600x8 : S600x120.Slices ![0, 40] S600x8
  slices_S15x3_o6_0_S1x3 : S15x3.Slices ![6, 0] S1x3
  slices_S600x120_o0_48_S600x8 : S600x120.Slices ![0, 48] S600x8
  slices_S15x3_o7_0_S1x3 : S15x3.Slices ![7, 0] S1x3
  slices_S600x120_o0_56_S600x8 : S600x120.Slices ![0, 56] S600x8
  slices_S15x3_o8_0_S1x3 : S15x3.Slices ![8, 0] S1x3
  slices_S600x120_o0_64_S600x8 : S600x120.Slices ![0, 64] S600x8
  slices_S15x3_o9_0_S1x3 : S15x3.Slices ![9, 0] S1x3
  slices_S600x120_o0_72_S600x8 : S600x120.Slices ![0, 72] S600x8
  slices_S15x3_o10_0_S1x3 : S15x3.Slices ![10, 0] S1x3
  slices_S600x120_o0_80_S600x8 : S600x120.Slices ![0, 80] S600x8
  slices_S15x3_o11_0_S1x3 : S15x3.Slices ![11, 0] S1x3
  slices_S600x120_o0_88_S600x8 : S600x120.Slices ![0, 88] S600x8
  slices_S15x3_o12_0_S1x3 : S15x3.Slices ![12, 0] S1x3
  slices_S600x120_o0_96_S600x8 : S600x120.Slices ![0, 96] S600x8
  slices_S15x3_o13_0_S1x3 : S15x3.Slices ![13, 0] S1x3
  slices_S600x120_o0_104_S600x8 : S600x120.Slices ![0, 104] S600x8
  slices_S15x3_o14_0_S1x3 : S15x3.Slices ![14, 0] S1x3
  slices_S600x120_o0_112_S600x8 : S600x120.Slices ![0, 112] S600x8
  inb_S600x128_S600x128_0_0 : ∀ a, (![0, 0] : Fin 2 → Nat) a + S600x128.size a ≤ S600x128.size a
  h_S600x128 : 0 < S600x128.numel
  reducesTo_S30000x128_S128_d0 : S30000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  inb_S3000x128_S3000x128_0_0 : ∀ a, (![0, 0] : Fin 2 → Nat) a + S3000x128.size a ≤ S3000x128.size a
  h_S3000x128 : 0 < S3000x128.numel
  shapeCasts_S3000x128_S3000x128 : S3000x128.ShapeCasts S3000x128
  inb_S128_S128_0 : ∀ a, (![0] : Fin 1 → Nat) a + S128.size a ≤ S128.size a
  h_S128 : 0 < S128.numel
  shapeCasts_S128_S128 : S128.ShapeCasts S128
  shapeCasts_S128_S1x128 : S128.ShapeCasts S1x128
  broadcasts_S1x128_S3000x128 : S1x128.Broadcasts S3000x128
  gather_S30001x3_S30000x32x1_S30000x32x3_2_0_n_n_0_2_13_wf : GatherDims.WF S30001x3 S30000x32x1 S30000x32x3 [2] [0] [] [0] [] 2 ![1, 3]
  gather_S30001x128_S30000x32x1_S30000x32x128_2_0_n_n_0_2_1128_wf : GatherDims.WF S30001x128 S30000x32x1 S30000x32x128 [2] [0] [] [0] [] 2 ![1, 128]
  dot_S600x128_S128x32_S600x32_1_0_0_1_n_n_wf : DotDims.WF S600x128 S128x32 S600x32 [1] [0] [0] [1] [] []
  dot_S600x32_S32x120_S600x120_1_0_0_1_n_n_wf : DotDims.WF S600x32 S32x120 S600x120 [1] [0] [0] [1] [] []
  dot_S600x8_S8x128_S600x128_1_0_0_1_n_n_wf : DotDims.WF S600x8 S8x128 S600x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S600x3.size a ≤ S30000x3.size a
  hwx0_0 : ∀ i : grid0.Coords, EltTy.bits .f32 = 32 ∨ (Rect.block (s := S30000x3) S600x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S600x32x3.size a ≤ S30000x32x3.size a
  hwx0_1 : ∀ i : grid0.Coords, EltTy.bits .f32 = 32 ∨ (Rect.block (s := S30000x32x3) S600x32x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S600x32x128.size a ≤ S30000x32x128.size a
  hwx0_2 : ∀ i : grid0.Coords, EltTy.bits .f32 = 32 ∨ (Rect.block (s := S30000x32x128) S600x32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S15x3.size a ≤ S15x3.size a
  hwx0_3 : ∀ i : grid0.Coords, EltTy.bits .f32 = 32 ∨ (Rect.block (s := S15x3) S15x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x32.size a ≤ S128x32.size a
  hwx0_4 : ∀ i : grid0.Coords, EltTy.bits .f32 = 32 ∨ (Rect.block (s := S128x32) S128x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32.size a ≤ S32.size a
  hwx0_5 : ∀ i : grid0.Coords, EltTy.bits .f32 = 32 ∨ (Rect.block (s := S32) S32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32x120.size a ≤ S32x120.size a
  hwx0_6 : ∀ i : grid0.Coords, EltTy.bits .f32 = 32 ∨ (Rect.block (s := S32x120) S32x120.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S120.size a ≤ S120.size a
  hwx0_7 : ∀ i : grid0.Coords, EltTy.bits .f32 = 32 ∨ (Rect.block (s := S120) S120.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S8x128.size a ≤ S8x128.size a
  hwx0_8 : ∀ i : grid0.Coords, EltTy.bits .f32 = 32 ∨ (Rect.block (s := S8x128) S8x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S600x128.size a ≤ S30000x128.size a
  hwx0_9 : ∀ i : grid0.Coords, EltTy.bits .f32 = 32 ∨ (Rect.block (s := S30000x128) S600x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S3000x128.size a ≤ S30000x128.size a
  hwx1_0 : ∀ i : grid1.Coords, EltTy.bits .f32 = 32 ∨ (Rect.block (s := S30000x128) S3000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S3000x128.size a ≤ S30000x128.size a
  hwx1_5 : ∀ i : grid1.Coords, EltTy.bits .f32 = 32 ∨ (Rect.block (s := S30000x128) S3000x128.size (cc1_transform_5 i) (hinb1_5 i)).WholeWords (EltTy.packing .f32)

variable [Facts₀]

def gather_S30001x3_S30000x32x1_S30000x32x3_2_0_n_n_0_2_13 : GatherDims S30001x3 S30000x32x1 S30000x32x3 where
  offsetDims := [2]
  collapsedSliceDims := [0]
  operandBatchingDims := []
  startIndicesBatchingDims := []
  startIndexMap := [0]
  indexVectorDim := 2
  sliceSizes := ![1, 3]
  wf := gather_S30001x3_S30000x32x1_S30000x32x3_2_0_n_n_0_2_13_wf
def gather_S30001x128_S30000x32x1_S30000x32x128_2_0_n_n_0_2_1128 : GatherDims S30001x128 S30000x32x1 S30000x32x128 where
  offsetDims := [2]
  collapsedSliceDims := [0]
  operandBatchingDims := []
  startIndicesBatchingDims := []
  startIndexMap := [0]
  indexVectorDim := 2
  sliceSizes := ![1, 128]
  wf := gather_S30001x128_S30000x32x1_S30000x32x128_2_0_n_n_0_2_1128_wf
def dot_S600x128_S128x32_S600x32_1_0_0_1_n_n : DotDims S600x128 S128x32 S600x32 where
  lhsContracting := [1]
  rhsContracting := [0]
  lhsNonContracting := [0]
  rhsNonContracting := [1]
  lhsBatch := []
  rhsBatch := []
  wf := dot_S600x128_S128x32_S600x32_1_0_0_1_n_n_wf
def dot_S600x32_S32x120_S600x120_1_0_0_1_n_n : DotDims S600x32 S32x120 S600x120 where
  lhsContracting := [1]
  rhsContracting := [0]
  lhsNonContracting := [0]
  rhsNonContracting := [1]
  lhsBatch := []
  rhsBatch := []
  wf := dot_S600x32_S32x120_S600x120_1_0_0_1_n_n_wf
def dot_S600x8_S8x128_S600x128_1_0_0_1_n_n : DotDims S600x8 S8x128 S600x128 where
  lhsContracting := [1]
  rhsContracting := [0]
  lhsNonContracting := [0]
  rhsNonContracting := [1]
  lhsBatch := []
  rhsBatch := []
  wf := dot_S600x8_S8x128_S600x128_1_0_0_1_n_n_wf

abbrev win0_0 : Pipeline.Window sig grid0 :=
  Pipeline.Window.ofSpec (Memref.whole main_arg0) S600x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S600x32x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S600x32x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S15x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S32x120.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S120.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_cst) S8x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v18) S600x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v18) S3000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v22) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S3000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S30000x3 : Shape := ⟨2, ![30000, 3]⟩
abbrev S30000x128 : Shape := ⟨2, ![30000, 128]⟩
abbrev S30000x32 : Shape := ⟨2, ![30000, 32]⟩
abbrev S15x3 : Shape := ⟨2, ![15, 3]⟩
abbrev S128x32 : Shape := ⟨2, ![128, 32]⟩
abbrev S32 : Shape := ⟨1, ![32]⟩
abbrev S32x120 : Shape := ⟨2, ![32, 120]⟩
abbrev S120 : Shape := ⟨1, ![120]⟩
abbrev S128 : Shape := ⟨1, ![128]⟩
abbrev S_ : Shape := ⟨0, ![]⟩
abbrev S1x3 : Shape := ⟨2, ![1, 3]⟩
abbrev S30001x3 : Shape := ⟨2, ![30001, 3]⟩
abbrev S1x128 : Shape := ⟨2, ![1, 128]⟩
abbrev S30001x128 : Shape := ⟨2, ![30001, 128]⟩
abbrev S30000x32x1 : Shape := ⟨3, ![30000, 32, 1]⟩
abbrev S30000x32x3 : Shape := ⟨3, ![30000, 32, 3]⟩
abbrev S30000x32x128 : Shape := ⟨3, ![30000, 32, 128]⟩
abbrev S30000x1x3 : Shape := ⟨3, ![30000, 1, 3]⟩
abbrev S30000x32x1x3 : Shape := ⟨4, ![30000, 32, 1, 3]⟩
abbrev S1x1x15x3 : Shape := ⟨4, ![1, 1, 15, 3]⟩
abbrev S30000x32x15x3 : Shape := ⟨4, ![30000, 32, 15, 3]⟩
abbrev S30000x32x15 : Shape := ⟨3, ![30000, 32, 15]⟩
abbrev S30000x15x32 : Shape := ⟨3, ![30000, 15, 32]⟩
abbrev S30000x15x128 : Shape := ⟨3, ![30000, 15, 128]⟩
abbrev S30000x1x128 : Shape := ⟨3, ![30000, 1, 128]⟩
abbrev S1x32 : Shape := ⟨2, ![1, 32]⟩
abbrev S30000x120 : Shape := ⟨2, ![30000, 120]⟩
abbrev S1x120 : Shape := ⟨2, ![1, 120]⟩
abbrev S30000x15x8 : Shape := ⟨3, ![30000, 15, 8]⟩
abbrev S30000x15x8x16 : Shape := ⟨4, ![30000, 15, 8, 16]⟩
abbrev S30000x15x8x1 : Shape := ⟨4, ![30000, 15, 8, 1]⟩
abbrev S30000x8x16 : Shape := ⟨3, ![30000, 8, 16]⟩

abbrev nBuf : Space → Nat
  | .hbm => 137
  | .vmem => 0
  | .smem => 0
  | _ => 0

abbrev hbmTy0_0 (i : Nat) : BufTy := match i % 128 with
  | 0 => ⟨S30000x3, .f32⟩
  | 1 => ⟨S30000x3, .f32⟩
  | 2 => ⟨S30000x128, .f32⟩
  | 3 => ⟨S30000x32, .i32⟩
  | 4 => ⟨S15x3, .f32⟩
  | 5 => ⟨S128x32, .f32⟩
  | 6 => ⟨S32, .f32⟩
  | 7 => ⟨S32x120, .f32⟩
  | 8 => ⟨S120, .f32⟩
  | 9 => ⟨S128, .f32⟩
  | 10 => ⟨S128, .f32⟩
  | 11 => ⟨S_, .f32⟩
  | 12 => ⟨S1x3, .f32⟩
  | 13 => ⟨S30001x3, .f32⟩
  | 14 => ⟨S_, .f32⟩
  | 15 => ⟨S1x128, .f32⟩
  | 16 => ⟨S30001x128, .f32⟩
  | 17 => ⟨S_, .i32⟩
  | 18 => ⟨S30000x32, .i32⟩
  | 19 => ⟨S30000x32, .i1⟩
  | 20 => ⟨S_, .i32⟩
  | 21 => ⟨S30000x32, .i32⟩
  | 22 => ⟨S30000x32, .i32⟩
  | 23 => ⟨S30000x32, .i32⟩
  | 24 => ⟨S30000x32x1, .i32⟩
  | 25 => ⟨S30000x32x3, .f32⟩
  | 26 => ⟨S_, .i32⟩
  | 27 => ⟨S30000x32, .i32⟩
  | 28 => ⟨S30000x32, .i1⟩
  | 29 => ⟨S_, .i32⟩
  | 30 => ⟨S30000x32, .i32⟩
  | 31 => ⟨S30000x32, .i32⟩
  | 32 => ⟨S30000x32, .i32⟩
  | 33 => ⟨S30000x32x1, .i32⟩
  | 34 => ⟨S30000x32x128, .f32⟩
  | 35 => ⟨S30000x1x3, .f32⟩
  | 36 => ⟨S30000x32x3, .f32⟩
  | 37 => ⟨S30000x32x3, .f32⟩
  | 38 => ⟨S30000x32x1x3, .f32⟩
  | 39 => ⟨S1x1x15x3, .f32⟩
  | 40 => ⟨S30000x32x15x3, .f32⟩
  | 41 => ⟨S30000x32x15x3, .f32⟩
  | 42 => ⟨S30000x32x15x3, .f32⟩
  | 43 => ⟨S30000x32x15x3, .f32⟩
  | 44 => ⟨S_, .f32⟩
  | 45 => ⟨S30000x32x15, .f32⟩
  | 46 => ⟨S30000x32x15, .f32⟩
  | 47 => ⟨S_, .f32⟩
  | 48 => ⟨S30000x32x15, .f32⟩
  | 49 => ⟨S30000x32x15, .f32⟩
  | 50 => ⟨S_, .f32⟩
  | 51 => ⟨S30000x32x15, .f32⟩
  | 52 => ⟨S30000x32x15, .f32⟩
  | 53 => ⟨S_, .f32⟩
  | 54 => ⟨S_, .f32⟩
  | 55 => ⟨S30000x32x15, .f32⟩
  | 56 => ⟨S30000x32x15, .f32⟩
  | 57 => ⟨S30000x15x32, .f32⟩
  | 58 => ⟨S30000x15x128, .f32⟩
  | 59 => ⟨S30000x1x128, .f32⟩
  | 60 => ⟨S30000x128, .f32⟩
  | 61 => ⟨S30000x32, .f32⟩
  | 62 => ⟨S1x32, .f32⟩
  | 63 => ⟨S30000x32, .f32⟩
  | 64 => ⟨S30000x32, .f32⟩
  | 65 => ⟨S_, .f32⟩
  | 66 => ⟨S_, .f32⟩
  | 67 => ⟨S30000x32, .f32⟩
  | 68 => ⟨S30000x32, .i1⟩
  | 69 => ⟨S_, .f32⟩
  | 70 => ⟨S30000x32, .f32⟩
  | 71 => ⟨S30000x32, .f32⟩
  | 72 => ⟨S30000x32, .f32⟩
  | 73 => ⟨S30000x120, .f32⟩
  | 74 => ⟨S1x120, .f32⟩
  | 75 => ⟨S30000x120, .f32⟩
  | 76 => ⟨S30000x120, .f32⟩
  | 77 => ⟨S30000x15x8, .f32⟩
  | 78 => ⟨S30000x15x8x16, .f32⟩
  | 79 => ⟨S30000x15x8x1, .f32⟩
  | 80 => ⟨S30000x15x8x16, .f32⟩
  | 81 => ⟨S30000x15x8x16, .f32⟩
  | 82 => ⟨S_, .f32⟩
  | 83 => ⟨S30000x8x16, .f32⟩
  | 84 => ⟨S30000x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S30000x128, .f32⟩
  | 98 => ⟨S30000x128, .f32⟩
  | 99 => ⟨S30000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S1x128, .f32⟩
  | 114 => ⟨S30000x128, .f32⟩
  | 115 => ⟨S30000x128, .f32⟩
  | 116 => ⟨S_, .f32⟩
  | 117 => ⟨S128, .f32⟩
  | 118 => ⟨S128, .f32⟩
  | 119 => ⟨S128, .f32⟩
  | 120 => ⟨S1x128, .f32⟩
  | 121 => ⟨S30000x128, .f32⟩
  | 122 => ⟨S30000x128, .f32⟩
  | 123 => ⟨S1x128, .f32⟩
  | 124 => ⟨S30000x128, .f32⟩
  | 125 => ⟨S30000x128, .f32⟩
  | 126 => ⟨S1x128, .f32⟩
  | 127 => ⟨S30000x128, .f32⟩
  | _ => ⟨S30000x3, .f32⟩

abbrev hbmTy0_1 (i : Nat) : BufTy := match i % 128 with
  | 0 => ⟨S30000x128, .f32⟩
  | 1 => ⟨S_, .f32⟩
  | 2 => ⟨S_, .f32⟩
  | 3 => ⟨S30000x128, .f32⟩
  | 4 => ⟨S30000x128, .i1⟩
  | 5 => ⟨S_, .f32⟩
  | 6 => ⟨S30000x128, .f32⟩
  | 7 => ⟨S30000x128, .f32⟩
  | 8 => ⟨S30000x128, .f32⟩
  | _ => ⟨S30000x3, .f32⟩

abbrev hbmTy (i : Nat) : BufTy := match i / 128 with
  | 0 => hbmTy0_0 i
  | 1 => hbmTy0_1 i
  | _ => ⟨S30000x3, .f32⟩

abbrev bufTy : (tb : Table) → Fin (tcTables nBuf tb) → BufTy
  | .hbm, ⟨i, _⟩ => hbmTy i
  | _, _ => ⟨S30000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_c_3 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_cst_6 : Ref sig .tc := ⟨.hbm, 50, rfl⟩
abbrev main_v31 : Ref sig .tc := ⟨.hbm, 51, rfl⟩
abbrev main_v32 : Ref sig .tc := ⟨.hbm, 52, rfl⟩
abbrev main_cst_7 : Ref sig .tc := ⟨.hbm, 53, rfl⟩
abbrev main_call0_v0 : Ref sig .tc := ⟨.hbm, 54, rfl⟩
abbrev main_call0_v1 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_call1_cst : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_9 : Ref sig .tc := ⟨.hbm, 82, rfl⟩
abbrev main_v52 : Ref sig .tc := ⟨.hbm, 83, rfl⟩
abbrev main_v53 : Ref sig .tc := ⟨.hbm, 84, rfl⟩
abbrev main_cst_10 : Ref sig .tc := ⟨.hbm, 85, rfl⟩
abbrev main_v54 : Ref sig .tc := ⟨.hbm, 86, rfl⟩
abbrev main_cst_11 : Ref sig .tc := ⟨.hbm, 87, rfl⟩
abbrev main_v55 : Ref sig .tc := ⟨.hbm, 88, rfl⟩
abbrev main_v56 : Ref sig .tc := ⟨.hbm, 89, rfl⟩
abbrev main_c_12 : Ref sig .tc := ⟨.hbm, 90, rfl⟩
abbrev main_call2_cst : Ref sig .tc := ⟨.hbm, 91, rfl⟩
abbrev main_call2_v0 : Ref sig .tc := ⟨.hbm, 92, rfl⟩
abbrev main_call2_v1 : Ref sig .tc := ⟨.hbm, 93, rfl⟩
abbrev main_call2_cst_0 : Ref sig .tc := ⟨.hbm, 94, rfl⟩
abbrev main_call2_v2 : Ref sig .tc := ⟨.hbm, 95, rfl⟩
abbrev main_call2_v3 : Ref sig .tc := ⟨.hbm, 96, rfl⟩
abbrev main_call2_v4 : Ref sig .tc := ⟨.hbm, 97, rfl⟩
abbrev main_call2_v5 : Ref sig .tc := ⟨.hbm, 98, rfl⟩
abbrev main_call2_v6 : Ref sig .tc := ⟨.hbm, 99, rfl⟩
abbrev main_call2_v7 : Ref sig .tc := ⟨.hbm, 100, rfl⟩
abbrev main_call2_cst_1 : Ref sig .tc := ⟨.hbm, 101, rfl⟩
abbrev main_call2_v8 : Ref sig .tc := ⟨.hbm, 102, rfl⟩
abbrev main_call2_cst_2 : Ref sig .tc := ⟨.hbm, 103, rfl⟩
abbrev main_call2_v9 : Ref sig .tc := ⟨.hbm, 104, rfl⟩
abbrev main_call2_v10 : Ref sig .tc := ⟨.hbm, 105, rfl⟩
abbrev main_call2_v11 : Ref sig .tc := ⟨.hbm, 106, rfl⟩
abbrev main_call2_cst_3 : Ref sig .tc := ⟨.hbm, 107, rfl⟩
abbrev main_call2_v12 : Ref sig .tc := ⟨.hbm, 108, rfl⟩
abbrev main_call2_cst_4 : Ref sig .tc := ⟨.hbm, 109, rfl⟩
abbrev main_call2_call0_v0 : Ref sig .tc := ⟨.hbm, 110, rfl⟩
abbrev main_call2_call0_v1 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_v60 : Ref sig .tc := ⟨.hbm, 115, rfl⟩
abbrev main_cst_13 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_v72 : Ref sig .tc := ⟨.hbm, 128, rfl⟩
abbrev main_cst_14 : Ref sig .tc := ⟨.hbm, 129, rfl⟩
abbrev main_call3_cst : Ref sig .tc := ⟨.hbm, 130, rfl⟩
abbrev main_call3_v0 : Ref sig .tc := ⟨.hbm, 131, rfl⟩
abbrev main_call3_v1 : Ref sig .tc := ⟨.hbm, 132, rfl⟩
abbrev main_call3_v2 : Ref sig .tc := ⟨.hbm, 133, rfl⟩
abbrev main_call3_v3 : Ref sig .tc := ⟨.hbm, 134, rfl⟩
abbrev main_call3_v4 : Ref sig .tc := ⟨.hbm, 135, rfl⟩
abbrev main_v73 : Ref sig .tc := ⟨.hbm, 136, rfl⟩

abbrev nD : Nat := 1
abbrev τ : Topo := Topo.v7x

variable {F : FTy → Type} [FloatOps F]

class Facts₀ : Prop where
  bcast_S_S1x3 : S_.BroadcastsInDim S1x3 (![] : Fin 0 → Fin S1x3.rank)
  concatenates_S30000x3_S1x3_S30001x3_d0 : Shape.Concatenates [S30000x3, S1x3] S30001x3 0
  bcast_S_S1x128 : S_.BroadcastsInDim S1x128 (![] : Fin 0 → Fin S1x128.rank)
  concatenates_S30000x128_S1x128_S30001x128_d0 : Shape.Concatenates [S30000x128, S1x128] S30001x128 0
  bcast_S_S30000x32 : S_.BroadcastsInDim S30000x32 (![] : Fin 0 → Fin S30000x32.rank)
  bcast_S30000x32_S30000x32x1_0_1 : S30000x32.BroadcastsInDim S30000x32x1 (![0, 1] : Fin 2 → Fin S30000x32x1.rank)
  bcast_S30000x3_S30000x1x3_0_2 : S30000x3.BroadcastsInDim S30000x1x3 (![0, 2] : Fin 2 → Fin S30000x1x3.rank)
  bcast_S30000x1x3_S30000x32x3_0_1_2 : S30000x1x3.BroadcastsInDim S30000x32x3 (![0, 1, 2] : Fin 3 → Fin S30000x32x3.rank)
  bcast_S30000x32x3_S30000x32x1x3_0_1_3 : S30000x32x3.BroadcastsInDim S30000x32x1x3 (![0, 1, 3] : Fin 3 → Fin S30000x32x1x3.rank)
  bcast_S15x3_S1x1x15x3_2_3 : S15x3.BroadcastsInDim S1x1x15x3 (![2, 3] : Fin 2 → Fin S1x1x15x3.rank)
  bcast_S30000x32x1x3_S30000x32x15x3_0_1_2_3 : S30000x32x1x3.BroadcastsInDim S30000x32x15x3 (![0, 1, 2, 3] : Fin 4 → Fin S30000x32x15x3.rank)
  bcast_S1x1x15x3_S30000x32x15x3_0_1_2_3 : S1x1x15x3.BroadcastsInDim S30000x32x15x3 (![0, 1, 2, 3] : Fin 4 → Fin S30000x32x15x3.rank)
  reducesTo_S30000x32x15x3_S30000x32x15_d3 : S30000x32x15x3.ReducesTo [3] S30000x32x15
  h_S_ : 0 < S_.numel
  bcast_S_S30000x32x15 : S_.BroadcastsInDim S30000x32x15 (![] : Fin 0 → Fin S30000x32x15.rank)
  transposes_S30000x32x15_S30000x15x32_0_2_1 : S30000x32x15.Transposes [0, 2, 1] S30000x15x32
  slices_S30000x32x128_S30000x1x128_0_0_0 : S30000x32x128.Slices ![0, 0, 0] S30000x1x128
  shapeCasts_S30000x1x128_S30000x128 : S30000x1x128.ShapeCasts S30000x128
  bcast_S32_S1x32_1 : S32.BroadcastsInDim S1x32 (![1] : Fin 1 → Fin S1x32.rank)
  bcast_S1x32_S30000x32_0_1 : S1x32.BroadcastsInDim S30000x32 (![0, 1] : Fin 2 → Fin S30000x32.rank)
  bcast_S120_S1x120_1 : S120.BroadcastsInDim S1x120 (![1] : Fin 1 → Fin S1x120.rank)
  bcast_S1x120_S30000x120_0_1 : S1x120.BroadcastsInDim S30000x120 (![0, 1] : Fin 2 → Fin S30000x120.rank)
  shapeCasts_S30000x120_S30000x15x8 : S30000x120.ShapeCasts S30000x15x8
  shapeCasts_S30000x15x128_S30000x15x8x16 : S30000x15x128.ShapeCasts S30000x15x8x16
  bcast_S30000x15x8_S30000x15x8x1_0_1_2 : S30000x15x8.BroadcastsInDim S30000x15x8x1 (![0, 1, 2] : Fin 3 → Fin S30000x15x8x1.rank)
  bcast_S30000x15x8x1_S30000x15x8x16_0_1_2_3 : S30000x15x8x1.BroadcastsInDim S30000x15x8x16 (![0, 1, 2, 3] : Fin 4 → Fin S30000x15x8x16.rank)
  reducesTo_S30000x15x8x16_S30000x8x16_d1 : S30000x15x8x16.ReducesTo [1] S30000x8x16
  shapeCasts_S30000x8x16_S30000x128 : S30000x8x16.ShapeCasts S30000x128
  reducesTo_S30000x128_S128_d0 : S30000x128.ReducesTo [0] S128
  bcast_S_S128 : S_.BroadcastsInDim S128 (![] : Fin 0 → Fin S128.rank)
  bcast_S128_S1x128_1 : S128.BroadcastsInDim S1x128 (![1] : Fin 1 → Fin S1x128.rank)
  bcast_S1x128_S30000x128_0_1 : S1x128.BroadcastsInDim S30000x128 (![0, 1] : Fin 2 → Fin S30000x128.rank)
  bcast_S_S30000x128 : S_.BroadcastsInDim S30000x128 (![] : Fin 0 → Fin S30000x128.rank)
  gather_S30001x3_S30000x32x1_S30000x32x3_2_0_n_n_0_2_13_wf : GatherDims.WF S30001x3 S30000x32x1 S30000x32x3 [2] [0] [] [0] [] 2 ![1, 3]
  gather_S30001x128_S30000x32x1_S30000x32x128_2_0_n_n_0_2_1128_wf : GatherDims.WF S30001x128 S30000x32x1 S30000x32x128 [2] [0] [] [0] [] 2 ![1, 128]
  dot_S30000x15x32_S30000x32x128_S30000x15x128_2_1_1_2_0_0_wf : DotDims.WF S30000x15x32 S30000x32x128 S30000x15x128 [2] [1] [1] [2] [0] [0]
  dot_S30000x128_S128x32_S30000x32_1_0_0_1_n_n_wf : DotDims.WF S30000x128 S128x32 S30000x32 [1] [0] [0] [1] [] []
  dot_S30000x32_S32x120_S30000x120_1_0_0_1_n_n_wf : DotDims.WF S30000x32 S32x120 S30000x120 [1] [0] [0] [1] [] []

variable [Facts₀]

def gather_S30001x3_S30000x32x1_S30000x32x3_2_0_n_n_0_2_13 : GatherDims S30001x3 S30000x32x1 S30000x32x3 where
  offsetDims := [2]
  collapsedSliceDims := [0]
  operandBatchingDims := []
  startIndicesBatchingDims := []
  startIndexMap := [0]
  indexVectorDim := 2
  sliceSizes := ![1, 3]
  wf := gather_S30001x3_S30000x32x1_S30000x32x3_2_0_n_n_0_2_13_wf
def gather_S30001x128_S30000x32x1_S30000x32x128_2_0_n_n_0_2_1128 : GatherDims S30001x128 S30000x32x1 S30000x32x128 where
  offsetDims := [2]
  collapsedSliceDims := [0]
  operandBatchingDims := []
  startIndicesBatchingDims := []
  startIndexMap := [0]
  indexVectorDim := 2
  sliceSizes := ![1, 128]
  wf := gather_S30001x128_S30000x32x1_S30000x32x128_2_0_n_n_0_2_1128_wf
def dot_S30000x15x32_S30000x32x128_S30000x15x128_2_1_1_2_0_0 : DotDims S30000x15x32 S30000x32x128 S30000x15x128 where
  lhsContracting := [2]
  rhsContracting := [1]
  lhsNonContracting := [1]
  rhsNonContracting := [2]
  lhsBatch := [0]
  rhsBatch := [0]
  wf := dot_S30000x15x32_S30000x32x128_S30000x15x128_2_1_1_2_0_0_wf
def dot_S30000x128_S128x32_S30000x32_1_0_0_1_n_n : DotDims S30000x128 S128x32 S30000x32 where
  lhsContracting := [1]
  rhsContracting := [0]
  lhsNonContracting := [0]
  rhsNonContracting := [1]
  lhsBatch := []
  rhsBatch := []
  wf := dot_S30000x128_S128x32_S30000x32_1_0_0_1_n_n_wf
def dot_S30000x32_S32x120_S30000x120_1_0_0_1_n_n : DotDims S30000x32 S32x120 S30000x120 where
  lhsContracting := [1]
  rhsContracting := [0]
  lhsNonContracting := [0]
  rhsNonContracting := [1]
  lhsBatch := []
  rhsBatch := []
  wf := dot_S30000x32_S32x120_S30000x120_1_0_0_1_n_n_wf

class Facts : Prop extends Facts₀ where

variable [Facts]
-- ==== Proof.KRun.lean ====
/-
  The kernel program's run, with its result named.

  Every weakly fair execution of the program ends, nothing faulting, with the arguments as launched and the
  result array at what the last boundary of the run holds there: the second region's output array after its
  write-backs (`W5` at the result buffer). The run is the one behind the frame; only the final read differs,
  which here also reads the result buffer.
-/
import proofs.«106741_j66271345377641_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: it terminates without a fault; the result array ends at the last boundary's contents and the
    arguments end as launched. -/
theorem run : θ_run defs (onTc (τ := τ) (main (F := F))) ⟨m, fun _ => 0, ρ⟩ (fun r => ∀ c : Dev nD,
      r.2.mem ((c.tc : Thread nD τ).loc main_v23) = W5 m ρ c (Proc.devRef .tc main_v23)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v23 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c)⟩)

end Cert.KernelIdeal.KRun

end
-- ==== Proof.Spec.lean ====
/-
  The mathematics both programs compute, one query point (one row) at a time, on the extended reals.

  A query point `q` has 32 gathered neighbours with positions `np h` and features `nf h`; there are 15 kernel
  points `kp k`. A neighbour's influence on kernel point `k` is `max 0 (1 - ‖(np h - q) - kp k‖ / 2)`; the
  weighted feature of kernel point `k` in channel `c` is the influence-weighted sum of the neighbours' features.
  The per-query convolution weights come from the first neighbour's features through two dense layers with a
  leaky rectifier between them: 120 numbers, read as 15 kernel points × 8 channel groups. Channel `c` belongs to
  group `c / 16`. The pre-normalisation output of channel `c` is the sum over kernel points of weighted feature ×
  the weight of `c`'s group. One program picks the group's weight by an index (`refPre`), the other by a product
  with an 8 × 128 matrix `R` (`kerPre`); they agree when `R` is the 0/1 membership matrix of the groups.
  Afterwards every channel is centred by a mean, scaled by the inverse root of a variance plus a small constant
  and by `g`, shifted by `b`, and passed through the leaky rectifier (`normPt`).
-/
import Idealize.ShloMosaic.PureOps.Ideal
import Idealize.ShloMosaic.PureOps.Ideal.Laws
import Idealize.ShloMosaic.Lib.ValueIdx

noncomputable section

namespace Cert.KP

open Idealize.ShloMosaic

/-- The leaky rectifier: `x` where `x ≥ 0`, one tenth (the f32 nearest to it) of `x` elsewhere. -/
def leaky (x : EReal) : EReal :=
  Scalar.select (Ideal.cmp .oge x (0 : EReal)) x (Ideal.ofBits .f32 0x3DCCCCCD#32 * x)

/-- The influence of a centred neighbour `p` on a kernel point `q`: `max 0 (1 - ‖p - q‖ / 2)`. -/
def infl (p q : Fin 3 → EReal) : EReal :=
  max (0 : EReal) (Ideal.ofBits .f32 0x3F800000#32
    - Ideal.div (Ideal.sqrt (∑ d : Fin 3, (p d - q d) * (p d - q d))) (Ideal.ofBits .f32 0x40000000#32))

/-- Kernel point `k`'s weighted feature in channel `c`: the neighbours' features weighted by their influence. -/
def wfeat (q : Fin 3 → EReal) (np : Fin 32 → Fin 3 → EReal) (nf : Fin 32 → Fin 128 → EReal)
    (kp : Fin 15 → Fin 3 → EReal) (k : Fin 15) (c : Fin 128) : EReal :=
  ∑ h : Fin 32, infl (fun d => np h d - q d) (kp k) * nf h c

/-- The hidden layer of the weight generator, from the first neighbour's features `f`. -/
def hidden (f : Fin 128 → EReal) (w1 : Fin 128 → Fin 32 → EReal) (b1 : Fin 32 → EReal) (j : Fin 32) : EReal :=
  leaky ((∑ i : Fin 128, f i * w1 i j) + b1 j)

/-- The 120 generated weights (15 kernel points × 8 groups, kernel point major). -/
def convw (f : Fin 128 → EReal) (w1 : Fin 128 → Fin 32 → EReal) (b1 : Fin 32 → EReal)
    (w2 : Fin 32 → Fin 120 → EReal) (b2 : Fin 120 → EReal) (o : Fin 120) : EReal :=
  (∑ j : Fin 32, hidden f w1 b1 j * w2 j o) + b2 o

/-- A row before normalisation, the group's weight picked by a product with the matrix `R`. -/
def kerPre (q : Fin 3 → EReal) (np : Fin 32 → Fin 3 → EReal) (nf : Fin 32 → Fin 128 → EReal)
    (kp : Fin 15 → Fin 3 → EReal) (w1 : Fin 128 → Fin 32 → EReal) (b1 : Fin 32 → EReal)
    (w2 : Fin 32 → Fin 120 → EReal) (b2 : Fin 120 → EReal) (R : Fin 8 → Fin 128 → EReal) (c : Fin 128) : EReal :=
  ∑ k : Fin 15, wfeat q np nf kp k c *
    ∑ g : Fin 8, convw (nf 0) w1 b1 w2 b2 ⟨8 * k.val + g.val, by omega⟩ * R g c

/-- A row before normalisation, the group's weight picked by the index `c / 16`. -/
def refPre (q : Fin 3 → EReal) (np : Fin 32 → Fin 3 → EReal) (nf : Fin 32 → Fin 128 → EReal)
    (kp : Fin 15 → Fin 3 → EReal) (w1 : Fin 128 → Fin 32 → EReal) (b1 : Fin 32 → EReal)
    (w2 : Fin 32 → Fin 120 → EReal) (b2 : Fin 120 → EReal) (c : Fin 128) : EReal :=
  ∑ k : Fin 15, wfeat q np nf kp k c * convw (nf 0) w1 b1 w2 b2 ⟨8 * k.val + c.val / 16, by omega⟩

/-- One entry after normalisation: centred, scaled, shifted, rectified. -/
def normPt (x mu v g b : EReal) : EReal :=
  leaky ((x - mu) * Ideal.rsqrt (v + Ideal.ofBits .f32 0x3727C5AC#32) * g + b)

end Cert.KP

end
-- ==== Proof.KVal0.lean ====
/-
  The first region's output array as one function of the arrays the region finds.

  The region walks the 30000 query points in 50 blocks of 600; at a block it reads the block's query positions,
  gathered neighbour positions and gathered neighbour features, and — whole — the kernel points, the two weight
  layers with their biases and the 8 × 128 group matrix, and stores one 600 × 128 block. Row `r` of block `t` is
  row `600 t + r` of every row-blocked array and the blocks tile the output, so the output ends holding, at
  (i, c), the row formula of row `i`'s own data.
-/
import proofs.«106741_j66271345377641_1_alg».proof.Proof.Gen.KernelIdeal.Frame
import proofs.«106741_j66271345377641_1_alg».proof.Proof.Spec
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The pre-normalisation array, entry by entry: row `i`'s formula in channel `c`. -/
def G0 (a0 : S30000x3.Idx → Elt Ideal .f32) (np : S30000x32x3.Idx → Elt Ideal .f32) (nf : S30000x32x128.Idx → Elt Ideal .f32)
    (kp : S15x3.Idx → Elt Ideal .f32) (w1 : S128x32.Idx → Elt Ideal .f32) (b1 : S32.Idx → Elt Ideal .f32)
    (w2 : S32x120.Idx → Elt Ideal .f32) (b2 : S120.Idx → Elt Ideal .f32) (R : S8x128.Idx → Elt Ideal .f32) :
    S30000x128.Idx → Elt Ideal .f32 :=
  fun i => Cert.KP.kerPre (fun d => a0 (ix2 (i 0) d)) (fun h d => np (ix3 (i 0) h d)) (fun h c' => nf (ix3 (i 0) h c'))
    (fun k d => kp (ix2 k d)) (fun a b => w1 (ix2 a b)) (fun j => b1 (ix1 j)) (fun j o => w2 (ix2 j o))
    (fun o => b2 (ix1 o)) (fun g c' => R (ix2 g c')) (i 1)

/-- Block `t` of the row-blocked windows is at block row `t` and 0 on the other axes; the whole-array windows'
    one block is at 0. -/
theorem idx_facts0 : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = 0 ∧ win0_8.index t (1 : Fin 2) = 0
    ∧ win0_9.index t (0 : Fin 2) = t.val ∧ win0_9.index t (1 : Fin 2) = 0 :=
  (by decide +kernel : ∀ t : Fin grid0.N, _)

/-- The body's block at any index of the block (the index split into its two coordinates). -/
theorem pay0_at
    (hpay : ∀ (x0 : Vec Ideal S600x3 .f32) (x1 : Vec Ideal S600x32x3 .f32) (x2 : Vec Ideal S600x32x128 .f32)
      (x3 : Vec Ideal S15x3 .f32) (x4 : Vec Ideal S128x32 .f32) (x5 : Vec Ideal S32 .f32) (x6 : Vec Ideal S32x120 .f32)
      (x7 : Vec Ideal S120 .f32) (x8 : Vec Ideal S8x128 .f32) (r : Fin 600) (cc : Fin 128),
      out0_9 (F := Ideal) x0 x1 x2 x3 x4 x5 x6 x7 x8 (ix2 r cc)
        = Cert.KP.kerPre (fun d => x0 (ix2 r d)) (fun h d => x1 (ix3 r h d)) (fun h c' => x2 (ix3 r h c'))
            (fun k d => x3 (ix2 k d)) (fun i j => x4 (ix2 i j)) (fun j => x5 (ix1 j)) (fun j o => x6 (ix2 j o))
            (fun o => x7 (ix1 o)) (fun g c' => x8 (ix2 g c')) cc)
    (x0 : Vec Ideal S600x3 .f32) (x1 : Vec Ideal S600x32x3 .f32) (x2 : Vec Ideal S600x32x128 .f32)
    (x3 : Vec Ideal S15x3 .f32) (x4 : Vec Ideal S128x32 .f32) (x5 : Vec Ideal S32 .f32) (x6 : Vec Ideal S32x120 .f32)
    (x7 : Vec Ideal S120 .f32) (x8 : Vec Ideal S8x128 .f32) (j : S600x128.Idx) :
    out0_9 (F := Ideal) x0 x1 x2 x3 x4 x5 x6 x7 x8 j
      = Cert.KP.kerPre (fun d => x0 (ix2 (j 0) d)) (fun h d => x1 (ix3 (j 0) h d)) (fun h c' => x2 (ix3 (j 0) h c'))
            (fun k d => x3 (ix2 k d)) (fun i j => x4 (ix2 i j)) (fun j => x5 (ix1 j)) (fun j o => x6 (ix2 j o))
            (fun o => x7 (ix1 o)) (fun g c' => x8 (ix2 g c')) (j 1) := by
  have h := hpay x0 x1 x2 x3 x4 x5 x6 x7 x8 (j 0) (j 1)
  have aux : ∀ k : S600x128.Idx, k = ix2 (j 0) (j 1) → out0_9 (F := Ideal) x0 x1 x2 x3 x4 x5 x6 x7 x8 k
      = Cert.KP.kerPre (fun d => x0 (ix2 (j 0) d)) (fun h d => x1 (ix3 (j 0) h d)) (fun h c' => x2 (ix3 (j 0) h c'))
            (fun k d => x3 (ix2 k d)) (fun i j => x4 (ix2 i j)) (fun j => x5 (ix1 j)) (fun j o => x6 (ix2 j o))
            (fun o => x7 (ix1 o)) (fun g c' => x8 (ix2 g c')) (j 1) := by
    intro k hk; rw [hk]; exact h
  exact aux j (eq_ix2 j)

/-- The row formula depends on its ten arguments only. -/
theorem kerPre_congr {q q' : Fin 3 → EReal} {np np' : Fin 32 → Fin 3 → EReal} {nf nf' : Fin 32 → Fin 128 → EReal}
    {kp kp' : Fin 15 → Fin 3 → EReal} {w1 w1' : Fin 128 → Fin 32 → EReal} {b1 b1' : Fin 32 → EReal}
    {w2 w2' : Fin 32 → Fin 120 → EReal} {b2 b2' : Fin 120 → EReal} {R R' : Fin 8 → Fin 128 → EReal} {cc cc' : Fin 128}
    (h0 : q = q') (h1 : np = np') (h2 : nf = nf') (h3 : kp = kp') (h4 : w1 = w1') (h5 : b1 = b1') (h6 : w2 = w2')
    (h7 : b2 = b2') (h8 : R = R') (h9 : cc = cc') :
    Cert.KP.kerPre q np nf kp w1 b1 w2 b2 R cc = Cert.KP.kerPre q' np' nf' kp' w1' b1' w2' b2' R' cc' := by
  subst h0 h1 h2 h3 h4 h5 h6 h7 h8 h9; rfl

/-- What point `t` writes back is block `t` of the pre-normalisation array. -/
theorem flushed0_eq
    (hpay : ∀ (x0 : Vec Ideal S600x3 .f32) (x1 : Vec Ideal S600x32x3 .f32) (x2 : Vec Ideal S600x32x128 .f32)
      (x3 : Vec Ideal S15x3 .f32) (x4 : Vec Ideal S128x32 .f32) (x5 : Vec Ideal S32 .f32) (x6 : Vec Ideal S32x120 .f32)
      (x7 : Vec Ideal S120 .f32) (x8 : Vec Ideal S8x128 .f32) (r : Fin 600) (cc : Fin 128),
      out0_9 (F := Ideal) x0 x1 x2 x3 x4 x5 x6 x7 x8 (ix2 r cc)
        = Cert.KP.kerPre (fun d => x0 (ix2 r d)) (fun h d => x1 (ix3 r h d)) (fun h c' => x2 (ix3 r h c'))
            (fun k d => x3 (ix2 k d)) (fun i j => x4 (ix2 i j)) (fun j => x5 (ix1 j)) (fun j o => x6 (ix2 j o))
            (fun o => x7 (ix1 o)) (fun g c' => x8 (ix2 g c')) cc)
    (c : Dev nD) (t : Fin cfg0.N) :
    (dat0 V c).flushed 9 t = ((cfg0.win 9).blk t).view.read (Elt Ideal)
      (G0 (V c main_arg0) (V c main_v10) (V c main_v17) (V c main_arg4) (V c main_arg5) (V c main_arg6)
        (V c main_arg7) (V c main_arg8) (V c main_cst)) := by
  show (cfg0.win 9).cut (grid0.coords t) ((dat0 V c).after 9 t) = _
  rw [after0_9]
  obtain ⟨e00, e01, e10, e11, e12, e20, e21, e22, e30, e31, e40, e41, e50, e60, e61, e70, e80, e81, e90, e91⟩ := idx_facts0 t
  funext j
  refine (pay0_at hpay (iblk0 V c 0 t) (iblk0 V c 1 t) (iblk0 V c 2 t) (iblk0 V c 3 t) (iblk0 V c 4 t) (iblk0 V c 5 t)
    (iblk0 V c 6 t) (iblk0 V c 7 t) (iblk0 V c 8 t) j).trans ?_
  have hj0 : (j 0).val < 600 := (j 0).isLt
  have hj1 : (j 1).val < 128 := (j 1).isLt
  show _ = Cert.KP.kerPre (fun d => V c main_arg0 (ix2 ((((cfg0.win 9).blk t).view.emb j) 0) d)) (fun h d => V c main_v10 (ix3 ((((cfg0.win 9).blk t).view.emb j) 0) h d))
      (fun h c' => V c main_v17 (ix3 ((((cfg0.win 9).blk t).view.emb j) 0) h c')) (fun k d => V c main_arg4 (ix2 k d)) (fun a b => V c main_arg5 (ix2 a b))
      (fun j => V c main_arg6 (ix1 j)) (fun j o => V c main_arg7 (ix2 j o)) (fun o => V c main_arg8 (ix1 o))
      (fun g c' => V c main_cst (ix2 g c')) ((((cfg0.win 9).blk t).view.emb j) 1)
  refine kerPre_congr ?_ ?_ ?_ ?_ ?_ ?_ ?_ ?_ ?_ ?_
  · funext d
    show V c main_arg0 (((cfg0.win 0).blk t).view.emb (ix2 (j 0) d)) = V c main_arg0 (ix2 ((((cfg0.win 9).blk t).view.emb j) 0) d)
    refine congrArg _ ?_
    funext a; apply Fin.ext
    match a with
    | ⟨0, _⟩ => show win0_0.index t (0 : Fin 2) * 600 + 1 * (j 0).val = win0_9.index t (0 : Fin 2) * 600 + 1 * (j 0).val; omega
    | ⟨1, _⟩ => show win0_0.index t (1 : Fin 2) * 3 + 1 * d.val = d.val; omega
  · funext h d
    show V c main_v10 (((cfg0.win 1).blk t).view.emb (ix3 (j 0) h d)) = V c main_v10 (ix3 ((((cfg0.win 9).blk t).view.emb j) 0) h d)
    refine congrArg _ ?_
    funext a; apply Fin.ext
    match a with
    | ⟨0, _⟩ => show win0_1.index t (0 : Fin 3) * 600 + 1 * (j 0).val = win0_9.index t (0 : Fin 2) * 600 + 1 * (j 0).val; omega
    | ⟨1, _⟩ => show win0_1.index t (1 : Fin 3) * 32 + 1 * h.val = h.val; omega
    | ⟨2, _⟩ => show win0_1.index t (2 : Fin 3) * 3 + 1 * d.val = d.val; omega
  · funext h c'
    show V c main_v17 (((cfg0.win 2).blk t).view.emb (ix3 (j 0) h c')) = V c main_v17 (ix3 ((((cfg0.win 9).blk t).view.emb j) 0) h c')
    refine congrArg _ ?_
    funext a; apply Fin.ext
    match a with
    | ⟨0, _⟩ => show win0_2.index t (0 : Fin 3) * 600 + 1 * (j 0).val = win0_9.index t (0 : Fin 2) * 600 + 1 * (j 0).val; omega
    | ⟨1, _⟩ => show win0_2.index t (1 : Fin 3) * 32 + 1 * h.val = h.val; omega
    | ⟨2, _⟩ => show win0_2.index t (2 : Fin 3) * 128 + 1 * c'.val = c'.val; omega
  · funext k d
    show V c main_arg4 (((cfg0.win 3).blk t).view.emb (ix2 k d)) = V c main_arg4 (ix2 k d)
    refine congrArg _ ?_
    funext a; apply Fin.ext
    match a with
    | ⟨0, _⟩ => show win0_3.index t (0 : Fin 2) * 15 + 1 * k.val = k.val; omega
    | ⟨1, _⟩ => show win0_3.index t (1 : Fin 2) * 3 + 1 * d.val = d.val; omega
  · funext a' b'
    show V c main_arg5 (((cfg0.win 4).blk t).view.emb (ix2 a' b')) = V c main_arg5 (ix2 a' b')
    refine congrArg _ ?_
    funext a; apply Fin.ext
    match a with
    | ⟨0, _⟩ => show win0_4.index t (0 : Fin 2) * 128 + 1 * a'.val = a'.val; omega
    | ⟨1, _⟩ => show win0_4.index t (1 : Fin 2) * 32 + 1 * b'.val = b'.val; omega
  · funext j'
    show V c main_arg6 (((cfg0.win 5).blk t).view.emb (ix1 j')) = V c main_arg6 (ix1 j')
    refine congrArg _ ?_
    funext a; apply Fin.ext
    match a with
    | ⟨0, _⟩ => show win0_5.index t (0 : Fin 1) * 32 + 1 * j'.val = j'.val; omega
  · funext j' o
    show V c main_arg7 (((cfg0.win 6).blk t).view.emb (ix2 j' o)) = V c main_arg7 (ix2 j' o)
    refine congrArg _ ?_
    funext a; apply Fin.ext
    match a with
    | ⟨0, _⟩ => show win0_6.index t (0 : Fin 2) * 32 + 1 * j'.val = j'.val; omega
    | ⟨1, _⟩ => show win0_6.index t (1 : Fin 2) * 120 + 1 * o.val = o.val; omega
  · funext o
    show V c main_arg8 (((cfg0.win 7).blk t).view.emb (ix1 o)) = V c main_arg8 (ix1 o)
    refine congrArg _ ?_
    funext a; apply Fin.ext
    match a with
    | ⟨0, _⟩ => show win0_7.index t (0 : Fin 1) * 120 + 1 * o.val = o.val; omega
  · funext g c'
    show V c main_cst (((cfg0.win 8).blk t).view.emb (ix2 g c')) = V c main_cst (ix2 g c')
    refine congrArg _ ?_
    funext a; apply Fin.ext
    match a with
    | ⟨0, _⟩ => show win0_8.index t (0 : Fin 2) * 8 + 1 * g.val = g.val; omega
    | ⟨1, _⟩ => show win0_8.index t (1 : Fin 2) * 128 + 1 * c'.val = c'.val; omega
  · apply Fin.ext
    show (j 1).val = win0_9.index t (1 : Fin 2) * 128 + 1 * (j 1).val
    omega

/-- An index of the array is in point `t`'s block iff each coordinate is in the block's range on its axis. -/
theorem mem_blk0 (t : Fin cfg0.N) (i : S30000x128.Idx) :
    i ∈ ((cfg0.win 9).blk t).view.set ↔ ∀ a : Fin 2, win0_9.index t a * S600x128.size a ≤ (i a).val ∧ (i a).val < win0_9.index t a * S600x128.size a + S600x128.size a := by
  show i ∈ ((View.whole main_v18).slice (win0_9.rect t)).set ↔ _
  rw [View.set_slice_whole, Rect.mem_set_unit]
  exact Iff.rfl

/-- The fifty blocks of 600 rows tile the array: row `i` is in block `i / 600`. -/
theorem cover0 (i : S30000x128.Idx) : ∃ t : Fin cfg0.N, (cfg0.win 9).flush t = true ∧ i ∈ ((cfg0.win 9).blk t).view.set := by
  have hi0 : (i 0).val < 30000 := (i 0).isLt
  have hi1 : (i 1).val < 128 := (i 1).isLt
  have hN : cfg0.N = 50 := N_0
  refine ⟨⟨(i 0).val / 600, by rw [hN]; omega⟩, flush0_9 _, ?_⟩
  rw [mem_blk0]
  obtain ⟨e00, e01, e10, e11, e12, e20, e21, e22, e30, e31, e40, e41, e50, e60, e61, e70, e80, e81, e90, e91⟩ :=
    idx_facts0 ⟨(i 0).val / 600, by rw [hN]; omega⟩
  intro a
  match a with
  | ⟨0, _⟩ => show win0_9.index _ (0 : Fin 2) * 600 ≤ (i 0).val ∧ (i 0).val < win0_9.index _ (0 : Fin 2) * 600 + 600; rw [e90]; show (i 0).val / 600 * 600 ≤ (i 0).val ∧ (i 0).val < (i 0).val / 600 * 600 + 600; omega
  | ⟨1, _⟩ => show win0_9.index _ (1 : Fin 2) * 128 ≤ (i 1).val ∧ (i 1).val < win0_9.index _ (1 : Fin 2) * 128 + 128; rw [e91]; omega

/-- The first region's output array after the run: the pre-normalisation array of what the region found. -/
theorem final0
    (hpay : ∀ (x0 : Vec Ideal S600x3 .f32) (x1 : Vec Ideal S600x32x3 .f32) (x2 : Vec Ideal S600x32x128 .f32)
      (x3 : Vec Ideal S15x3 .f32) (x4 : Vec Ideal S128x32 .f32) (x5 : Vec Ideal S32 .f32) (x6 : Vec Ideal S32x120 .f32)
      (x7 : Vec Ideal S120 .f32) (x8 : Vec Ideal S8x128 .f32) (r : Fin 600) (cc : Fin 128),
      out0_9 (F := Ideal) x0 x1 x2 x3 x4 x5 x6 x7 x8 (ix2 r cc)
        = Cert.KP.kerPre (fun d => x0 (ix2 r d)) (fun h d => x1 (ix3 r h d)) (fun h c' => x2 (ix3 r h c'))
            (fun k d => x3 (ix2 k d)) (fun i j => x4 (ix2 i j)) (fun j => x5 (ix1 j)) (fun j o => x6 (ix2 j o))
            (fun o => x7 (ix1 o)) (fun g c' => x8 (ix2 g c')) cc)
    (c : Dev nD) :
    (dat0 V c).arrAt 9 cfg0.N = G0 (V c main_arg0) (V c main_v10) (V c main_v17) (V c main_arg4) (V c main_arg5)
      (V c main_arg6) (V c main_arg7) (V c main_arg8) (V c main_cst) :=
  (dat0 V c).arrAt_eq_of_cover 9 _ (fun t _ => flushed0_eq V hpay c t) cover0

end Cert.KernelIdeal.KVal

end
-- ==== Proof.KVal1.lean ====
/-
  The second region's output array as one function of the arrays the region finds.

  The region walks the 30000 rows in 10 blocks of 3000; at a block it centres, scales, shifts and rectifies every
  entry with the four length-128 vectors, which every block reads whole. Row `r` of block `t` is row
  `3000 t + r` of the array, the blocks tile the array, so the array ends holding, at (i, c), the normalised value
  of the input's entry (i, c) with the vectors' entries c.
-/
import proofs.«106741_j66271345377641_1_alg».proof.Proof.Gen.KernelIdeal.Frame
import proofs.«106741_j66271345377641_1_alg».proof.Proof.Spec
import Idealize.ShloMosaic.Lib.Pipeline.Value
import Idealize.ShloMosaic.Lib.ValueIdx

set_option maxRecDepth 16384

noncomputable section

namespace Cert.KernelIdeal.KVal

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-- The normalised array, entry by entry. -/
def G1 (x : S30000x128.Idx → Elt Ideal .f32) (mu v g b : S128.Idx → Elt Ideal .f32) : S30000x128.Idx → Elt Ideal .f32 :=
  fun i => Cert.KP.normPt (x i) (mu (ix1 (i 1))) (v (ix1 (i 1))) (g (ix1 (i 1))) (b (ix1 (i 1)))

/-- Block `t` of the row-blocked windows is at block row `t`, block column 0; the vectors' one block is at 0. -/
theorem idx_facts1 : ∀ t : Fin cfg1.N, win1_0.index t (0 : Fin 2) = t.val ∧ win1_0.index t (1 : Fin 2) = 0
    ∧ win1_5.index t (0 : Fin 2) = t.val ∧ win1_5.index t (1 : Fin 2) = 0
    ∧ win1_1.index t (0 : Fin 1) = 0 ∧ win1_2.index t (0 : Fin 1) = 0 ∧ win1_3.index t (0 : Fin 1) = 0
    ∧ win1_4.index t (0 : Fin 1) = 0 :=
  (by decide +kernel : ∀ t : Fin grid1.N, _)

/-- The body's block at any index of the block (the index split into its two coordinates). -/
theorem pay1_at
    (hpay : ∀ (x0 : Vec Ideal S3000x128 .f32) (x1 x2 x3 x4 : Vec Ideal S128 .f32) (r : Fin 3000) (cc : Fin 128),
      out1_5 (F := Ideal) x0 x1 x2 x3 x4 (ix2 r cc)
        = Cert.KP.normPt (x0 (ix2 r cc)) (x1 (ix1 cc)) (x2 (ix1 cc)) (x3 (ix1 cc)) (x4 (ix1 cc)))
    (x0 : Vec Ideal S3000x128 .f32) (x1 x2 x3 x4 : Vec Ideal S128 .f32) (j : S3000x128.Idx) :
    out1_5 (F := Ideal) x0 x1 x2 x3 x4 j
      = Cert.KP.normPt (x0 j) (x1 (ix1 (j 1))) (x2 (ix1 (j 1))) (x3 (ix1 (j 1))) (x4 (ix1 (j 1))) := by
  have h := hpay x0 x1 x2 x3 x4 (j 0) (j 1)
  have aux : ∀ k : S3000x128.Idx, k = ix2 (j 0) (j 1) → out1_5 (F := Ideal) x0 x1 x2 x3 x4 k
      = Cert.KP.normPt (x0 k) (x1 (ix1 (j 1))) (x2 (ix1 (j 1))) (x3 (ix1 (j 1))) (x4 (ix1 (j 1))) := by
    intro k hk; rw [hk]; exact h
  exact aux j (eq_ix2 j)

/-- What point `t` writes back is block `t` of the normalised array. -/
theorem flushed1_eq
    (hpay : ∀ (x0 : Vec Ideal S3000x128 .f32) (x1 x2 x3 x4 : Vec Ideal S128 .f32) (r : Fin 3000) (cc : Fin 128),
      out1_5 (F := Ideal) x0 x1 x2 x3 x4 (ix2 r cc)
        = Cert.KP.normPt (x0 (ix2 r cc)) (x1 (ix1 cc)) (x2 (ix1 cc)) (x3 (ix1 cc)) (x4 (ix1 cc)))
    (c : Dev nD) (t : Fin cfg1.N) :
    (dat1 V c).flushed 5 t = ((cfg1.win 5).blk t).view.read (Elt Ideal)
      (G1 (V c main_v18) (V c main_v21) (V c main_v22) (V c main_arg9) (V c main_arg10)) := by
  show (cfg1.win 5).cut (grid1.coords t) ((dat1 V c).after 5 t) = _
  rw [after1_5]
  obtain ⟨e0, e1, e2, e3, e4, e5, e6, e7⟩ := idx_facts1 t
  funext j
  refine (pay1_at hpay (iblk1 V c 0 t) (iblk1 V c 1 t) (iblk1 V c 2 t) (iblk1 V c 3 t) (iblk1 V c 4 t) j).trans ?_
  show Cert.KP.normPt (V c main_v18 (((cfg1.win 0).blk t).view.emb j))
      (V c main_v21 (((cfg1.win 1).blk t).view.emb (ix1 (j 1))))
      (V c main_v22 (((cfg1.win 2).blk t).view.emb (ix1 (j 1))))
      (V c main_arg9 (((cfg1.win 3).blk t).view.emb (ix1 (j 1))))
      (V c main_arg10 (((cfg1.win 4).blk t).view.emb (ix1 (j 1))))
    = Cert.KP.normPt (V c main_v18 (((cfg1.win 5).blk t).view.emb j))
      (V c main_v21 (ix1 ((((cfg1.win 5).blk t).view.emb j) 1)))
      (V c main_v22 (ix1 ((((cfg1.win 5).blk t).view.emb j) 1)))
      (V c main_arg9 (ix1 ((((cfg1.win 5).blk t).view.emb j) 1)))
      (V c main_arg10 (ix1 ((((cfg1.win 5).blk t).view.emb j) 1)))
  have hj1 : (j 1).val < 128 := (j 1).isLt
  have h0 : ((cfg1.win 0).blk t).view.emb j = ((cfg1.win 5).blk t).view.emb j := by
    funext a; apply Fin.ext
    match a with
    | ⟨0, _⟩ => show win1_0.index t (0 : Fin 2) * 3000 + 1 * (j 0).val = win1_5.index t (0 : Fin 2) * 3000 + 1 * (j 0).val; omega
    | ⟨1, _⟩ => show win1_0.index t (1 : Fin 2) * 128 + 1 * (j 1).val = win1_5.index t (1 : Fin 2) * 128 + 1 * (j 1).val; omega
  have h1 : ((cfg1.win 1).blk t).view.emb (ix1 (j 1)) = ix1 ((((cfg1.win 5).blk t).view.emb j) 1) := by
    funext a; apply Fin.ext
    match a with
    | ⟨0, _⟩ => show win1_1.index t (0 : Fin 1) * 128 + 1 * (j 1).val = win1_5.index t (1 : Fin 2) * 128 + 1 * (j 1).val; omega
  have h2 : ((cfg1.win 2).blk t).view.emb (ix1 (j 1)) = ix1 ((((cfg1.win 5).blk t).view.emb j) 1) := by
    funext a; apply Fin.ext
    match a with
    | ⟨0, _⟩ => show win1_2.index t (0 : Fin 1) * 128 + 1 * (j 1).val = win1_5.index t (1 : Fin 2) * 128 + 1 * (j 1).val; omega
  have h3 : ((cfg1.win 3).blk t).view.emb (ix1 (j 1)) = ix1 ((((cfg1.win 5).blk t).view.emb j) 1) := by
    funext a; apply Fin.ext
    match a with
    | ⟨0, _⟩ => show win1_3.index t (0 : Fin 1) * 128 + 1 * (j 1).val = win1_5.index t (1 : Fin 2) * 128 + 1 * (j 1).val; omega
  have h4 : ((cfg1.win 4).blk t).view.emb (ix1 (j 1)) = ix1 ((((cfg1.win 5).blk t).view.emb j) 1) := by
    funext a; apply Fin.ext
    match a with
    | ⟨0, _⟩ => show win1_4.index t (0 : Fin 1) * 128 + 1 * (j 1).val = win1_5.index t (1 : Fin 2) * 128 + 1 * (j 1).val; omega
  rw [h0, h1, h2, h3, h4]
  rfl

/-- An index of the array is in point `t`'s block iff each coordinate is in the block's range on its axis. -/
theorem mem_blk1 (t : Fin cfg1.N) (i : S30000x128.Idx) :
    i ∈ ((cfg1.win 5).blk t).view.set ↔ ∀ a : Fin 2, win1_5.index t a * S3000x128.size a ≤ (i a).val ∧ (i a).val < win1_5.index t a * S3000x128.size a + S3000x128.size a := by
  show i ∈ ((View.whole main_v23).slice (win1_5.rect t)).set ↔ _
  rw [View.set_slice_whole, Rect.mem_set_unit]
  exact Iff.rfl

/-- The ten blocks of 3000 rows tile the array: row `i` is in block `i / 3000`. -/
theorem cover1 (i : S30000x128.Idx) : ∃ t : Fin cfg1.N, (cfg1.win 5).flush t = true ∧ i ∈ ((cfg1.win 5).blk t).view.set := by
  have hi0 : (i 0).val < 30000 := (i 0).isLt
  have hi1 : (i 1).val < 128 := (i 1).isLt
  have hN : cfg1.N = 10 := N_1
  refine ⟨⟨(i 0).val / 3000, by rw [hN]; omega⟩, flush1_5 _, ?_⟩
  rw [mem_blk1]
  obtain ⟨e0, e1, e2, e3, e4, e5, e6, e7⟩ := idx_facts1 ⟨(i 0).val / 3000, by rw [hN]; omega⟩
  intro a
  match a with
  | ⟨0, _⟩ => show win1_5.index _ (0 : Fin 2) * 3000 ≤ (i 0).val ∧ (i 0).val < win1_5.index _ (0 : Fin 2) * 3000 + 3000; rw [e2]; show (i 0).val / 3000 * 3000 ≤ (i 0).val ∧ (i 0).val < (i 0).val / 3000 * 3000 + 3000; omega
  | ⟨1, _⟩ => show win1_5.index _ (1 : Fin 2) * 128 ≤ (i 1).val ∧ (i 1).val < win1_5.index _ (1 : Fin 2) * 128 + 128; rw [e3]; omega

/-- The second region's output array after the run: the normalised array of what the region found. -/
theorem final1
    (hpay : ∀ (x0 : Vec Ideal S3000x128 .f32) (x1 x2 x3 x4 : Vec Ideal S128 .f32) (r : Fin 3000) (cc : Fin 128),
      out1_5 (F := Ideal) x0 x1 x2 x3 x4 (ix2 r cc)
        = Cert.KP.normPt (x0 (ix2 r cc)) (x1 (ix1 cc)) (x2 (ix1 cc)) (x3 (ix1 cc)) (x4 (ix1 cc)))
    (c : Dev nD) :
    (dat1 V c).arrAt 5 cfg1.N = G1 (V c main_v18) (V c main_v21) (V c main_v22) (V c main_arg9) (V c main_arg10) :=
  (dat1 V c).arrAt_eq_of_cover 5 _ (fun t _ => flushed1_eq V hpay c t) cover1

end Cert.KernelIdeal.KVal

end
-- ==== Proof.RefOps.lean ====
/-
  The reference's host operations, restated as pure functions of arrays at the ideal instance, in five pieces:
  the gathered neighbour positions and features (`npts`, `nfeat`: the sources padded by one shadow row, negative
  indices wrapped, one row picked per neighbour), the pre-normalisation array `pre` (influences, weighted
  features, generated weights, the sum over kernel points), the column mean and variance over the 30000 points
  (`mean`, `var`), and the normalisation with its rectifier (`norm`). Each definition applies the printed
  operations in the printed order; nothing is simplified here.
-/
import proofs.«106741_j66271345377641_1_alg».proof.ReferenceIdeal
import Idealize.ShloMosaic.PureOps.Ideal

noncomputable section

namespace Cert.ReferenceIdeal.Ops

open Idealize.ShloMosaic Cert.ReferenceIdeal Cert.ReferenceIdeal.Facts₀

variable [Cert.ReferenceIdeal.Facts]

/-- The neighbour indices with negative ones wrapped by 30001, as a column of one-entry index vectors. -/
def wrapIdx (a3 : IVec S30000x32 32) : IVec S30000x32x1 32 :=
  broadcastInDim S30000x32x1 ![0, 1] bcast_S30000x32_S30000x32x1_0_1
    (select (cmpi .slt a3 (broadcastInDim S30000x32 ![] bcast_S_S30000x32 (constantI S_ 32 0#32)))
      (addi a3 (broadcastInDim S30000x32 ![] bcast_S_S30000x32 (constantI S_ 32 30001#32))) a3)

/-- The source positions with a shadow row at 10⁶ appended. -/
def padPts (a1 : FVec Ideal S30000x3 .f32) : FVec Ideal S30001x3 .f32 :=
  concatenate S30001x3 0 [⟨S30000x3, a1⟩, ⟨S1x3, broadcastInDim S1x3 ![] bcast_S_S1x3 (constant S_ .f32 0x49742400#32)⟩]
    concatenates_S30000x3_S1x3_S30001x3_d0

/-- The source features with a zero row appended. -/
def padFeats (a2 : FVec Ideal S30000x128 .f32) : FVec Ideal S30001x128 .f32 :=
  concatenate S30001x128 0 [⟨S30000x128, a2⟩, ⟨S1x128, broadcastInDim S1x128 ![] bcast_S_S1x128 (constant S_ .f32 0x00000000#32)⟩]
    concatenates_S30000x128_S1x128_S30001x128_d0

/-- The gathered neighbour positions, [30000, 32, 3]. -/
def npts (a1 : FVec Ideal S30000x3 .f32) (a3 : IVec S30000x32 32) : FVec Ideal S30000x32x3 .f32 :=
  Host.gather gather_S30001x3_S30000x32x1_S30000x32x3_2_0_n_n_0_2_13 (padPts a1) (wrapIdx a3)

/-- The gathered neighbour features, [30000, 32, 128]. -/
def nfeat (a2 : FVec Ideal S30000x128 .f32) (a3 : IVec S30000x32 32) : FVec Ideal S30000x32x128 .f32 :=
  Host.gather gather_S30001x128_S30000x32x1_S30000x32x128_2_0_n_n_0_2_1128 (padFeats a2) (wrapIdx a3)

/-- Neighbour positions centred on their query point. -/
def centred (a0 : FVec Ideal S30000x3 .f32) (np : FVec Ideal S30000x32x3 .f32) : FVec Ideal S30000x32x3 .f32 :=
  subf np (broadcastInDim S30000x32x3 ![0, 1, 2] bcast_S30000x1x3_S30000x32x3_0_1_2
    (broadcastInDim S30000x1x3 ![0, 2] bcast_S30000x3_S30000x1x3_0_2 a0))

/-- Centred neighbour minus kernel point, [30000, 32, 15, 3]. -/
def offsets (a0 : FVec Ideal S30000x3 .f32) (np : FVec Ideal S30000x32x3 .f32) (a4 : FVec Ideal S15x3 .f32) :
    FVec Ideal S30000x32x15x3 .f32 :=
  subf
    (broadcastInDim S30000x32x15x3 ![0, 1, 2, 3] bcast_S30000x32x1x3_S30000x32x15x3_0_1_2_3
      (broadcastInDim S30000x32x1x3 ![0, 1, 3] bcast_S30000x32x3_S30000x32x1x3_0_1_3 (centred a0 np)))
    (broadcastInDim S30000x32x15x3 ![0, 1, 2, 3] bcast_S1x1x15x3_S30000x32x15x3_0_1_2_3
      (broadcastInDim S1x1x15x3 ![2, 3] bcast_S15x3_S1x1x15x3_2_3 a4))

/-- Squared distances to the kernel points, [30000, 32, 15]. -/
def sqDist (a0 : FVec Ideal S30000x3 .f32) (np : FVec Ideal S30000x32x3 .f32) (a4 : FVec Ideal S15x3 .f32) :
    FVec Ideal S30000x32x15 .f32 :=
  Host.reduceAdd (mulf (offsets a0 np a4) (offsets a0 np a4)) (constant S_ .f32 0x00000000#32)
    reducesTo_S30000x32x15x3_S30000x32x15_d3 h_S_

/-- The influences, kernel point major: [30000, 15, 32]. -/
def influence (a0 : FVec Ideal S30000x3 .f32) (np : FVec Ideal S30000x32x3 .f32) (a4 : FVec Ideal S15x3 .f32) :
    FVec Ideal S30000x15x32 .f32 :=
  transpose S30000x15x32 [0, 2, 1]
    (maximumf (broadcastInDim S30000x32x15 ![] bcast_S_S30000x32x15 (constant S_ .f32 0x00000000#32))
      (subf (broadcastInDim S30000x32x15 ![] bcast_S_S30000x32x15 (constant S_ .f32 0x3F800000#32))
        (Host.divf (Host.sqrt (sqDist a0 np a4))
          (broadcastInDim S30000x32x15 ![] bcast_S_S30000x32x15 (constant S_ .f32 0x40000000#32)))))
    transposes_S30000x32x15_S30000x15x32_0_2_1

/-- The weighted features, [30000, 15, 128]. -/
def weighted (a0 : FVec Ideal S30000x3 .f32) (np : FVec Ideal S30000x32x3 .f32) (nf : FVec Ideal S30000x32x128 .f32)
    (a4 : FVec Ideal S15x3 .f32) : FVec Ideal S30000x15x128 .f32 :=
  Host.dotGeneral dot_S30000x15x32_S30000x32x128_S30000x15x128_2_1_1_2_0_0 none (influence a0 np a4) nf

/-- The rectifier of the weight generator, on [30000, 32]. -/
def leaky32 (x : FVec Ideal S30000x32 .f32) : FVec Ideal S30000x32 .f32 :=
  select (cmpf .oge x (broadcastInDim S30000x32 ![] bcast_S_S30000x32 (constant S_ .f32 0x00000000#32))) x
    (mulf (broadcastInDim S30000x32 ![] bcast_S_S30000x32 (constant S_ .f32 0x3DCCCCCD#32)) x)

/-- The generated weights, [30000, 120]. -/
def weights (nf : FVec Ideal S30000x32x128 .f32) (a5 : FVec Ideal S128x32 .f32) (a6 : FVec Ideal S32 .f32)
    (a7 : FVec Ideal S32x120 .f32) (a8 : FVec Ideal S120 .f32) : FVec Ideal S30000x120 .f32 :=
  addf
    (Host.dotGeneral dot_S30000x32_S32x120_S30000x120_1_0_0_1_n_n none
      (leaky32 (addf
        (Host.dotGeneral dot_S30000x128_S128x32_S30000x32_1_0_0_1_n_n none
          (shapeCast S30000x128 (extractStridedSlice S30000x1x128 ![0, 0, 0] nf slices_S30000x32x128_S30000x1x128_0_0_0)
            shapeCasts_S30000x1x128_S30000x128) a5)
        (broadcastInDim S30000x32 ![0, 1] bcast_S1x32_S30000x32_0_1 (broadcastInDim S1x32 ![1] bcast_S32_S1x32_1 a6))))
      a7)
    (broadcastInDim S30000x120 ![0, 1] bcast_S1x120_S30000x120_0_1 (broadcastInDim S1x120 ![1] bcast_S120_S1x120_1 a8))

/-- The pre-normalisation array, [30000, 128]. -/
def pre (a0 : FVec Ideal S30000x3 .f32) (np : FVec Ideal S30000x32x3 .f32) (nf : FVec Ideal S30000x32x128 .f32)
    (a4 : FVec Ideal S15x3 .f32) (a5 : FVec Ideal S128x32 .f32) (a6 : FVec Ideal S32 .f32)
    (a7 : FVec Ideal S32x120 .f32) (a8 : FVec Ideal S120 .f32) : FVec Ideal S30000x128 .f32 :=
  shapeCast S30000x128
    (Host.reduceAdd
      (mulf (shapeCast S30000x15x8x16 (weighted a0 np nf a4) shapeCasts_S30000x15x128_S30000x15x8x16)
        (broadcastInDim S30000x15x8x16 ![0, 1, 2, 3] bcast_S30000x15x8x1_S30000x15x8x16_0_1_2_3
          (broadcastInDim S30000x15x8x1 ![0, 1, 2] bcast_S30000x15x8_S30000x15x8x1_0_1_2
            (shapeCast S30000x15x8 (weights nf a5 a6 a7 a8) shapeCasts_S30000x120_S30000x15x8))))
      (constant S_ .f32 0x00000000#32) reducesTo_S30000x15x8x16_S30000x8x16_d1 h_S_)
    shapeCasts_S30000x8x16_S30000x128

/-- The column mean over the 30000 points. -/
def mean (x : FVec Ideal S30000x128 .f32) : FVec Ideal S128 .f32 :=
  Host.divf (Host.reduceAdd x (constant S_ .f32 0x00000000#32) reducesTo_S30000x128_S128_d0 h_S_)
    (broadcastInDim S128 ![] bcast_S_S128 (constant S_ .f32 0x46EA6000#32))

/-- The points minus their column mean, as the variance computes it. -/
def varCentred (x : FVec Ideal S30000x128 .f32) : FVec Ideal S30000x128 .f32 :=
  subf x (broadcastInDim S30000x128 ![0, 1] bcast_S1x128_S30000x128_0_1
    (Host.divf
      (broadcastInDim S1x128 ![1] bcast_S128_S1x128_1
        (Host.reduceAdd x (constant S_ .f32 0x00000000#32) reducesTo_S30000x128_S128_d0 h_S_))
      (broadcastInDim S1x128 ![] bcast_S_S1x128 (constant S_ .f32 0x46EA6000#32))))

/-- The divisor of the variance: 30000 minus the (zero) correction. -/
def varDenom : FVec Ideal S_ .f32 :=
  subf (constant S_ .f32 0x46EA6000#32) (sitofp .f32 (constantI S_ 32 0#32))

/-- The column variance over the 30000 points. -/
def var (x : FVec Ideal S30000x128 .f32) : FVec Ideal S128 .f32 :=
  select (broadcastInDim S128 ![] bcast_S_S128 (cmpf .ogt varDenom (constant S_ .f32 0x00000000#32)))
    (Host.divf
      (Host.reduceAdd (mulf (varCentred x) (varCentred x)) (constant S_ .f32 0x00000000#32) reducesTo_S30000x128_S128_d0 h_S_)
      (broadcastInDim S128 ![] bcast_S_S128 varDenom))
    (broadcastInDim S128 ![] bcast_S_S128 (constant S_ .f32 0x7FC00000#32))

/-- A [128] vector repeated down the 30000 rows. -/
def rows (v : FVec Ideal S128 .f32) : FVec Ideal S30000x128 .f32 :=
  broadcastInDim S30000x128 ![0, 1] bcast_S1x128_S30000x128_0_1 (broadcastInDim S1x128 ![1] bcast_S128_S1x128_1 v)

/-- The normalisation and its rectifier. -/
def norm (x : FVec Ideal S30000x128 .f32) (mu v a9 a10 : FVec Ideal S128 .f32) : FVec Ideal S30000x128 .f32 :=
  have y : FVec Ideal S30000x128 .f32 :=
    addf (mulf (mulf (subf x (rows mu))
      (rows (Host.rsqrt (addf v (broadcastInDim S128 ![] bcast_S_S128 (constant S_ .f32 0x3727C5AC#32))))))
      (rows a9)) (rows a10)
  select (cmpf .oge y (broadcastInDim S30000x128 ![] bcast_S_S30000x128 (constant S_ .f32 0x00000000#32))) y
    (mulf (broadcastInDim S30000x128 ![] bcast_S_S30000x128 (constant S_ .f32 0x3DCCCCCD#32)) y)

/-- The reference's result as a function of its eleven arguments. -/
def out (a0 a1 : FVec Ideal S30000x3 .f32) (a2 : FVec Ideal S30000x128 .f32) (a3 : IVec S30000x32 32)
    (a4 : FVec Ideal S15x3 .f32) (a5 : FVec Ideal S128x32 .f32) (a6 : FVec Ideal S32 .f32)
    (a7 : FVec Ideal S32x120 .f32) (a8 : FVec Ideal S120 .f32) (a9 a10 : FVec Ideal S128 .f32) :
    FVec Ideal S30000x128 .f32 :=
  norm (pre a0 (npts a1 a3) (nfeat a2 a3) a4 a5 a6 a7 a8)
    (mean (pre a0 (npts a1 a3) (nfeat a2 a3) a4 a5 a6 a7 a8))
    (var (pre a0 (npts a1 a3) (nfeat a2 a3) a4 a5 a6 a7 a8)) a9 a10

end Cert.ReferenceIdeal.Ops

end
-- ==== Proof.KHost.lean ====
/-
  What the kernel program's host operations leave in the buffers its two regions read.

  Before the first region the program pads the source positions and features by one shadow row, wraps negative
  neighbour indices and gathers one row per neighbour: the same operations, in the same order, as the reference's
  `npts` and `nfeat`. Between the regions it takes the column mean and variance of the first region's output:
  the same operations as the reference's `mean` and `var`. The group matrix is a literal table. No host
  operation writes an argument.
-/
import proofs.«106741_j66271345377641_1_alg».proof.Proof.Gen.KernelIdeal.Frame
import proofs.«106741_j66271345377641_1_alg».proof.Proof.RefOps
import Idealize.ShloMosaic.Lib.StableHlo.Run

set_option maxRecDepth 16384

noncomputable section

namespace Cert.KernelIdeal.KHost

open Idealize.ShloMosaic Idealize.ShloMosaic.TcCoe
open Idealize.SL Idealize.SL.Sem
open Cert.KernelIdeal Cert.KernelIdeal.Gen

variable [Cert.ReferenceIdeal.Facts]

set_option maxHeartbeats 1000000 in
/-- The gathered neighbour positions, from any contents. -/
theorem pre_v10 (W : Valuation τ sig (Elt Ideal)) :
    StableHlo.after hostOps0 W (Proc.devRef .tc main_v10)
      = Cert.ReferenceIdeal.Ops.npts (W (Proc.devRef .tc main_arg1)) (W (Proc.devRef .tc main_arg3)) := by
  dsimp only [hostOps0]
  after_results
  rfl

set_option maxHeartbeats 1000000 in
/-- The gathered neighbour features, from any contents. -/
theorem pre_v17 (W : Valuation τ sig (Elt Ideal)) :
    StableHlo.after hostOps0 W (Proc.devRef .tc main_v17)
      = Cert.ReferenceIdeal.Ops.nfeat (W (Proc.devRef .tc main_arg2)) (W (Proc.devRef .tc main_arg3)) := by
  dsimp only [hostOps0]
  after_results
  rfl

/-- The group matrix is its literal table. -/
theorem pre_cst (W : Valuation τ sig (Elt Ideal)) :
    StableHlo.after hostOps0 W (Proc.devRef .tc main_cst)
      = fun i => FloatOps.ofBits (F := Ideal) .f32 (lit0 (S8x128.rowMajor i)) := by
  dsimp only [hostOps0]
  after_results
  rfl

/-- The first stretch of host operations leaves argument 0 alone. -/
theorem pre_arg0 (W : Valuation τ sig (Elt Ideal)) :
    StableHlo.after hostOps0 W (Proc.devRef .tc main_arg0) = W (Proc.devRef .tc main_arg0) := by
  dsimp only [hostOps0]
  after_results

/-- The first stretch of host operations leaves argument 4 alone. -/
theorem pre_arg4 (W : Valuation τ sig (Elt Ideal)) :
    StableHlo.after hostOps0 W (Proc.devRef .tc main_arg4) = W (Proc.devRef .tc main_arg4) := by
  dsimp only [hostOps0]
  after_results

/-- The first stretch of host operations leaves argument 5 alone. -/
theorem pre_arg5 (W : Valuation τ sig (Elt Ideal)) :
    StableHlo.after hostOps0 W (Proc.devRef .tc main_arg5) = W (Proc.devRef .tc main_arg5) := by
  dsimp only [hostOps0]
  after_results

/-- The first stretch of host operations leaves argument 6 alone. -/
theorem pre_arg6 (W : Valuation τ sig (Elt Ideal)) :
    StableHlo.after hostOps0 W (Proc.devRef .tc main_arg6) = W (Proc.devRef .tc main_arg6) := by
  dsimp only [hostOps0]
  after_results

/-- The first stretch of host operations leaves argument 7 alone. -/
theorem pre_arg7 (W : Valuation τ sig (Elt Ideal)) :
    StableHlo.after hostOps0 W (Proc.devRef .tc main_arg7) = W (Proc.devRef .tc main_arg7) := by
  dsimp only [hostOps0]
  after_results

/-- The first stretch of host operations leaves argument 8 alone. -/
theorem pre_arg8 (W : Valuation τ sig (Elt Ideal)) :
    StableHlo.after hostOps0 W (Proc.devRef .tc main_arg8) = W (Proc.devRef .tc main_arg8) := by
  dsimp only [hostOps0]
  after_results

/-- The first stretch of host operations leaves argument 9 alone. -/
theorem pre_arg9 (W : Valuation τ sig (Elt Ideal)) :
    StableHlo.after hostOps0 W (Proc.devRef .tc main_arg9) = W (Proc.devRef .tc main_arg9) := by
  dsimp only [hostOps0]
  after_results

/-- The first stretch of host operations leaves argument 10 alone. -/
theorem pre_arg10 (W : Valuation τ sig (Elt Ideal)) :
    StableHlo.after hostOps0 W (Proc.devRef .tc main_arg10) = W (Proc.devRef .tc main_arg10) := by
  dsimp only [hostOps0]
  after_results

set_option maxHeartbeats 1000000 in
/-- The column mean the second region reads, from any contents. -/
theorem mid_v21 (W : Valuation τ sig (Elt Ideal)) :
    StableHlo.after hostOps1_1 (StableHlo.after hostOps1 W) (Proc.devRef .tc main_v21)
      = Cert.ReferenceIdeal.Ops.mean (W (Proc.devRef .tc main_v18)) := by
  dsimp only [hostOps1, hostOps1_1]
  after_results
  rfl

set_option maxHeartbeats 1000000 in
/-- The column variance the second region reads, from any contents. -/
theorem mid_v22 (W : Valuation τ sig (Elt Ideal)) :
    StableHlo.after hostOps1_1 (StableHlo.after hostOps1 W) (Proc.devRef .tc main_v22)
      = Cert.ReferenceIdeal.Ops.var (W (Proc.devRef .tc main_v18)) := by
  dsimp only [hostOps1, hostOps1_1]
  after_results
  rfl

/-- The operations between the regions leave `main_v18` alone. -/
theorem mid_main_v18 (W : Valuation τ sig (Elt Ideal)) :
    StableHlo.after hostOps1_1 (StableHlo.after hostOps1 W) (Proc.devRef .tc main_v18) = W (Proc.devRef .tc main_v18) := by
  dsimp only [hostOps1, hostOps1_1]
  after_results

/-- The operations between the regions leave `main_arg9` alone. -/
theorem mid_main_arg9 (W : Valuation τ sig (Elt Ideal)) :
    StableHlo.after hostOps1_1 (StableHlo.after hostOps1 W) (Proc.devRef .tc main_arg9) = W (Proc.devRef .tc main_arg9) := by
  dsimp only [hostOps1, hostOps1_1]
  after_results

/-- The operations between the regions leave `main_arg10` alone. -/
theorem mid_main_arg10 (W : Valuation τ sig (Elt Ideal)) :
    StableHlo.after hostOps1_1 (StableHlo.after hostOps1 W) (Proc.devRef .tc main_arg10) = W (Proc.devRef .tc main_arg10) := by
  dsimp only [hostOps1, hostOps1_1]
  after_results

end Cert.KernelIdeal.KHost

end
-- ==== Proof.KValue.lean ====
/-
  The kernel program's result as one function of its arguments.

  The result buffer at the last boundary of the run is the second region's output array: the normalised array
  of what that region finds — the first region's output, its column mean and variance as the host operations
  between the regions compute them, and the two affine vectors. The first region's output is the
  pre-normalisation array of what it finds — the query positions, the gathered neighbour positions and features
  as the host operations before it compute them, the kernel points, the two weight layers and the literal group
  matrix. No host operation and no region writes an argument, so each is read as launched.
-/
import proofs.«106741_j66271345377641_1_alg».proof.Proof.KVal0
import proofs.«106741_j66271345377641_1_alg».proof.Proof.KVal1
import proofs.«106741_j66271345377641_1_alg».proof.Proof.KHost

set_option maxRecDepth 16384

noncomputable section

namespace Cert.KernelIdeal.KValue

open Idealize.ShloMosaic Idealize.ShloMosaic.TcCoe Idealize.ShloMosaic.ValueIdx
open Idealize.SL Idealize.SL.Sem
open Cert.KernelIdeal Cert.KernelIdeal.Gen Cert.KernelIdeal.KVal Cert.KernelIdeal.KHost

variable [Cert.ReferenceIdeal.Facts]

variable (m : (ℓ : Loc nD τ sig) → Buf (Elt Ideal) ℓ) (ρ : Dev nD → PrngReg)

/-- The literal group matrix as an array. -/
def Rmat : S8x128.Idx → Elt Ideal .f32 := fun i => FloatOps.ofBits (F := Ideal) .f32 (lit0 (S8x128.rowMajor i))

/-- The pre-normalisation array depends on its nine arrays only. -/
theorem G0_congr {a0 a0' : S30000x3.Idx → Elt Ideal .f32} {np np' : S30000x32x3.Idx → Elt Ideal .f32}
    {nf nf' : S30000x32x128.Idx → Elt Ideal .f32} {kp kp' : S15x3.Idx → Elt Ideal .f32}
    {w1 w1' : S128x32.Idx → Elt Ideal .f32} {b1 b1' : S32.Idx → Elt Ideal .f32} {w2 w2' : S32x120.Idx → Elt Ideal .f32}
    {b2 b2' : S120.Idx → Elt Ideal .f32} {R R' : S8x128.Idx → Elt Ideal .f32}
    (h0 : a0 = a0') (h1 : np = np') (h2 : nf = nf') (h3 : kp = kp') (h4 : w1 = w1') (h5 : b1 = b1') (h6 : w2 = w2')
    (h7 : b2 = b2') (h8 : R = R') : G0 a0 np nf kp w1 b1 w2 b2 R = G0 a0' np' nf' kp' w1' b1' w2' b2' R' := by
  subst h0 h1 h2 h3 h4 h5 h6 h7 h8; rfl

/-- The normalised array depends on its five arrays only. -/
theorem G1_congr {x x' : S30000x128.Idx → Elt Ideal .f32} {mu mu' v v' g g' b b' : S128.Idx → Elt Ideal .f32}
    (h0 : x = x') (h1 : mu = mu') (h2 : v = v') (h3 : g = g') (h4 : b = b') : G1 x mu v g b = G1 x' mu' v' g' b' := by
  subst h0 h1 h2 h3 h4; rfl

/-- The first region's output array, when the second region is entered, as a function of the arguments. -/
theorem pre_eq
    (hpay0 : ∀ (x0 : Vec Ideal S600x3 .f32) (x1 : Vec Ideal S600x32x3 .f32) (x2 : Vec Ideal S600x32x128 .f32)
      (x3 : Vec Ideal S15x3 .f32) (x4 : Vec Ideal S128x32 .f32) (x5 : Vec Ideal S32 .f32) (x6 : Vec Ideal S32x120 .f32)
      (x7 : Vec Ideal S120 .f32) (x8 : Vec Ideal S8x128 .f32) (r : Fin 600) (cc : Fin 128),
      out0_9 (F := Ideal) x0 x1 x2 x3 x4 x5 x6 x7 x8 (ix2 r cc)
        = Cert.KP.kerPre (fun d => x0 (ix2 r d)) (fun h d => x1 (ix3 r h d)) (fun h c' => x2 (ix3 r h c'))
            (fun k d => x3 (ix2 k d)) (fun i j => x4 (ix2 i j)) (fun j => x5 (ix1 j)) (fun j o => x6 (ix2 j o))
            (fun o => x7 (ix1 o)) (fun g c' => x8 (ix2 g c')) cc)
    (c : Dev nD) :
    W2 m ρ c (Proc.devRef .tc main_v18) = (G0 (m ((c.tc : Thread nD τ).loc main_arg0)) (Cert.ReferenceIdeal.Ops.npts (m ((c.tc : Thread nD τ).loc main_arg1)) (m ((c.tc : Thread nD τ).loc main_arg3)))
        (Cert.ReferenceIdeal.Ops.nfeat (m ((c.tc : Thread nD τ).loc main_arg2)) (m ((c.tc : Thread nD τ).loc main_arg3))) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) Rmat) := by
  refine (W2_arr m ρ c 9).trans ?_
  refine (final0 (V1 m ρ) hpay0 c).trans ?_
  exact G0_congr (pre_arg0 (W0 m ρ c)) (pre_v10 (W0 m ρ c)) (pre_v17 (W0 m ρ c)) (pre_arg4 (W0 m ρ c))
    (pre_arg5 (W0 m ρ c)) (pre_arg6 (W0 m ρ c)) (pre_arg7 (W0 m ρ c)) (pre_arg8 (W0 m ρ c)) (pre_cst (W0 m ρ c))

/-- The result buffer at the last boundary, as a function of the arguments. -/
theorem result_eq
    (hpay0 : ∀ (x0 : Vec Ideal S600x3 .f32) (x1 : Vec Ideal S600x32x3 .f32) (x2 : Vec Ideal S600x32x128 .f32)
      (x3 : Vec Ideal S15x3 .f32) (x4 : Vec Ideal S128x32 .f32) (x5 : Vec Ideal S32 .f32) (x6 : Vec Ideal S32x120 .f32)
      (x7 : Vec Ideal S120 .f32) (x8 : Vec Ideal S8x128 .f32) (r : Fin 600) (cc : Fin 128),
      out0_9 (F := Ideal) x0 x1 x2 x3 x4 x5 x6 x7 x8 (ix2 r cc)
        = Cert.KP.kerPre (fun d => x0 (ix2 r d)) (fun h d => x1 (ix3 r h d)) (fun h c' => x2 (ix3 r h c'))
            (fun k d => x3 (ix2 k d)) (fun i j => x4 (ix2 i j)) (fun j => x5 (ix1 j)) (fun j o => x6 (ix2 j o))
            (fun o => x7 (ix1 o)) (fun g c' => x8 (ix2 g c')) cc)
    (hpay1 : ∀ (x0 : Vec Ideal S3000x128 .f32) (x1 x2 x3 x4 : Vec Ideal S128 .f32) (r : Fin 3000) (cc : Fin 128),
      out1_5 (F := Ideal) x0 x1 x2 x3 x4 (ix2 r cc)
        = Cert.KP.normPt (x0 (ix2 r cc)) (x1 (ix1 cc)) (x2 (ix1 cc)) (x3 (ix1 cc)) (x4 (ix1 cc)))
    (c : Dev nD) :
    W5 m ρ c (Proc.devRef .tc main_v23)
      = G1 (G0 (m ((c.tc : Thread nD τ).loc main_arg0)) (Cert.ReferenceIdeal.Ops.npts (m ((c.tc : Thread nD τ).loc main_arg1)) (m ((c.tc : Thread nD τ).loc main_arg3)))
        (Cert.ReferenceIdeal.Ops.nfeat (m ((c.tc : Thread nD τ).loc main_arg2)) (m ((c.tc : Thread nD τ).loc main_arg3))) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) Rmat)
          (Cert.ReferenceIdeal.Ops.mean (G0 (m ((c.tc : Thread nD τ).loc main_arg0)) (Cert.ReferenceIdeal.Ops.npts (m ((c.tc : Thread nD τ).loc main_arg1)) (m ((c.tc : Thread nD τ).loc main_arg3)))
        (Cert.ReferenceIdeal.Ops.nfeat (m ((c.tc : Thread nD τ).loc main_arg2)) (m ((c.tc : Thread nD τ).loc main_arg3))) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) Rmat))
          (Cert.ReferenceIdeal.Ops.var (G0 (m ((c.tc : Thread nD τ).loc main_arg0)) (Cert.ReferenceIdeal.Ops.npts (m ((c.tc : Thread nD τ).loc main_arg1)) (m ((c.tc : Thread nD τ).loc main_arg3)))
        (Cert.ReferenceIdeal.Ops.nfeat (m ((c.tc : Thread nD τ).loc main_arg2)) (m ((c.tc : Thread nD τ).loc main_arg3))) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) Rmat))
          (m ((c.tc : Thread nD τ).loc main_arg9)) (m ((c.tc : Thread nD τ).loc main_arg10)) := by
  refine (W5_arr m ρ c 5).trans ?_
  refine (final1 (V4 m ρ) hpay1 c).trans ?_
  have hX := pre_eq m ρ hpay0 c
  exact G1_congr ((mid_main_v18 (W2 m ρ c)).trans hX)
    ((mid_v21 (W2 m ρ c)).trans (congrArg Cert.ReferenceIdeal.Ops.mean hX))
    ((mid_v22 (W2 m ρ c)).trans (congrArg Cert.ReferenceIdeal.Ops.var hX))
    ((mid_main_arg9 (W2 m ρ c)).trans ((W2_of_ne m ρ c main_arg9 (by decide)).trans (pre_arg9 (W0 m ρ c))))
    ((mid_main_arg10 (W2 m ρ c)).trans ((W2_of_ne m ρ c main_arg10 (by decide)).trans (pre_arg10 (W0 m ρ c))))

end Cert.KernelIdeal.KValue

end
-- ==== Proof.KerPay0Iter.lean ====
/-
  One kernel point's contribution to a block of the first kernel body, read at one entry.

  For a kernel point `p` (a row of three numbers, given as a [1, 3] array `s1`), centred neighbour positions `v7`
  ([600, 32, 3]), neighbour features `v4` ([600, 32, 128]), eight generated weights per row `s8` ([600, 8]) and an
  8 x 128 matrix `v28`, the body forms, at row `r` and channel `c`,
    (sum over the 32 neighbours h of  max 0 (1 - |v7 r h - p| / 2) * v4 r h c)  *  (sum over the 8 groups g of  s8 r g * v28 g c).
  The first factor is a reduction over the neighbour axis of a product with a column broadcast; the distance is a
  reduction over the three coordinates; the second factor is a matrix product. This module names that term
  (`iterTerm`) with exactly the operations the body applies, and proves the reading above on the extended reals.
-/
import proofs.«106741_j66271345377641_1_alg».proof.Proof.Gen.KernelIdeal.Skeleton
import proofs.«106741_j66271345377641_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen

/-- The centred neighbour positions minus the kernel point, the point's row laid over every row and neighbour. -/
def diffVec (s1 : FVec Ideal S1x3 .f32) (v7 : FVec Ideal S600x32x3 .f32) : FVec Ideal S600x32x3 .f32 :=
  subf v7 (broadcastTo S600x32x3 (shapeCast S1x1x3 (shapeCast S3 s1 shapeCasts_S1x3_S3) shapeCasts_S3_S1x1x3) broadcasts_S1x1x3_S600x32x3)

/-- Every neighbour's influence: `max 0 (1 - distance / 2)`, the distance the root of the sum of the three squares. -/
def inflVec (s1 : FVec Ideal S1x3 .f32) (v7 : FVec Ideal S600x32x3 .f32) : FVec Ideal S600x32 .f32 :=
  maximumf (broadcast S600x32 (Scalar.ofBits .f32 0x00000000#32))
    (subf (broadcast S600x32 (Scalar.ofBits .f32 0x3F800000#32))
      (divf (sqrt (multiReduction .add [2] S600x32 (mulf (diffVec s1 v7) (diffVec s1 v7)) 0x00000000#32 reduces_S600x32x3_S600x32 (.inl rfl) rfl))
        (broadcast S600x32 (Scalar.ofBits .f32 0x40000000#32))))

/-- The influence-weighted sum of the neighbours' features. -/
def wfVec (s1 : FVec Ideal S1x3 .f32) (v4 : FVec Ideal S600x32x128 .f32) (v7 : FVec Ideal S600x32x3 .f32) : FVec Ideal S600x128 .f32 :=
  multiReduction .add [1] S600x128
    (mulf (broadcastTo S600x32x128 (shapeCast S600x32x1 (inflVec s1 v7) shapeCasts_S600x32_S600x32x1) broadcasts_S600x32x1_S600x32x128) v4)
    0x00000000#32 reduces_S600x32x128_S600x128 (.inl rfl) rfl

/-- The eight weights of a row times the 8 x 128 matrix. -/
def cwVec (s8 : FVec Ideal S600x8 .f32) (v28 : FVec Ideal S8x128 .f32) : FVec Ideal S600x128 .f32 :=
  matmul dot_S600x8_S8x128_S600x128_1_0_0_1_n_n none s8 v28 (constant S600x128 .f32 0x00000000#32)

/-- One kernel point's term: weighted features times generated weights. -/
def iterTerm (s1 : FVec Ideal S1x3 .f32) (s8 : FVec Ideal S600x8 .f32) (v4 : FVec Ideal S600x32x128 .f32)
    (v7 : FVec Ideal S600x32x3 .f32) (v28 : FVec Ideal S8x128 .f32) : FVec Ideal S600x128 .f32 :=
  mulf (wfVec s1 v4 v7) (cwVec s8 v28)

/-- The kernel point's row, cast to [3] and to [1, 1, 3] and laid over [600, 32, 3], reads its coordinate `e`. -/
theorem point_apply (s1 : FVec Ideal S1x3 .f32) (r : Fin 600) (h : Fin 32) (e : Fin 3) :
    broadcastTo S600x32x3 (shapeCast S1x1x3 (shapeCast S3 s1 shapeCasts_S1x3_S3) shapeCasts_S3_S1x1x3) broadcasts_S1x1x3_S600x32x3 (ix3 r h e)
      = s1 (ix2 (0 : Fin 1) e) := by
  refine (broadcastTo_apply _ broadcasts_S1x1x3_S600x32x3 (ix3 r h e) (ix3 (0 : Fin 1) (0 : Fin 1) e) fun a => ?_).trans ?_
  · match a with
    | ⟨0, _⟩ => rfl
    | ⟨1, _⟩ => rfl
    | ⟨2, _⟩ => rfl
  refine (shapeCast_apply _ shapeCasts_S3_S1x1x3 (ix3 (0 : Fin 1) (0 : Fin 1) e) (ix1 e) ?_).trans ?_
  · rw [Shape.rowMajor_val_one, Shape.rowMajor_val_three]
    show e.val = (0 * 1 + 0) * 3 + e.val
    omega
  exact shapeCast_1a_a_apply s1 shapeCasts_S1x3_S3 e

theorem diffVec_apply (s1 : FVec Ideal S1x3 .f32) (v7 : FVec Ideal S600x32x3 .f32) (r : Fin 600) (h : Fin 32) (e : Fin 3) :
    diffVec s1 v7 (ix3 r h e) = v7 (ix3 r h e) - s1 (ix2 (0 : Fin 1) e) := by
  unfold diffVec
  rw [subf_apply, point_apply]

/-- A neighbour's influence at row `r`, neighbour `h`. -/
theorem inflVec_apply (s1 : FVec Ideal S1x3 .f32) (v7 : FVec Ideal S600x32x3 .f32) (r : Fin 600) (h : Fin 32) :
    inflVec s1 v7 (ix2 r h) = Cert.KP.infl (fun d => v7 (ix3 r h d)) (fun d => s1 (ix2 (0 : Fin 1) d)) := by
  have hsum : multiReduction .add [2] S600x32 (mulf (diffVec s1 v7) (diffVec s1 v7)) 0x00000000#32 reduces_S600x32x3_S600x32 (.inl rfl) rfl (ix2 r h)
      = ∑ d : Fin 3, (v7 (ix3 r h d) - s1 (ix2 (0 : Fin 1) d)) * (v7 (ix3 r h d) - s1 (ix2 (0 : Fin 1) d)) := by
    refine (Ideal.multiReduction_add_single _ _ reduces_S600x32x3_S600x32 _ _ (ix2 r h)).trans ?_
    show (∑ d : Fin 3, mulf (diffVec s1 v7) (diffVec s1 v7) (reduces_S600x32x3_S600x32.lift (ix2 r h) d)) = _
    refine Finset.sum_congr rfl fun d _ => ?_
    have hidx : reduces_S600x32x3_S600x32.lift (ix2 r h) d = ix3 r h d :=
      funext fun a => Fin.ext (by match a with | ⟨0, _⟩ => rfl | ⟨1, _⟩ => rfl | ⟨2, _⟩ => rfl)
    rw [hidx, mulf_apply, diffVec_apply]
  unfold inflVec Cert.KP.infl
  rw [maximumf_apply, broadcast_apply, subf_apply, broadcast_apply, divf_apply, broadcast_apply]
  show max _ (_ - Ideal.div (Ideal.sqrt (multiReduction .add [2] S600x32 (mulf (diffVec s1 v7) (diffVec s1 v7)) 0x00000000#32 reduces_S600x32x3_S600x32 (.inl rfl) rfl (ix2 r h))) _) = _
  rw [hsum]
  simp only [Ideal.ofBits_def, Ideal.ofBits_zero_f32]

/-- A [600, 32] array cast to [600, 32, 1] and laid over [600, 32, 128] reads, at `(r, h, c)`, its entry `(r, h)`. -/
theorem column_apply (v : FVec Ideal S600x32 .f32) (r : Fin 600) (h : Fin 32) (c : Fin 128) :
    broadcastTo S600x32x128 (shapeCast S600x32x1 v shapeCasts_S600x32_S600x32x1) broadcasts_S600x32x1_S600x32x128 (ix3 r h c) = v (ix2 r h) := by
  refine (broadcastTo_apply _ broadcasts_S600x32x1_S600x32x128 (ix3 r h c) (ix3 r h (0 : Fin 1)) fun a => ?_).trans ?_
  · match a with
    | ⟨0, _⟩ => rfl
    | ⟨1, _⟩ => rfl
    | ⟨2, _⟩ => rfl
  refine shapeCast_apply v shapeCasts_S600x32_S600x32x1 (ix3 r h (0 : Fin 1)) (ix2 r h) ?_
  rw [Shape.rowMajor_val_two, Shape.rowMajor_val_three]
  show r.val * 32 + h.val = (r.val * 32 + h.val) * 1 + 0
  omega

/-- The weighted feature at row `r`, channel `c`: the sum over the 32 neighbours of influence times feature. -/
theorem wfVec_apply (s1 : FVec Ideal S1x3 .f32) (v4 : FVec Ideal S600x32x128 .f32) (v7 : FVec Ideal S600x32x3 .f32) (r : Fin 600) (c : Fin 128) :
    wfVec s1 v4 v7 (ix2 r c)
      = ∑ h : Fin 32, Cert.KP.infl (fun d => v7 (ix3 r h d)) (fun d => s1 (ix2 (0 : Fin 1) d)) * v4 (ix3 r h c) := by
  unfold wfVec
  refine (Ideal.multiReduction_add_single _ _ reduces_S600x32x128_S600x128 _ _ (ix2 r c)).trans ?_
  show (∑ h : Fin 32, mulf (broadcastTo S600x32x128 (shapeCast S600x32x1 (inflVec s1 v7) shapeCasts_S600x32_S600x32x1) broadcasts_S600x32x1_S600x32x128) v4
      (reduces_S600x32x128_S600x128.lift (ix2 r c) h)) = _
  refine Finset.sum_congr rfl fun h _ => ?_
  have hidx : reduces_S600x32x128_S600x128.lift (ix2 r c) h = ix3 r h c :=
    funext fun a => Fin.ext (by match a with | ⟨0, _⟩ => rfl | ⟨1, _⟩ => rfl | ⟨2, _⟩ => rfl)
  rw [hidx, mulf_apply, column_apply, inflVec_apply]

/-- The weight factor at row `r`, channel `c`: the sum over the 8 groups of weight times matrix entry. -/
theorem cwVec_apply (s8 : FVec Ideal S600x8 .f32) (v28 : FVec Ideal S8x128 .f32) (r : Fin 600) (c : Fin 128) :
    cwVec s8 v28 (ix2 r c) = ∑ g : Fin 8, s8 (ix2 r g) * v28 (ix2 g c) := by
  unfold cwVec
  refine (Ideal.matmul_constant_zero_apply dot_S600x8_S8x128_S600x128_1_0_0_1_n_n none s8 v28 (ix2 r c)).trans ?_
  rw [← Equiv.sum_comp (contrEquiv1 dot_S600x8_S8x128_S600x128_1_0_0_1_n_n 8 rfl rfl).symm]
  refine Finset.sum_congr rfl fun g _ => ?_
  have hl : dot_S600x8_S8x128_S600x128_1_0_0_1_n_n.lhsIdx (ix2 r c) ((contrEquiv1 dot_S600x8_S8x128_S600x128_1_0_0_1_n_n 8 rfl rfl).symm g) = ix2 r g :=
    funext fun a => Fin.ext (by match a with | ⟨0, _⟩ => rfl | ⟨1, _⟩ => rfl)
  have hr : dot_S600x8_S8x128_S600x128_1_0_0_1_n_n.rhsIdx (ix2 r c) ((contrEquiv1 dot_S600x8_S8x128_S600x128_1_0_0_1_n_n 8 rfl rfl).symm g) = ix2 g c :=
    funext fun a => Fin.ext (by match a with | ⟨0, _⟩ => rfl | ⟨1, _⟩ => rfl)
  rw [hl, hr]

/-- One kernel point's term at row `r`, channel `c`. -/
theorem iterTerm_apply (s1 : FVec Ideal S1x3 .f32) (s8 : FVec Ideal S600x8 .f32) (v4 : FVec Ideal S600x32x128 .f32)
    (v7 : FVec Ideal S600x32x3 .f32) (v28 : FVec Ideal S8x128 .f32) (r : Fin 600) (c : Fin 128) :
    iterTerm s1 s8 v4 v7 v28 (ix2 r c)
      = (∑ h : Fin 32, Cert.KP.infl (fun d => v7 (ix3 r h d)) (fun d => s1 (ix2 (0 : Fin 1) d)) * v4 (ix3 r h c))
        * ∑ g : Fin 8, s8 (ix2 r g) * v28 (ix2 g c) := by
  unfold iterTerm
  rw [mulf_apply, wfVec_apply, cwVec_apply]

/-- Kernel point `k`'s row of the 15 x 3 array of kernel points, as a [1, 3] array. -/
def ptRow (k : Nat) (v27 : FVec Ideal S15x3 .f32) (h : S15x3.Slices ![k, 0] S1x3) : FVec Ideal S1x3 .f32 :=
  extractStridedSlice S1x3 ![k, 0] v27 h

theorem ptRow_apply (k : Nat) (v27 : FVec Ideal S15x3 .f32) (h : S15x3.Slices ![k, 0] S1x3) (hk : k < 15) (e : Fin 3) :
    ptRow k v27 h (ix2 (0 : Fin 1) e) = v27 (ix2 (⟨k, hk⟩ : Fin 15) e) :=
  slice2_axis0_apply k v27 h (0 : Fin 1) e ⟨k, hk⟩ rfl

/-- Eight consecutive columns, from column `o`, of the [600, 120] array of generated weights. -/
def wtCols (o : Nat) (v26 : FVec Ideal S600x120 .f32) (h : S600x120.Slices ![0, o] S600x8) : FVec Ideal S600x8 .f32 :=
  extractStridedSlice S600x8 ![0, o] v26 h

theorem wtCols_apply (o : Nat) (v26 : FVec Ideal S600x120 .f32) (h : S600x120.Slices ![0, o] S600x8) (r : Fin 600) (g : Fin 8)
    (ho : o + g.val < 120) : wtCols o v26 h (ix2 r g) = v26 (ix2 r (⟨o + g.val, ho⟩ : Fin 120)) :=
  slice2_axis1_apply o v26 h r g ⟨o + g.val, ho⟩ rfl

end Cert.KernelIdeal.Pay

end
-- ==== Proof.KerPay0Gen.lean ====
/-
  The three arrays every kernel point's term of the first kernel body reads, at one entry.

  The feature block is the loaded block itself. The centred neighbour positions are the neighbour positions minus the
  query position, the query's row laid over its 32 neighbours. The 120 generated weights of a row come from the first
  neighbour's 128 features through a 128 x 32 matrix plus a bias, the leaky rectifier, and a 32 x 120 matrix plus a bias.
  This module proves those readings, entry by entry, on the extended reals.
-/
import proofs.«106741_j66271345377641_1_alg».proof.Proof.Gen.KernelIdeal.Skeleton
import proofs.«106741_j66271345377641_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen

/-- The feature block is the loaded block. -/
theorem pay2_eq (x2 : Vec Ideal S600x32x128 .f32) : k0_pay2 (F := Ideal) x2 = x2 := by
  unfold k0_pay2
  exact shapeCast_self x2 _

/-- The centred neighbour position: neighbour `h`'s coordinate `e` minus the query's. -/
theorem pay3_apply (x0 : Vec Ideal S600x3 .f32) (x1 : Vec Ideal S600x32x3 .f32) (r : Fin 600) (h : Fin 32) (e : Fin 3) :
    k0_pay3 (F := Ideal) x0 x1 (ix3 r h e) = x1 (ix3 r h e) - x0 (ix2 r e) := by
  unfold k0_pay3
  simp only [shapeCast_self]
  rw [subf_apply]
  refine congrArg (x1 (ix3 r h e) - ·) ?_
  refine (broadcastTo_apply _ broadcasts_S600x1x3_S600x32x3 (ix3 r h e) (ix3 r (0 : Fin 1) e) fun a => ?_).trans ?_
  · match a with
    | ⟨0, _⟩ => rfl
    | ⟨1, _⟩ => rfl
    | ⟨2, _⟩ => rfl
  refine shapeCast_apply x0 shapeCasts_S600x3_S600x1x3 (ix3 r (0 : Fin 1) e) (ix2 r e) ?_
  rw [Shape.rowMajor_val_two, Shape.rowMajor_val_three]
  show r.val * 3 + e.val = (r.val * 1 + 0) * 3 + e.val
  omega

/-- The first neighbour's features of every row, as a [600, 128] array. -/
def featRow (v3 : Vec Ideal S600x32x128 .f32) : FVec Ideal S600x128 .f32 :=
  shapeCast S600x128 (extractStridedSlice S600x1x128 ![0, 0, 0] (k0_pay2 (F := Ideal) v3) slices_S600x32x128_o0_0_0_S600x1x128) shapeCasts_S600x1x128_S600x128

theorem featRow_apply (v3 : Vec Ideal S600x32x128 .f32) (r : Fin 600) (i : Fin 128) :
    featRow v3 (ix2 r i) = v3 (ix3 r (0 : Fin 32) i) := by
  unfold featRow
  rw [pay2_eq]
  refine (shapeCast_apply _ shapeCasts_S600x1x128_S600x128 (ix2 r i) (ix3 r (0 : Fin 1) i) ?_).trans ?_
  · rw [Shape.rowMajor_val_two, Shape.rowMajor_val_three]
    show (r.val * 1 + 0) * 128 + i.val = r.val * 128 + i.val
    omega
  exact slice3_axis1_apply 0 v3 slices_S600x32x128_o0_0_0_S600x1x128 r (0 : Fin 1) i (0 : Fin 32) rfl

/-- A bias of 32 numbers laid along each of the 600 rows reads its entry `j`. -/
theorem bias32_apply (v : FVec Ideal S32 .f32) (r : Fin 600) (j : Fin 32) :
    broadcastTo S600x32 (shapeCast S1x32 v shapeCasts_S32_S1x32) broadcasts_S1x32_S600x32 (ix2 r j) = v (ix1 j) :=
  (broadcastTo_1b_ab_apply _ _ r j).trans (shapeCast_a_1a_apply v _ 0 j)

/-- A bias of 120 numbers laid along each of the 600 rows reads its entry `o`. -/
theorem bias120_apply (v : FVec Ideal S120 .f32) (r : Fin 600) (o : Fin 120) :
    broadcastTo S600x120 (shapeCast S1x120 v shapeCasts_S120_S1x120) broadcasts_S1x120_S600x120 (ix2 r o) = v (ix1 o) :=
  (broadcastTo_1b_ab_apply _ _ r o).trans (shapeCast_a_1a_apply v _ 0 o)

/-- A [600, 128] by [128, 32] product at `(r, j)`: the sum over the 128 inner positions. -/
theorem dot1_apply (a : FVec Ideal S600x128 .f32) (b : FVec Ideal S128x32 .f32) (r : Fin 600) (j : Fin 32) :
    matmul dot_S600x128_S128x32_S600x32_1_0_0_1_n_n none a b (constant S600x32 .f32 0x00000000#32) (ix2 r j)
      = ∑ i : Fin 128, a (ix2 r i) * b (ix2 i j) := by
  refine (Ideal.matmul_constant_zero_apply dot_S600x128_S128x32_S600x32_1_0_0_1_n_n none a b (ix2 r j)).trans ?_
  rw [← Equiv.sum_comp (contrEquiv1 dot_S600x128_S128x32_S600x32_1_0_0_1_n_n 128 rfl rfl).symm]
  refine Finset.sum_congr rfl fun i _ => ?_
  have hl : dot_S600x128_S128x32_S600x32_1_0_0_1_n_n.lhsIdx (ix2 r j) ((contrEquiv1 dot_S600x128_S128x32_S600x32_1_0_0_1_n_n 128 rfl rfl).symm i) = ix2 r i :=
    funext fun a => Fin.ext (by match a with | ⟨0, _⟩ => rfl | ⟨1, _⟩ => rfl)
  have hr : dot_S600x128_S128x32_S600x32_1_0_0_1_n_n.rhsIdx (ix2 r j) ((contrEquiv1 dot_S600x128_S128x32_S600x32_1_0_0_1_n_n 128 rfl rfl).symm i) = ix2 i j :=
    funext fun a => Fin.ext (by match a with | ⟨0, _⟩ => rfl | ⟨1, _⟩ => rfl)
  rw [hl, hr]

/-- A [600, 32] by [32, 120] product at `(r, o)`: the sum over the 32 inner positions. -/
theorem dot2_apply (a : FVec Ideal S600x32 .f32) (b : FVec Ideal S32x120 .f32) (r : Fin 600) (o : Fin 120) :
    matmul dot_S600x32_S32x120_S600x120_1_0_0_1_n_n none a b (constant S600x120 .f32 0x00000000#32) (ix2 r o)
      = ∑ j : Fin 32, a (ix2 r j) * b (ix2 j o) := by
  refine (Ideal.matmul_constant_zero_apply dot_S600x32_S32x120_S600x120_1_0_0_1_n_n none a b (ix2 r o)).trans ?_
  rw [← Equiv.sum_comp (contrEquiv1 dot_S600x32_S32x120_S600x120_1_0_0_1_n_n 32 rfl rfl).symm]
  refine Finset.sum_congr rfl fun j _ => ?_
  have hl : dot_S600x32_S32x120_S600x120_1_0_0_1_n_n.lhsIdx (ix2 r o) ((contrEquiv1 dot_S600x32_S32x120_S600x120_1_0_0_1_n_n 32 rfl rfl).symm j) = ix2 r j :=
    funext fun a => Fin.ext (by match a with | ⟨0, _⟩ => rfl | ⟨1, _⟩ => rfl)
  have hr : dot_S600x32_S32x120_S600x120_1_0_0_1_n_n.rhsIdx (ix2 r o) ((contrEquiv1 dot_S600x32_S32x120_S600x120_1_0_0_1_n_n 32 rfl rfl).symm j) = ix2 j o :=
    funext fun a => Fin.ext (by match a with | ⟨0, _⟩ => rfl | ⟨1, _⟩ => rfl)
  rw [hl, hr]

/-- The hidden layer before the rectifier. -/
def preHid (v3 : Vec Ideal S600x32x128 .f32) (v10 : FVec Ideal S128x32 .f32) (v12 : FVec Ideal S32 .f32) : FVec Ideal S600x32 .f32 :=
  addf (matmul dot_S600x128_S128x32_S600x32_1_0_0_1_n_n none (featRow v3) v10 (constant S600x32 .f32 0x00000000#32))
    (broadcastTo S600x32 (shapeCast S1x32 v12 shapeCasts_S32_S1x32) broadcasts_S1x32_S600x32)

theorem preHid_apply (v3 : Vec Ideal S600x32x128 .f32) (v10 : FVec Ideal S128x32 .f32) (v12 : FVec Ideal S32 .f32) (r : Fin 600) (j : Fin 32) :
    preHid v3 v10 v12 (ix2 r j) = (∑ i : Fin 128, v3 (ix3 r (0 : Fin 32) i) * v10 (ix2 i j)) + v12 (ix1 j) := by
  unfold preHid
  rw [addf_apply, dot1_apply, bias32_apply]
  simp only [featRow_apply]

/-- The hidden layer: the leaky rectifier of the above. -/
def hid (v3 : Vec Ideal S600x32x128 .f32) (v10 : FVec Ideal S128x32 .f32) (v12 : FVec Ideal S32 .f32) : FVec Ideal S600x32 .f32 :=
  select (cmpf .oge (preHid v3 v10 v12) (broadcast S600x32 (Scalar.ofBits .f32 0x00000000#32))) (preHid v3 v10 v12)
    (mulf (broadcast S600x32 (Scalar.ofBits .f32 0x3DCCCCCD#32)) (preHid v3 v10 v12))

theorem hid_apply (v3 : Vec Ideal S600x32x128 .f32) (v10 : FVec Ideal S128x32 .f32) (v12 : FVec Ideal S32 .f32) (r : Fin 600) (j : Fin 32) :
    hid v3 v10 v12 (ix2 r j)
      = Cert.KP.hidden (fun i => v3 (ix3 r (0 : Fin 32) i)) (fun i j => v10 (ix2 i j)) (fun j => v12 (ix1 j)) j := by
  unfold hid Cert.KP.hidden Cert.KP.leaky
  rw [select_apply, cmpf_apply, mulf_apply, broadcast_apply, broadcast_apply, preHid_apply]
  simp only [Ideal.cmpf_def, Ideal.ofBits_def, Ideal.ofBits_zero_f32]

/-- The generated weights are the hidden layer times the second matrix plus the second bias. -/
theorem pay4_eq (v3 : Vec Ideal S600x32x128 .f32) (v10 : FVec Ideal S128x32 .f32) (v12 : FVec Ideal S32 .f32)
    (v21 : FVec Ideal S32x120 .f32) (v23 : FVec Ideal S120 .f32) :
    k0_pay4 (F := Ideal) v3 v10 v12 v21 v23
      = addf (matmul dot_S600x32_S32x120_S600x120_1_0_0_1_n_n none (hid v3 v10 v12) v21 (constant S600x120 .f32 0x00000000#32))
          (broadcastTo S600x120 (shapeCast S1x120 v23 shapeCasts_S120_S1x120) broadcasts_S1x120_S600x120) := rfl

/-- The generated weight `o` of row `r`. -/
theorem pay4_apply (v3 : Vec Ideal S600x32x128 .f32) (v10 : FVec Ideal S128x32 .f32) (v12 : FVec Ideal S32 .f32)
    (v21 : FVec Ideal S32x120 .f32) (v23 : FVec Ideal S120 .f32) (r : Fin 600) (o : Fin 120) :
    k0_pay4 (F := Ideal) v3 v10 v12 v21 v23 (ix2 r o)
      = Cert.KP.convw (fun i => v3 (ix3 r (0 : Fin 32) i)) (fun i j => v10 (ix2 i j)) (fun j => v12 (ix1 j))
          (fun j o => v21 (ix2 j o)) (fun o => v23 (ix1 o)) o := by
  rw [pay4_eq, addf_apply, dot2_apply, bias120_apply]
  unfold Cert.KP.convw
  simp only [hid_apply]

end Cert.KernelIdeal.Pay

end
-- ==== Proof.KerPay0Chain.lean ====
/-
  The first kernel body's stored value is a running sum over the 15 kernel points.

  The body's loop over the kernel points is unrolled: the stored block is
    ((0 + t 0) + t 1) + ... + t 14,
  where `t k` is kernel point `k`'s term (`iterTerm`) of the feature block, the centred neighbour positions, row `k` of
  the kernel points and columns `8 k .. 8 k + 7` of the generated weights. This module states that sum over the
  arrays the terms read and proves it by unfolding the body's named pieces.
-/
import proofs.«106741_j66271345377641_1_alg».proof.Proof.KerPay0Iter

noncomputable section

namespace Cert.KernelIdeal.Pay

open Idealize.ShloMosaic Idealize.ShloMosaic.ValueIdx Idealize.SL.Sem
open Cert.KernelIdeal Cert.KernelIdeal.Gen

/-- The stored block as the running sum of the 15 kernel points' terms. -/
theorem payload_eq (x0 : Vec Ideal S600x3 .f32) (x1 : Vec Ideal S600x32x3 .f32) (v4 : FVec Ideal S600x32x128 .f32)
    (v26 : FVec Ideal S600x120 .f32) (v27 : FVec Ideal S15x3 .f32) (v28 : FVec Ideal S8x128 .f32) :
    k0_pay1 (k0_pay21 v4 (k0_pay3 x0 x1) v26 v28 (k0_pay19 v4 (k0_pay3 x0 x1) v26 v27 v28 (k0_pay16 v4 (k0_pay3 x0 x1) v26 v27 v28 (k0_pay14 v4 (k0_pay3 x0 x1) v26 v27 v28 (k0_pay12 v4 (k0_pay3 x0 x1) v26 v27 v28 (k0_pay9 v4 (k0_pay3 x0 x1) v26 v27 v28 (k0_pay7 v4 (k0_pay3 x0 x1) v26 v27 v28 (k0_pay5 (F := Ideal)) (k0_pay6 x0 x1 v27)) (k0_pay8 (k0_pay3 x0 x1) v27) (Scalar.ofBits .f32 0x40000000#32)) (k0_pay10 (k0_pay3 x0 x1) v27) (k0_pay11 (F := Ideal))) (k0_pay13 (k0_pay3 x0 x1) v27)) (k0_pay15 v4 (k0_pay3 x0 x1) v27)) (k0_pay17 v4 (k0_pay3 x0 x1) v27) (k0_pay18 v26 v28)) (k0_pay20 v27)) (k0_pay22 v4 (k0_pay3 x0 x1) v26 v27 v28)
      = (addf (addf (addf (addf (addf (addf (addf (addf (addf (addf (addf (addf (addf (addf (addf (broadcast S600x128 (Scalar.ofBits .f32 0x00000000#32))
        (iterTerm (ptRow 0 v27 slices_S15x3_o0_0_S1x3) (wtCols 0 v26 slices_S600x120_o0_0_S600x8) v4 (k0_pay3 x0 x1) v28))
        (iterTerm (ptRow 1 v27 slices_S15x3_o1_0_S1x3) (wtCols 8 v26 slices_S600x120_o0_8_S600x8) v4 (k0_pay3 x0 x1) v28))
        (iterTerm (ptRow 2 v27 slices_S15x3_o2_0_S1x3) (wtCols 16 v26 slices_S600x120_o0_16_S600x8) v4 (k0_pay3 x0 x1) v28))
        (iterTerm (ptRow 3 v27 slices_S15x3_o3_0_S1x3) (wtCols 24 v26 slices_S600x120_o0_24_S600x8) v4 (k0_pay3 x0 x1) v28))
        (iterTerm (ptRow 4 v27 slices_S15x3_o4_0_S1x3) (wtCols 32 v26 slices_S600x120_o0_32_S600x8) v4 (k0_pay3 x0 x1) v28))
        (iterTerm (ptRow 5 v27 slices_S15x3_o5_0_S1x3) (wtCols 40 v26 slices_S600x120_o0_40_S600x8) v4 (k0_pay3 x0 x1) v28))
        (iterTerm (ptRow 6 v27 slices_S15x3_o6_0_S1x3) (wtCols 48 v26 slices_S600x120_o0_48_S600x8) v4 (k0_pay3 x0 x1) v28))
        (iterTerm (ptRow 7 v27 slices_S15x3_o7_0_S1x3) (wtCols 56 v26 slices_S600x120_o0_56_S600x8) v4 (k0_pay3 x0 x1) v28))
        (iterTerm (ptRow 8 v27 slices_S15x3_o8_0_S1x3) (wtCols 64 v26 slices_S600x120_o0_64_S600x8) v4 (k0_pay3 x0 x1) v28))
        (iterTerm (ptRow 9 v27 slices_S15x3_o9_0_S1x3) (wtCols 72 v26 slices_S600x120_o0_72_S600x8) v4 (k0_pay3 x0 x1) v28))
        (iterTerm (ptRow 10 v27 slices_S15x3_o10_0_S1x3) (wtCols 80 v26 slices_S600x120_o0_80_S600x8) v4 (k0_pay3 x0 x1) v28))
        (iterTerm (ptRow 11 v27 slices_S15x3_o11_0_S1x3) (wtCols 88 v26 slices_S600x120_o0_88_S600x8) v4 (k0_pay3 x0 x1) v28))
        (iterTerm (ptRow 12 v27 slices_S15x3_o12_0_S1x3) (wtCols 96 v26 slices_S600x120_o0_96_S600x8) v4 (k0_pay3 x0 x1) v28))
        (iterTerm (ptRow 13 v27 slices_S15x3_o13_0_S1x3) (wtCols 104 v26 slices_S600x120_o0_104_S600x8) v4 (k0_pay3 x0 x1) v28))
        (iterTerm (ptRow 14 v27 slices_S15x3_o14_0_S1x3) (wtCols 112 v26 slices_S600x120_o0_112_S600x8) v4 (k0_pay3 x0 x1) v28)) := rfl

end Cert.KernelIdeal.Pay

end
-- ==== Proof.KerPay0.lean ====
/-
  The first kernel body read at one entry.

  The body stores, at row `r` and channel `c` of its block, the sum over the 15 kernel points `k` of
    (sum over the 32 neighbours of influence times feature)  *  (sum over the 8 groups g of weight (8 k + g) times R g c),
  the influence of a neighbour on a kernel point being `max 0 (1 - distance / 2)` of the centred neighbour position from
  the kernel point, and the 120 weights of the row being generated from the first neighbour's features. The running sum
  ((0 + t 0) + t 1) + ... + t 14 of the unrolled loop is the sum over the kernel points because addition of extended
  reals from zero, taken in order, is the finite sum. This is the row before normalisation of the specification.
-/
import proofs.«106741_j66271345377641_1_alg».proof.Proof.Gen.KernelIdeal.Frame
import proofs.«106741_j66271345377641_1_alg».proof.Proof.KerPay0Iter
import proofs.«106741_j66271345377641_1_alg».proof.Proof.KerPay0Gen
import proofs.«106741_j66271345377641_1_alg».proof.Proof.KerPay0Chain

noncomputable section

namespace Cert.KernelIdeal.Pay

open Idealize.ShloMosaic Idealize.ShloMosaic.ValueIdx Idealize.SL.Sem
open Cert.KernelIdeal Cert.KernelIdeal.Gen

/-- Kernel point `k`'s summand of a row before normalisation. -/
def termAt (q : Fin 3 → EReal) (np : Fin 32 → Fin 3 → EReal) (nf : Fin 32 → Fin 128 → EReal)
    (kp : Fin 15 → Fin 3 → EReal) (w1 : Fin 128 → Fin 32 → EReal) (b1 : Fin 32 → EReal)
    (w2 : Fin 32 → Fin 120 → EReal) (b2 : Fin 120 → EReal) (R : Fin 8 → Fin 128 → EReal) (c : Fin 128) (k : Fin 15) : EReal :=
  Cert.KP.wfeat q np nf kp k c * ∑ g : Fin 8, Cert.KP.convw (nf 0) w1 b1 w2 b2 ⟨8 * k.val + g.val, by omega⟩ * R g c

theorem kerPre_eq_sum (q : Fin 3 → EReal) (np : Fin 32 → Fin 3 → EReal) (nf : Fin 32 → Fin 128 → EReal)
    (kp : Fin 15 → Fin 3 → EReal) (w1 : Fin 128 → Fin 32 → EReal) (b1 : Fin 32 → EReal)
    (w2 : Fin 32 → Fin 120 → EReal) (b2 : Fin 120 → EReal) (R : Fin 8 → Fin 128 → EReal) (c : Fin 128) :
    Cert.KP.kerPre q np nf kp w1 b1 w2 b2 R c = ∑ k : Fin 15, termAt q np nf kp w1 b1 w2 b2 R c k := rfl

/-- A sum over 15 positions is the running sum from zero, taken in order. -/
theorem sum15 (f : Fin 15 → EReal) :
    ∑ k, f k = 0 + f ⟨0, by decide⟩ + f ⟨1, by decide⟩ + f ⟨2, by decide⟩ + f ⟨3, by decide⟩ + f ⟨4, by decide⟩ + f ⟨5, by decide⟩ + f ⟨6, by decide⟩ + f ⟨7, by decide⟩ + f ⟨8, by decide⟩ + f ⟨9, by decide⟩ + f ⟨10, by decide⟩ + f ⟨11, by decide⟩ + f ⟨12, by decide⟩ + f ⟨13, by decide⟩ + f ⟨14, by decide⟩ := by
  simp only [Fin.sum_univ_castSucc, Fin.sum_univ_zero]
  rfl

theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl

/-- Kernel point `k`'s term of the body, over the loaded blocks, is the specification's summand. -/
theorem term_apply (x0 : Vec Ideal S600x3 .f32) (x1 : Vec Ideal S600x32x3 .f32) (x2 : Vec Ideal S600x32x128 .f32) (x3 : Vec Ideal S15x3 .f32) (x4 : Vec Ideal S128x32 .f32) (x5 : Vec Ideal S32 .f32) (x6 : Vec Ideal S32x120 .f32) (x7 : Vec Ideal S120 .f32) (x8 : Vec Ideal S8x128 .f32)
    (r : Fin 600) (c : Fin 128) (k o : Nat) (hk : k < 15) (ho : o = 8 * k)
    (h1 : S15x3.Slices ![k, 0] S1x3) (h2 : S600x120.Slices ![0, o] S600x8) :
    iterTerm (ptRow k x3 h1) (wtCols o (k0_pay4 (F := Ideal) x2 x4 x5 x6 x7) h2) (k0_pay2 (F := Ideal) x2) (k0_pay3 (F := Ideal) x0 x1) x8 (ix2 r c)
      = termAt (fun d => x0 (ix2 r d)) (fun h d => x1 (ix3 r h d)) (fun h c' => x2 (ix3 r h c')) (fun k d => x3 (ix2 k d)) (fun i j => x4 (ix2 i j)) (fun j => x5 (ix1 j)) (fun j o => x6 (ix2 j o)) (fun o => x7 (ix1 o)) (fun g c' => x8 (ix2 g c')) c ⟨k, hk⟩ := by
  subst ho
  rw [iterTerm_apply]
  unfold termAt Cert.KP.wfeat
  refine congrArg₂ (· * ·) (Finset.sum_congr rfl fun h _ => ?_) (Finset.sum_congr rfl fun g _ => ?_)
  · rw [pay2_eq]
    simp only [pay3_apply, ptRow_apply k x3 h1 hk]
  · rw [wtCols_apply (8 * k) _ h2 r g (by omega), pay4_apply]

/-- The block the first body stores, at row `r` and channel `c`, is the specification's row before normalisation. -/
theorem out0_9_apply (x0 : Vec Ideal S600x3 .f32) (x1 : Vec Ideal S600x32x3 .f32) (x2 : Vec Ideal S600x32x128 .f32) (x3 : Vec Ideal S15x3 .f32) (x4 : Vec Ideal S128x32 .f32) (x5 : Vec Ideal S32 .f32) (x6 : Vec Ideal S32x120 .f32) (x7 : Vec Ideal S120 .f32) (x8 : Vec Ideal S8x128 .f32) (r : Fin 600) (c : Fin 128) :
    out0_9 (F := Ideal) x0 x1 x2 x3 x4 x5 x6 x7 x8 (ix2 r c)
      = Cert.KP.kerPre (fun d => x0 (ix2 r d)) (fun h d => x1 (ix3 r h d)) (fun h c' => x2 (ix3 r h c')) (fun k d => x3 (ix2 k d)) (fun i j => x4 (ix2 i j)) (fun j => x5 (ix1 j)) (fun j o => x6 (ix2 j o)) (fun o => x7 (ix1 o)) (fun g c' => x8 (ix2 g c')) c := by
  unfold out0_9
  rw [View.canon_unit_zero off2]
  simp only [View.ld_unit_zero (S := S600x3) off2, View.ld_unit_zero (S := S600x32x3) off3, View.ld_unit_zero (S := S600x32x128) off3,
    View.ld_unit_zero (S := S15x3) off2, View.ld_unit_zero (S := S128x32) off2, View.ld_unit_zero (S := S32) off1,
    View.ld_unit_zero (S := S32x120) off2, View.ld_unit_zero (S := S120) off1, View.ld_unit_zero (S := S8x128) off2]
  rw [payload_eq x0 x1 (k0_pay2 (F := Ideal) x2) (k0_pay4 (F := Ideal) x2 x4 x5 x6 x7) x3 x8]
  simp only [addf_apply, broadcast_apply]
  rw [term_apply x0 x1 x2 x3 x4 x5 x6 x7 x8 r c 0 0 (by decide) rfl,
    term_apply x0 x1 x2 x3 x4 x5 x6 x7 x8 r c 1 8 (by decide) rfl,
    term_apply x0 x1 x2 x3 x4 x5 x6 x7 x8 r c 2 16 (by decide) rfl,
    term_apply x0 x1 x2 x3 x4 x5 x6 x7 x8 r c 3 24 (by decide) rfl,
    term_apply x0 x1 x2 x3 x4 x5 x6 x7 x8 r c 4 32 (by decide) rfl,
    term_apply x0 x1 x2 x3 x4 x5 x6 x7 x8 r c 5 40 (by decide) rfl,
    term_apply x0 x1 x2 x3 x4 x5 x6 x7 x8 r c 6 48 (by decide) rfl,
    term_apply x0 x1 x2 x3 x4 x5 x6 x7 x8 r c 7 56 (by decide) rfl,
    term_apply x0 x1 x2 x3 x4 x5 x6 x7 x8 r c 8 64 (by decide) rfl,
    term_apply x0 x1 x2 x3 x4 x5 x6 x7 x8 r c 9 72 (by decide) rfl,
    term_apply x0 x1 x2 x3 x4 x5 x6 x7 x8 r c 10 80 (by decide) rfl,
    term_apply x0 x1 x2 x3 x4 x5 x6 x7 x8 r c 11 88 (by decide) rfl,
    term_apply x0 x1 x2 x3 x4 x5 x6 x7 x8 r c 12 96 (by decide) rfl,
    term_apply x0 x1 x2 x3 x4 x5 x6 x7 x8 r c 13 104 (by decide) rfl,
    term_apply x0 x1 x2 x3 x4 x5 x6 x7 x8 r c 14 112 (by decide) rfl]
  rw [kerPre_eq_sum, sum15]
  simp only [Ideal.ofBits_def, Ideal.ofBits_zero_f32]

end Cert.KernelIdeal.Pay

end
-- ==== Proof.KerPay1.lean ====
/-
  The second kernel body read at one entry. The body loads a [3000, 128] block `x` and four rows of 128 numbers
  (a mean `mu`, a variance `v`, a scale `g`, a shift `b`), and stores, at row `r` and channel `c`,
  the leaky rectifier of `(x r c - mu c) * rsqrt (v c + eps) * g c + b c`: the rows are broadcast over the block's
  rows, every other operation is entry by entry. This module proves that reading, entry by entry, on the extended reals.
-/
import proofs.«106741_j66271345377641_1_alg».proof.Proof.Gen.KernelIdeal.Frame
import proofs.«106741_j66271345377641_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Idealize.SL.Sem
open Cert.KernelIdeal Cert.KernelIdeal.Gen

/-- The printed zero offsets of a rank-2 block are the zero function. -/
theorem zeroOff2 : (![0, 0] : Fin 2 → Nat) = fun _ => 0 := funext fun a => by fin_cases a <;> rfl
/-- The printed zero offset of a rank-1 block is the zero function. -/
theorem zeroOff1 : (![0] : Fin 1 → Nat) = fun _ => 0 := funext fun a => by fin_cases a <;> rfl

/-- A row of 128 numbers laid along each of the block's 3000 rows reads, at `(r, c)`, the row's entry `c`. -/
theorem row_apply (v : FVec Ideal S128 .f32) (r : Fin 3000) (c : Fin 128) :
    broadcastTo S3000x128 (shapeCast S1x128 v shapeCasts_S128_S1x128) broadcasts_S1x128_S3000x128 (ix2 r c) = v (ix1 c) :=
  (broadcastTo_1b_ab_apply _ _ r c).trans (shapeCast_a_1a_apply v _ 0 c)

/-- The block the second body stores, at row `r` and channel `c`: the entry `x0 (r, c)` centred by `x1 c`, scaled by the
    inverse root of `x2 c` plus the small constant and by `x3 c`, shifted by `x4 c`, then passed through the leaky rectifier. -/
theorem out1_5_apply (x0 : Vec Ideal S3000x128 .f32) (x1 x2 x3 x4 : Vec Ideal S128 .f32) (r : Fin 3000) (c : Fin 128) :
    out1_5 (F := Ideal) x0 x1 x2 x3 x4 (ix2 r c)
      = Cert.KP.normPt (x0 (ix2 r c)) (x1 (ix1 c)) (x2 (ix1 c)) (x3 (ix1 c)) (x4 (ix1 c)) := by
  unfold out1_5
  rw [View.canon_unit_zero zeroOff2]
  simp only [View.ld_unit_zero (S := S3000x128) zeroOff2, View.ld_unit_zero (S := S128) zeroOff1]
  unfold k1_pay1
  simp only [shapeCast_self]
  simp only [select_apply, cmpf_apply, mulf_apply, addf_apply, subf_apply, broadcast_apply, row_apply]
  unfold Cert.KP.normPt Cert.KP.leaky
  simp only [Ideal.cmpf_def, Ideal.ofBits_def, Ideal.ofBits_zero_f32]
  rfl

end Cert.KernelIdeal.Pay

end
-- ==== Proof.Rlit.lean ====
/-
  The kernel program's 8 × 128 literal matrix is the groups' membership matrix: entry (g, c) is the word of 1.0
  when `c / 16 = g` and the zero word otherwise — decided over the 1024 entries of the printed table — and the two
  words denote the extended reals 1 and 0.
-/
import proofs.«106741_j66271345377641_1_alg».proof.KernelIdeal
import Idealize.ShloMosaic.PureOps.Ideal
import Idealize.ShloMosaic.PureOps.Ideal.Laws
import Idealize.ShloMosaic.Lib.ValueIdx

set_option maxRecDepth 16384

noncomputable section

namespace Cert.KernelIdeal.Rlit

open Idealize.ShloMosaic Idealize.ShloMosaic.ValueIdx Cert.KernelIdeal

/-- The printed table, entry by entry. -/
theorem lit0_eq : ∀ i : Fin 1024,
    lit0 i = if (i.val % 128) / 16 = i.val / 128 then 0x3F800000#32 else 0x00000000#32 := by
  decide +kernel

/-- The word of 1.0 denotes 1. -/
theorem ofBits_one : Ideal.ofBits .f32 0x3F800000#32 = 1 := by
  simp [Ideal.ofBits, Ideal.ieee, -EReal.coe_mul]; norm_num

/-- Entry (g, c) of the matrix at the ideal instance. -/
theorem apply (g : Fin 8) (c : Fin 128) :
    FloatOps.ofBits (F := Ideal) .f32 (lit0 (S8x128.rowMajor (ix2 g c))) = if c.val / 16 = g.val then (1 : EReal) else 0 := by
  have hg := g.isLt
  have hc := c.isLt
  have hv : (S8x128.rowMajor (ix2 g c)).val = g.val * 128 + c.val := by
    rw [Shape.rowMajor_val_two]; rfl
  have hlt : g.val * 128 + c.val < 1024 := by omega
  have hidx : (S8x128.rowMajor (ix2 g c) : Fin 1024) = ⟨g.val * 128 + c.val, hlt⟩ := Fin.ext hv
  have h1 : lit0 (S8x128.rowMajor (ix2 g c)) = lit0 ⟨g.val * 128 + c.val, hlt⟩ := congrArg lit0 hidx
  have e1 : (g.val * 128 + c.val) % 128 = c.val := by omega
  have e2 : (g.val * 128 + c.val) / 128 = g.val := by omega
  have h2 : lit0 ⟨g.val * 128 + c.val, hlt⟩ = if c.val / 16 = g.val then 0x3F800000#32 else 0x00000000#32 := by
    have h := lit0_eq ⟨g.val * 128 + c.val, hlt⟩
    rw [show ((⟨g.val * 128 + c.val, hlt⟩ : Fin 1024) : Nat) = g.val * 128 + c.val from rfl, e1, e2] at h
    exact h
  show Ideal.ofBits .f32 (lit0 (S8x128.rowMajor (ix2 g c))) = _
  refine (congrArg (Ideal.ofBits .f32) (h1.trans h2)).trans ?_
  by_cases h : c.val / 16 = g.val
  · rw [if_pos h, if_pos h, ofBits_one]
  · rw [if_neg h, if_neg h, Ideal.ofBits_zero_f32]

end Cert.KernelIdeal.Rlit

end
-- ==== Proof.Algebra.lean ====
/-
  The two row formulas agree when the 8 × 128 matrix is the groups' membership matrix.

  With `R g c = 1` when channel `c` belongs to group `g` (that is, `c / 16 = g`) and `0` otherwise, the product
  `∑ g, w (8 k + g) · R g c` keeps the one term `g = c / 16`: on the extended reals `x · 0 = 0` and `x · 1 = x`
  for every `x`, infinite ones included, so the sum is `w (8 k + c / 16)`, the weight the other formula picks by
  its index.
-/
import proofs.«106741_j66271345377641_1_alg».proof.Proof.Spec

noncomputable section

namespace Cert.KP

/-- The row formula with the membership matrix is the row formula with the group index. -/
theorem kerPre_eq_refPre (q : Fin 3 → EReal) (np : Fin 32 → Fin 3 → EReal) (nf : Fin 32 → Fin 128 → EReal)
    (kp : Fin 15 → Fin 3 → EReal) (w1 : Fin 128 → Fin 32 → EReal) (b1 : Fin 32 → EReal)
    (w2 : Fin 32 → Fin 120 → EReal) (b2 : Fin 120 → EReal) (R : Fin 8 → Fin 128 → EReal)
    (hR : ∀ (g : Fin 8) (c : Fin 128), R g c = if c.val / 16 = g.val then 1 else 0) (c : Fin 128) :
    kerPre q np nf kp w1 b1 w2 b2 R c = refPre q np nf kp w1 b1 w2 b2 c := by
  unfold kerPre refPre
  refine Finset.sum_congr rfl fun k _ => ?_
  refine congrArg (fun z => wfeat q np nf kp k c * z) ?_
  have hc : c.val / 16 < 8 := by have := c.isLt; omega
  rw [Finset.sum_eq_single (⟨c.val / 16, hc⟩ : Fin 8)]
  · rw [hR, if_pos rfl, mul_one]
  · intro g _ hg
    rw [hR, if_neg (fun h => hg (Fin.ext h.symm)), mul_zero]
  · intro h; exact absurd (Finset.mem_univ _) h

end Cert.KP

end
-- ==== Proof.RefReadInfl.lean ====
/-
  The influences of the reference read at one entry. A neighbour's centred position is its position minus the query
  point's; its offset from a kernel point is the centred position minus the kernel point; the squared distance is the
  sum over the three coordinates of the squared offsets; the influence of neighbour n on kernel point k is
  max 0 (1 - sqrt(squared distance) / 2), stored kernel point major.
-/
import proofs.«106741_j66271345377641_1_alg».proof.Proof.RefOps
import proofs.«106741_j66271345377641_1_alg».proof.Proof.Spec
import Idealize.ShloMosaic.Lib.ValueIdx
import Idealize.ShloMosaic.Lib.IdealHost
import Idealize.ShloMosaic.Lib.ValueLayout

noncomputable section

namespace Cert.ReferenceIdeal.Read2

open Idealize.ShloMosaic Idealize.ShloMosaic.ValueIdx Cert.ReferenceIdeal Cert.ReferenceIdeal.Facts₀ Cert.ReferenceIdeal.Ops

variable [Cert.ReferenceIdeal.Facts]

/-- The centred neighbour position at (m, n, d). -/
theorem centred_apply (a0 : FVec Ideal S30000x3 .f32) (np : FVec Ideal S30000x32x3 .f32)
    (m : Fin 30000) (n : Fin 32) (d : Fin 3) :
    Ops.centred a0 np (ix3 m n d) = np (ix3 m n d) - a0 (ix2 m d) := by
  unfold Ops.centred
  rw [subf_apply]
  refine congrArg (np (ix3 m n d) - ·) ?_
  refine (broadcastInDim_apply _ _ _ (ix3 m n d) (ix3 m (0 : Fin 1) d) fun a => ?_).trans ?_
  · match a with
    | ⟨0, _⟩ => rfl
    | ⟨1, _⟩ => rfl
    | ⟨2, _⟩ => rfl
  · refine broadcastInDim_apply _ _ _ (ix3 m (0 : Fin 1) d) (ix2 m d) fun a => ?_
    match a with
    | ⟨0, _⟩ => rfl
    | ⟨1, _⟩ => rfl

/-- The offset of neighbour n from kernel point k at (m, n, k, d). -/
theorem offsets_apply (a0 : FVec Ideal S30000x3 .f32) (np : FVec Ideal S30000x32x3 .f32) (a4 : FVec Ideal S15x3 .f32)
    (m : Fin 30000) (n : Fin 32) (k : Fin 15) (d : Fin 3) :
    Ops.offsets a0 np a4 (ix4 m n k d) = np (ix3 m n d) - a0 (ix2 m d) - a4 (ix2 k d) := by
  unfold Ops.offsets
  rw [subf_apply]
  have e1 : broadcastInDim S30000x32x15x3 ![0, 1, 2, 3] bcast_S30000x32x1x3_S30000x32x15x3_0_1_2_3
      (broadcastInDim S30000x32x1x3 ![0, 1, 3] bcast_S30000x32x3_S30000x32x1x3_0_1_3 (centred a0 np)) (ix4 m n k d)
      = np (ix3 m n d) - a0 (ix2 m d) := by
    refine (broadcastInDim_apply _ _ _ (ix4 m n k d) (ix4 m n (0 : Fin 1) d) fun a => ?_).trans ?_
    · match a with
      | ⟨0, _⟩ => rfl
      | ⟨1, _⟩ => rfl
      | ⟨2, _⟩ => rfl
      | ⟨3, _⟩ => rfl
    · refine (broadcastInDim_apply _ _ _ (ix4 m n (0 : Fin 1) d) (ix3 m n d) fun a => ?_).trans (centred_apply a0 np m n d)
      match a with
      | ⟨0, _⟩ => rfl
      | ⟨1, _⟩ => rfl
      | ⟨2, _⟩ => rfl
  have e2 : broadcastInDim S30000x32x15x3 ![0, 1, 2, 3] bcast_S1x1x15x3_S30000x32x15x3_0_1_2_3
      (broadcastInDim S1x1x15x3 ![2, 3] bcast_S15x3_S1x1x15x3_2_3 a4) (ix4 m n k d) = a4 (ix2 k d) := by
    refine (broadcastInDim_apply _ _ _ (ix4 m n k d) (ix4 (0 : Fin 1) (0 : Fin 1) k d) fun a => ?_).trans ?_
    · match a with
      | ⟨0, _⟩ => rfl
      | ⟨1, _⟩ => rfl
      | ⟨2, _⟩ => rfl
      | ⟨3, _⟩ => rfl
    · refine broadcastInDim_apply _ _ _ (ix4 (0 : Fin 1) (0 : Fin 1) k d) (ix2 k d) fun a => ?_
      match a with
      | ⟨0, _⟩ => rfl
      | ⟨1, _⟩ => rfl
  rw [e1, e2]

/-- The squared distance of neighbour n from kernel point k: the sum over the three coordinates. -/
theorem sqDist_apply (a0 : FVec Ideal S30000x3 .f32) (np : FVec Ideal S30000x32x3 .f32) (a4 : FVec Ideal S15x3 .f32)
    (m : Fin 30000) (n : Fin 32) (k : Fin 15) :
    Ops.sqDist a0 np a4 (ix3 m n k)
      = ∑ d : Fin 3, (np (ix3 m n d) - a0 (ix2 m d) - a4 (ix2 k d)) * (np (ix3 m n d) - a0 (ix2 m d) - a4 (ix2 k d)) := by
  unfold Ops.sqDist
  have hR : S30000x32x15x3.Reduces [3] S30000x32x15 :=
    ⟨reducesTo_S30000x32x15x3_S30000x32x15_d3.1, by decide, reducesTo_S30000x32x15x3_S30000x32x15_d3.2⟩
  rw [hostReduceAdd_apply, Ideal.hostReduceAdd_single _ hR, constant_apply, Ideal.ofBits_zero_f32, zero_add]
  refine Finset.sum_congr rfl fun (d : Fin 3) _ => ?_
  have e : hR.lift (ix3 m n k) d = ix4 m n k d := by
    funext a; apply Fin.ext
    match a with
    | ⟨0, _⟩ => rfl
    | ⟨1, _⟩ => rfl
    | ⟨2, _⟩ => rfl
    | ⟨3, _⟩ => rfl
  rw [e, mulf_apply, offsets_apply]

/-- The host's square root at an index is the ideal square root of the entry. -/
theorem hostSqrt_apply {s : Shape} {φ : FTy} (x : FVec Ideal s φ) (i : s.Idx) :
    Host.sqrt x i = Ideal.sqrt (x i) := rfl

/-- The influence of neighbour n on kernel point k, read at (m, k, n). -/
theorem influence_apply (a0 : FVec Ideal S30000x3 .f32) (np : FVec Ideal S30000x32x3 .f32) (a4 : FVec Ideal S15x3 .f32)
    (m : Fin 30000) (k : Fin 15) (n : Fin 32) :
    Ops.influence a0 np a4 (ix3 m k n)
      = Cert.KP.infl (fun d => np (ix3 m n d) - a0 (ix2 m d)) (fun d => a4 (ix2 k d)) := by
  unfold Ops.influence Cert.KP.infl
  rw [transpose_ix3_021_apply]
  simp only [maximumf_apply, subf_apply, hostDivf_apply, hostSqrt_apply, sqDist_apply,
    broadcastInDim_scalar_apply bcast_S_S30000x32x15, constant_apply, Ideal.ofBits_zero_f32]

end Cert.ReferenceIdeal.Read2

end
-- ==== Proof.RefReadWeights.lean ====
/-
  The generated convolution weights of the reference read at one entry. The first neighbour's 128 features go
  through a dense layer to 32 hidden numbers with a bias and the leaky rectifier, then through a second dense layer
  to 120 numbers with a bias: the weight at (m, o) is the sum over the hidden units j of hidden j times w2 (j, o),
  plus b2 o.
-/
import proofs.«106741_j66271345377641_1_alg».proof.Proof.RefOps
import proofs.«106741_j66271345377641_1_alg».proof.Proof.Spec
import Idealize.ShloMosaic.Lib.ValueIdx
import Idealize.ShloMosaic.Lib.IdealHost
import Idealize.ShloMosaic.Lib.ValueLayout
import Idealize.ShloMosaic.Lib.StackMember

noncomputable section

namespace Cert.ReferenceIdeal.Read2

open Idealize.ShloMosaic Idealize.ShloMosaic.ValueIdx Cert.ReferenceIdeal Cert.ReferenceIdeal.Facts₀ Cert.ReferenceIdeal.Ops

variable [Cert.ReferenceIdeal.Facts]

open Idealize.ShloMosaic.StackMember (dotGeneral_plain_apply)

/-- The rectifier of the weight generator at (m, j) is the leaky rectifier of the entry. -/
theorem leaky32_apply (x : FVec Ideal S30000x32 .f32) (m : Fin 30000) (j : Fin 32) :
    Ops.leaky32 x (ix2 m j) = Cert.KP.leaky (x (ix2 m j)) := by
  unfold Ops.leaky32 Cert.KP.leaky
  simp only [select_apply, cmpf_apply, mulf_apply, broadcastInDim_scalar_apply bcast_S_S30000x32, constant_apply,
    Ideal.cmpf_def, Ideal.ofBits_zero_f32]

/-- The first neighbour's features, cut out and reshaped to [30000, 128], read at (m, i). -/
theorem firstFeat_apply (nf : FVec Ideal S30000x32x128 .f32) (m : Fin 30000) (i : Fin 128) :
    shapeCast S30000x128 (extractStridedSlice S30000x1x128 ![0, 0, 0] nf slices_S30000x32x128_S30000x1x128_0_0_0)
      shapeCasts_S30000x1x128_S30000x128 (ix2 m i) = nf (ix3 m (0 : Fin 32) i) := by
  refine (shapeCast_apply _ _ (ix2 m i) (ix3 m (0 : Fin 1) i) ?_).trans ?_
  · rw [Shape.rowMajor_val_three, Shape.rowMajor_val_two]
    show (m.val * 1 + 0) * 128 + i.val = m.val * 128 + i.val
    omega
  · exact slice3_axis1_apply 0 nf _ m (0 : Fin 1) i (0 : Fin 32) rfl

/-- The hidden layer before its rectifier at (m, j): the first neighbour's features times w1, plus b1. -/
theorem hiddenPre_apply (nf : FVec Ideal S30000x32x128 .f32) (a5 : FVec Ideal S128x32 .f32) (a6 : FVec Ideal S32 .f32)
    (m : Fin 30000) (j : Fin 32) :
    addf
        (Host.dotGeneral dot_S30000x128_S128x32_S30000x32_1_0_0_1_n_n none
          (shapeCast S30000x128 (extractStridedSlice S30000x1x128 ![0, 0, 0] nf slices_S30000x32x128_S30000x1x128_0_0_0)
            shapeCasts_S30000x1x128_S30000x128) a5)
        (broadcastInDim S30000x32 ![0, 1] bcast_S1x32_S30000x32_0_1 (broadcastInDim S1x32 ![1] bcast_S32_S1x32_1 a6))
        (ix2 m j)
      = (∑ i : Fin 128, nf (ix3 m (0 : Fin 32) i) * a5 (ix2 i j)) + a6 (ix1 j) := by
  rw [addf_apply]
  refine congrArg₂ (· + ·) ?_ ?_
  · have hD : dot_S30000x128_S128x32_S30000x32_1_0_0_1_n_n = DotDims.plain 30000 128 32 := rfl
    rw [hD, dotGeneral_plain_apply]
    refine Finset.sum_congr rfl fun i _ => ?_
    rw [firstFeat_apply]
  · refine (broadcastInDim_apply _ _ _ (ix2 m j) (ix2 (0 : Fin 1) j) fun a => ?_).trans ?_
    · match a with
      | ⟨0, _⟩ => rfl
      | ⟨1, _⟩ => rfl
    · refine broadcastInDim_apply _ _ _ (ix2 (0 : Fin 1) j) (ix1 j) fun a => ?_
      match a with
      | ⟨0, _⟩ => rfl

/-- The generated weight at (m, o). -/
theorem weights_apply (nf : FVec Ideal S30000x32x128 .f32) (a5 : FVec Ideal S128x32 .f32) (a6 : FVec Ideal S32 .f32)
    (a7 : FVec Ideal S32x120 .f32) (a8 : FVec Ideal S120 .f32) (m : Fin 30000) (o : Fin 120) :
    Ops.weights nf a5 a6 a7 a8 (ix2 m o)
      = Cert.KP.convw (fun i => nf (ix3 m (0 : Fin 32) i)) (fun i j => a5 (ix2 i j)) (fun j => a6 (ix1 j))
          (fun j o => a7 (ix2 j o)) (fun o => a8 (ix1 o)) o := by
  unfold Ops.weights Cert.KP.convw Cert.KP.hidden
  rw [addf_apply]
  refine congrArg₂ (· + ·) ?_ ?_
  · have hD : dot_S30000x32_S32x120_S30000x120_1_0_0_1_n_n = DotDims.plain 30000 32 120 := rfl
    rw [hD, dotGeneral_plain_apply]
    refine Finset.sum_congr rfl fun j _ => ?_
    rw [leaky32_apply, hiddenPre_apply]
  · refine (broadcastInDim_apply _ _ _ (ix2 m o) (ix2 (0 : Fin 1) o) fun a => ?_).trans ?_
    · match a with
      | ⟨0, _⟩ => rfl
      | ⟨1, _⟩ => rfl
    · refine broadcastInDim_apply _ _ _ (ix2 (0 : Fin 1) o) (ix1 o) fun a => ?_
      match a with
      | ⟨0, _⟩ => rfl

end Cert.ReferenceIdeal.Read2

end
-- ==== Proof.RefReadPre.lean ====
/-
  The pre-normalisation array of the reference read at one entry. The weighted feature of kernel point k in channel
  c is the sum over the 32 neighbours of influence times feature (a batched product over the query points). The array
  is the sum over the 15 kernel points of weighted feature times generated weight, the weight of channel c being that
  of its group c / 16: the [30000, 15, 128] weighted features are viewed as [30000, 15, 8, 16], the [30000, 120]
  weights as [30000, 15, 8] repeated along the last axis, and the sum over the kernel points viewed as [30000, 128].
-/
import proofs.«106741_j66271345377641_1_alg».proof.Proof.RefOps
import proofs.«106741_j66271345377641_1_alg».proof.Proof.Spec
import Idealize.ShloMosaic.Lib.ValueIdx
import Idealize.ShloMosaic.Lib.IdealHost
import Idealize.ShloMosaic.Lib.ValueLayout
import Idealize.ShloMosaic.Lib.StackMember
import proofs.«106741_j66271345377641_1_alg».proof.Proof.RefReadInfl
import proofs.«106741_j66271345377641_1_alg».proof.Proof.RefReadWeights

noncomputable section

namespace Cert.ReferenceIdeal.Read2

open Idealize.ShloMosaic Idealize.ShloMosaic.ValueIdx Cert.ReferenceIdeal Cert.ReferenceIdeal.Facts₀ Cert.ReferenceIdeal.Ops

variable [Cert.ReferenceIdeal.Facts]

open Idealize.ShloMosaic.StackMember (dotGeneral_stack_apply)

/-- The weighted feature of kernel point k in channel c at query point m. -/
theorem weighted_apply (a0 : FVec Ideal S30000x3 .f32) (np : FVec Ideal S30000x32x3 .f32)
    (nf : FVec Ideal S30000x32x128 .f32) (a4 : FVec Ideal S15x3 .f32) (m : Fin 30000) (k : Fin 15) (c : Fin 128) :
    Ops.weighted a0 np nf a4 (ix3 m k c)
      = Cert.KP.wfeat (fun d => a0 (ix2 m d)) (fun h d => np (ix3 m h d)) (fun h c' => nf (ix3 m h c'))
          (fun k d => a4 (ix2 k d)) k c := by
  unfold Ops.weighted Cert.KP.wfeat
  have hD : dot_S30000x15x32_S30000x32x128_S30000x15x128_2_1_1_2_0_0
      = (⟨[2], [1], [1], [2], [0], [0], dot_S30000x15x32_S30000x32x128_S30000x15x128_2_1_1_2_0_0_wf⟩ :
          DotDims ⟨3, ![30000, 15, 32]⟩ ⟨3, ![30000, 32, 128]⟩ ⟨3, ![30000, 15, 128]⟩) := rfl
  rw [hD, dotGeneral_stack_apply]
  refine Finset.sum_congr rfl fun n _ => ?_
  rw [influence_apply]

/-- One term of the sum over the kernel points: at (m, k, g, e), with c = 16 g + e, the weighted feature of k in
    channel c times the weight of k and group g. -/
theorem preTerm_apply (a0 : FVec Ideal S30000x3 .f32) (np : FVec Ideal S30000x32x3 .f32)
    (nf : FVec Ideal S30000x32x128 .f32) (a4 : FVec Ideal S15x3 .f32) (a5 : FVec Ideal S128x32 .f32)
    (a6 : FVec Ideal S32 .f32) (a7 : FVec Ideal S32x120 .f32) (a8 : FVec Ideal S120 .f32)
    (m : Fin 30000) (k : Fin 15) (g : Fin 8) (e : Fin 16) (c : Fin 128) (o : Fin 120)
    (hc : c.val = 16 * g.val + e.val) (ho : o.val = 8 * k.val + g.val) :
    mulf (shapeCast S30000x15x8x16 (weighted a0 np nf a4) shapeCasts_S30000x15x128_S30000x15x8x16)
        (broadcastInDim S30000x15x8x16 ![0, 1, 2, 3] bcast_S30000x15x8x1_S30000x15x8x16_0_1_2_3
          (broadcastInDim S30000x15x8x1 ![0, 1, 2] bcast_S30000x15x8_S30000x15x8x1_0_1_2
            (shapeCast S30000x15x8 (weights nf a5 a6 a7 a8) shapeCasts_S30000x120_S30000x15x8)))
        (ix4 m k g e)
      = weighted a0 np nf a4 (ix3 m k c) * weights nf a5 a6 a7 a8 (ix2 m o) := by
  rw [mulf_apply]
  refine congrArg₂ (· * ·) ?_ ?_
  · refine shapeCast_apply _ _ (ix4 m k g e) (ix3 m k c) ?_
    rw [Shape.rowMajor_val_three, Shape.rowMajor_val_four]
    show (m.val * 15 + k.val) * 128 + c.val = ((m.val * 15 + k.val) * 8 + g.val) * 16 + e.val
    omega
  · refine (broadcastInDim_apply _ _ _ (ix4 m k g e) (ix4 m k g (0 : Fin 1)) fun a => ?_).trans ?_
    · match a with
      | ⟨0, _⟩ => rfl
      | ⟨1, _⟩ => rfl
      | ⟨2, _⟩ => rfl
      | ⟨3, _⟩ => rfl
    · refine (broadcastInDim_apply _ _ _ (ix4 m k g (0 : Fin 1)) (ix3 m k g) fun a => ?_).trans ?_
      · match a with
        | ⟨0, _⟩ => rfl
        | ⟨1, _⟩ => rfl
        | ⟨2, _⟩ => rfl
      · refine shapeCast_apply _ _ (ix3 m k g) (ix2 m o) ?_
        rw [Shape.rowMajor_val_two, Shape.rowMajor_val_three]
        show m.val * 120 + o.val = (m.val * 15 + k.val) * 8 + g.val
        omega

/-- The pre-normalisation entry at (m, c). -/
theorem pre_apply (a0 : FVec Ideal S30000x3 .f32) (np : FVec Ideal S30000x32x3 .f32) (nf : FVec Ideal S30000x32x128 .f32)
    (a4 : FVec Ideal S15x3 .f32) (a5 : FVec Ideal S128x32 .f32) (a6 : FVec Ideal S32 .f32) (a7 : FVec Ideal S32x120 .f32)
    (a8 : FVec Ideal S120 .f32) (m : Fin 30000) (c : Fin 128) :
    Ops.pre a0 np nf a4 a5 a6 a7 a8 (ix2 m c)
      = Cert.KP.refPre (fun d => a0 (ix2 m d)) (fun h d => np (ix3 m h d)) (fun h c' => nf (ix3 m h c'))
          (fun k d => a4 (ix2 k d)) (fun i j => a5 (ix2 i j)) (fun j => a6 (ix1 j)) (fun j o => a7 (ix2 j o))
          (fun o => a8 (ix1 o)) c := by
  unfold Ops.pre Cert.KP.refPre
  have hR : S30000x15x8x16.Reduces [1] S30000x8x16 :=
    ⟨reducesTo_S30000x15x8x16_S30000x8x16_d1.1, by decide, reducesTo_S30000x15x8x16_S30000x8x16_d1.2⟩
  have hg : c.val / 16 < 8 := by have := c.isLt; omega
  have he : c.val % 16 < 16 := by omega
  refine (shapeCast_apply _ _ (ix2 m c) (ix3 m (⟨c.val / 16, hg⟩ : Fin 8) (⟨c.val % 16, he⟩ : Fin 16)) ?_).trans ?_
  · rw [Shape.rowMajor_val_three, Shape.rowMajor_val_two]
    show (m.val * 8 + c.val / 16) * 16 + c.val % 16 = m.val * 128 + c.val
    omega
  · rw [hostReduceAdd_apply, Ideal.hostReduceAdd_single _ hR, constant_apply, Ideal.ofBits_zero_f32, zero_add]
    refine Finset.sum_congr rfl fun (k : Fin 15) _ => ?_
    have e : hR.lift (ix3 m (⟨c.val / 16, hg⟩ : Fin 8) (⟨c.val % 16, he⟩ : Fin 16)) k
        = ix4 m k (⟨c.val / 16, hg⟩ : Fin 8) (⟨c.val % 16, he⟩ : Fin 16) := by
      funext a; apply Fin.ext
      match a with
      | ⟨0, _⟩ => rfl
      | ⟨1, _⟩ => rfl
      | ⟨2, _⟩ => rfl
      | ⟨3, _⟩ => rfl
    rw [e, preTerm_apply a0 np nf a4 a5 a6 a7 a8 m k ⟨c.val / 16, hg⟩ ⟨c.val % 16, he⟩ c
      ⟨8 * k.val + c.val / 16, by omega⟩ (by show c.val = 16 * (c.val / 16) + c.val % 16; omega) rfl,
      weighted_apply, weights_apply]

end Cert.ReferenceIdeal.Read2

end
-- ==== Proof.RefReadNorm.lean ====
/-
  The normalisation of the reference read at one entry: at row m and channel c it is the centred entry scaled by the
  inverse root of the channel's variance plus a small constant and by the channel's gain, shifted by the channel's
  offset, and passed through the leaky rectifier. A [128] vector repeated down the rows reads its entry at c.
-/
import proofs.«106741_j66271345377641_1_alg».proof.Proof.RefOps
import proofs.«106741_j66271345377641_1_alg».proof.Proof.Spec
import Idealize.ShloMosaic.Lib.ValueIdx
import Idealize.ShloMosaic.Lib.IdealHost
import Idealize.ShloMosaic.Lib.Pipeline.Value

noncomputable section

namespace Cert.ReferenceIdeal.Read2

open Idealize.ShloMosaic Idealize.ShloMosaic.ValueIdx Cert.ReferenceIdeal Cert.ReferenceIdeal.Facts₀ Cert.ReferenceIdeal.Ops

variable [Cert.ReferenceIdeal.Facts]

/-- A [128] vector repeated down the 30000 rows reads, at (m, c), its entry c. -/
theorem rows_apply (v : FVec Ideal S128 .f32) (m : Fin 30000) (c : Fin 128) :
    Ops.rows v (ix2 m c) = v (ix1 c) := by
  unfold Ops.rows
  refine (broadcastInDim_apply _ _ _ (ix2 m c) (ix2 (0 : Fin 1) c) fun a => ?_).trans ?_
  · match a with
    | ⟨0, _⟩ => rfl
    | ⟨1, _⟩ => rfl
  · refine broadcastInDim_apply _ _ _ (ix2 (0 : Fin 1) c) (ix1 c) fun a => ?_
    match a with
    | ⟨0, _⟩ => rfl

/-- The host's inverse root at an index is the ideal inverse root of the entry. -/
theorem hostRsqrt_apply {s : Shape} {φ : FTy} (x : FVec Ideal s φ) (i : s.Idx) :
    Host.rsqrt x i = Ideal.rsqrt (x i) := rfl

/-- The normalised entry at (m, c). -/
theorem norm_apply (x : FVec Ideal S30000x128 .f32) (mu v a9 a10 : FVec Ideal S128 .f32) (m : Fin 30000) (c : Fin 128) :
    Ops.norm x mu v a9 a10 (ix2 m c)
      = Cert.KP.normPt (x (ix2 m c)) (mu (ix1 c)) (v (ix1 c)) (a9 (ix1 c)) (a10 (ix1 c)) := by
  unfold Ops.norm Cert.KP.normPt Cert.KP.leaky
  simp only [select_apply, cmpf_apply, mulf_apply, addf_apply, subf_apply, rows_apply, hostRsqrt_apply,
    broadcastInDim_scalar_apply bcast_S_S128, broadcastInDim_scalar_apply bcast_S_S30000x128,
    constant_apply, Ideal.cmpf_def, Ideal.ofBits_zero_f32]

end Cert.ReferenceIdeal.Read2

end
-- ==== Proof.Bridge.lean ====
/-
  The kernel program's result function is the reference's.

  Entry (i, c) of the kernel's pre-normalisation array is the row formula with the literal group matrix, entry
  (i, c) of the reference's is the row formula with the group index, and the literal matrix is the membership
  matrix, so the two arrays are equal. Their column means and variances are then the same operations of the same
  array. Entry (i, c) of either normalised array is the same function of the pre-normalisation entry, the mean,
  the variance and the affine vectors at `c`. So the two results are equal as arrays.
-/
import proofs.«106741_j66271345377641_1_alg».proof.Proof.KValue
import proofs.«106741_j66271345377641_1_alg».proof.Proof.Rlit
import proofs.«106741_j66271345377641_1_alg».proof.Proof.Algebra
import proofs.«106741_j66271345377641_1_alg».proof.Proof.RefReadPre
import proofs.«106741_j66271345377641_1_alg».proof.Proof.RefReadNorm

noncomputable section

namespace Cert.Bridge

open Idealize.ShloMosaic Idealize.ShloMosaic.ValueIdx
open Cert.KernelIdeal.KVal Cert.KernelIdeal.KValue

variable [Cert.ReferenceIdeal.Facts]

/-- The two pre-normalisation arrays are one array. -/
theorem pre_eq (a0 : FVec Ideal Cert.ReferenceIdeal.S30000x3 .f32) (np : FVec Ideal Cert.ReferenceIdeal.S30000x32x3 .f32)
    (nf : FVec Ideal Cert.ReferenceIdeal.S30000x32x128 .f32) (a4 : FVec Ideal Cert.ReferenceIdeal.S15x3 .f32) (a5 : FVec Ideal Cert.ReferenceIdeal.S128x32 .f32)
    (a6 : FVec Ideal Cert.ReferenceIdeal.S32 .f32) (a7 : FVec Ideal Cert.ReferenceIdeal.S32x120 .f32) (a8 : FVec Ideal Cert.ReferenceIdeal.S120 .f32) :
    G0 a0 np nf a4 a5 a6 a7 a8 Rmat = Cert.ReferenceIdeal.Ops.pre a0 np nf a4 a5 a6 a7 a8 := by
  funext i
  obtain ⟨mm, cc, rfl⟩ : ∃ (mm : Fin 30000) (cc : Fin 128), i = ix2 mm cc := ⟨i 0, i 1, eq_ix2 i⟩
  refine Eq.trans ?_ (Cert.ReferenceIdeal.Read2.pre_apply a0 np nf a4 a5 a6 a7 a8 mm cc).symm
  exact Cert.KP.kerPre_eq_refPre (fun d => a0 (ix2 mm d)) (fun h d => np (ix3 mm h d)) (fun h c' => nf (ix3 mm h c'))
    (fun k d => a4 (ix2 k d)) (fun i j => a5 (ix2 i j)) (fun j => a6 (ix1 j)) (fun j o => a7 (ix2 j o))
    (fun o => a8 (ix1 o)) (fun g c' => Rmat (ix2 g c')) (fun g c' => Cert.KernelIdeal.Rlit.apply g c') cc

/-- The two normalisations are one function of the five arrays. -/
theorem norm_eq (x : FVec Ideal Cert.ReferenceIdeal.S30000x128 .f32) (mu v a9 a10 : FVec Ideal Cert.ReferenceIdeal.S128 .f32) :
    G1 x mu v a9 a10 = Cert.ReferenceIdeal.Ops.norm x mu v a9 a10 := by
  funext i
  obtain ⟨mm, cc, rfl⟩ : ∃ (mm : Fin 30000) (cc : Fin 128), i = ix2 mm cc := ⟨i 0, i 1, eq_ix2 i⟩
  exact (Cert.ReferenceIdeal.Read2.norm_apply x mu v a9 a10 mm cc).symm

/-- The kernel program's result function is the reference's. -/
theorem out_eq (a0 a1 : FVec Ideal Cert.ReferenceIdeal.S30000x3 .f32) (a2 : FVec Ideal Cert.ReferenceIdeal.S30000x128 .f32)
    (a3 : IVec Cert.ReferenceIdeal.S30000x32 32) (a4 : FVec Ideal Cert.ReferenceIdeal.S15x3 .f32) (a5 : FVec Ideal Cert.ReferenceIdeal.S128x32 .f32)
    (a6 : FVec Ideal Cert.ReferenceIdeal.S32 .f32) (a7 : FVec Ideal Cert.ReferenceIdeal.S32x120 .f32) (a8 : FVec Ideal Cert.ReferenceIdeal.S120 .f32)
    (a9 a10 : FVec Ideal Cert.ReferenceIdeal.S128 .f32) :
    G1 (G0 a0 (Cert.ReferenceIdeal.Ops.npts a1 a3) (Cert.ReferenceIdeal.Ops.nfeat a2 a3) a4 a5 a6 a7 a8 Rmat)
        (Cert.ReferenceIdeal.Ops.mean (G0 a0 (Cert.ReferenceIdeal.Ops.npts a1 a3) (Cert.ReferenceIdeal.Ops.nfeat a2 a3) a4 a5 a6 a7 a8 Rmat))
        (Cert.ReferenceIdeal.Ops.var (G0 a0 (Cert.ReferenceIdeal.Ops.npts a1 a3) (Cert.ReferenceIdeal.Ops.nfeat a2 a3) a4 a5 a6 a7 a8 Rmat)) a9 a10
      = Cert.ReferenceIdeal.Ops.out a0 a1 a2 a3 a4 a5 a6 a7 a8 a9 a10 := by
  rw [pre_eq, norm_eq]
  rfl

end Cert.Bridge

end
-- ==== Proof.RefRunOps.lean ====
/-
  The reference program's operations as a list. Its body is a straight line of host operations; the four
  functions it calls (a clamp from below, two leaky rectifiers, a column variance) are written out at their call
  sites over the buffers each call names. The list is cut into four stretches: the two gathers of neighbour
  positions and features; the influences, weighted features, generated weights and their sum over kernel points;
  the column mean and variance; the normalisation and its rectifier. The program is the sequence of the four
  stretches, every operation touches device buffers only and determines its result, and so every run ends with
  each buffer at the fold of the operations over the launch contents.
-/
import proofs.«106741_j66271345377641_1_alg».proof.Proof.Gen.ReferenceIdeal
import Idealize.ShloMosaic.Lib.StableHlo.Run
import Idealize.ShloMosaic.Lib.Pipeline.Regions

noncomputable section

namespace Cert.ReferenceIdeal.RefRun

open Idealize.ShloMosaic Idealize.ShloMosaic.TcCoe Idealize.SL.Sem Cert.ReferenceIdeal Cert.ReferenceIdeal.Facts₀

variable [Cert.ReferenceIdeal.Facts]

variable {F : FTy → Type} [FloatOps F]

/-- The gathers: source arrays padded by a shadow row, negative indices wrapped, one row picked per neighbour. -/
abbrev opsA : List (HloOp τ sig (Elt F)) :=
  [ StableHlo.nullary main_cst (constant S_ .f32 0x49742400#32),
    StableHlo.unary main_cst main_v0 (broadcastInDim S1x3 ![] bcast_S_S1x3 : (⟨S_, .f32⟩ : BufTy).Contents (Elt F) → (⟨S1x3, .f32⟩ : BufTy).Contents (Elt F)),
    StableHlo.binary main_arg1 main_v0 main_v1 ((fun a b => concatenate S30001x3 0 [⟨S30000x3, a⟩, ⟨S1x3, b⟩] concatenates_S30000x3_S1x3_S30001x3_d0) : (⟨S30000x3, .f32⟩ : BufTy).Contents (Elt F) → (⟨S1x3, .f32⟩ : BufTy).Contents (Elt F) → (⟨S30001x3, .f32⟩ : BufTy).Contents (Elt F)),
    StableHlo.nullary main_cst_0 (constant S_ .f32 0x00000000#32),
    StableHlo.unary main_cst_0 main_v2 (broadcastInDim S1x128 ![] bcast_S_S1x128 : (⟨S_, .f32⟩ : BufTy).Contents (Elt F) → (⟨S1x128, .f32⟩ : BufTy).Contents (Elt F)),
    StableHlo.binary main_arg2 main_v2 main_v3 ((fun a b => concatenate S30001x128 0 [⟨S30000x128, a⟩, ⟨S1x128, b⟩] concatenates_S30000x128_S1x128_S30001x128_d0) : (⟨S30000x128, .f32⟩ : BufTy).Contents (Elt F) → (⟨S1x128, .f32⟩ : BufTy).Contents (Elt F) → (⟨S30001x128, .f32⟩ : BufTy).Contents (Elt F)),
    StableHlo.nullary main_c (constantI S_ 32 0#32),
    StableHlo.unary main_c main_v4 (broadcastInDim S30000x32 ![] bcast_S_S30000x32 : (⟨S_, .i32⟩ : BufTy).Contents (Elt F) → (⟨S30000x32, .i32⟩ : BufTy).Contents (Elt F)),
    StableHlo.binary main_arg3 main_v4 main_v5 (cmpi .slt : (⟨S30000x32, .i32⟩ : BufTy).Contents (Elt F) → (⟨S30000x32, .i32⟩ : BufTy).Contents (Elt F) → (⟨S30000x32, .i1⟩ : BufTy).Contents (Elt F)),
    StableHlo.nullary main_c_1 (constantI S_ 32 30001#32),
    StableHlo.unary main_c_1 main_v6 (broadcastInDim S30000x32 ![] bcast_S_S30000x32 : (⟨S_, .i32⟩ : BufTy).Contents (Elt F) → (⟨S30000x32, .i32⟩ : BufTy).Contents (Elt F)),
    StableHlo.binary main_arg3 main_v6 main_v7 (addi : (⟨S30000x32, .i32⟩ : BufTy).Contents (Elt F) → (⟨S30000x32, .i32⟩ : BufTy).Contents (Elt F) → (⟨S30000x32, .i32⟩ : BufTy).Contents (Elt F)),
    StableHlo.ternary main_v5 main_v7 main_arg3 main_v8 (select : (⟨S30000x32, .i1⟩ : BufTy).Contents (Elt F) → (⟨S30000x32, .i32⟩ : BufTy).Contents (Elt F) → (⟨S30000x32, .i32⟩ : BufTy).Contents (Elt F) → (⟨S30000x32, .i32⟩ : BufTy).Contents (Elt F)),
    StableHlo.unary main_v8 main_v9 (broadcastInDim S30000x32x1 ![0, 1] bcast_S30000x32_S30000x32x1_0_1 : (⟨S30000x32, .i32⟩ : BufTy).Contents (Elt F) → (⟨S30000x32x1, .i32⟩ : BufTy).Contents (Elt F)),
    StableHlo.binary main_v1 main_v9 main_v10 ((fun x i => Host.gather gather_S30001x3_S30000x32x1_S30000x32x3_2_0_n_n_0_2_13 x i) : (⟨S30001x3, .f32⟩ : BufTy).Contents (Elt F) → (⟨S30000x32x1, .i32⟩ : BufTy).Contents (Elt F) → (⟨S30000x32x3, .f32⟩ : BufTy).Contents (Elt F)),
    StableHlo.nullary main_c_2 (constantI S_ 32 0#32),
    StableHlo.unary main_c_2 main_v11 (broadcastInDim S30000x32 ![] bcast_S_S30000x32 : (⟨S_, .i32⟩ : BufTy).Contents (Elt F) → (⟨S30000x32, .i32⟩ : BufTy).Contents (Elt F)),
    StableHlo.binary main_arg3 main_v11 main_v12 (cmpi .slt : (⟨S30000x32, .i32⟩ : BufTy).Contents (Elt F) → (⟨S30000x32, .i32⟩ : BufTy).Contents (Elt F) → (⟨S30000x32, .i1⟩ : BufTy).Contents (Elt F)),
    StableHlo.nullary main_c_3 (constantI S_ 32 30001#32),
    StableHlo.unary main_c_3 main_v13 (broadcastInDim S30000x32 ![] bcast_S_S30000x32 : (⟨S_, .i32⟩ : BufTy).Contents (Elt F) → (⟨S30000x32, .i32⟩ : BufTy).Contents (Elt F)),
    StableHlo.binary main_arg3 main_v13 main_v14 (addi : (⟨S30000x32, .i32⟩ : BufTy).Contents (Elt F) → (⟨S30000x32, .i32⟩ : BufTy).Contents (Elt F) → (⟨S30000x32, .i32⟩ : BufTy).Contents (Elt F)),
    StableHlo.ternary main_v12 main_v14 main_arg3 main_v15 (select : (⟨S30000x32, .i1⟩ : BufTy).Contents (Elt F) → (⟨S30000x32, .i32⟩ : BufTy).Contents (Elt F) → (⟨S30000x32, .i32⟩ : BufTy).Contents (Elt F) → (⟨S30000x32, .i32⟩ : BufTy).Contents (Elt F)),
    StableHlo.unary main_v15 main_v16 (broadcastInDim S30000x32x1 ![0, 1] bcast_S30000x32_S30000x32x1_0_1 : (⟨S30000x32, .i32⟩ : BufTy).Contents (Elt F) → (⟨S30000x32x1, .i32⟩ : BufTy).Contents (Elt F)),
    StableHlo.binary main_v3 main_v16 main_v17 ((fun x i => Host.gather gather_S30001x128_S30000x32x1_S30000x32x128_2_0_n_n_0_2_1128 x i) : (⟨S30001x128, .f32⟩ : BufTy).Contents (Elt F) → (⟨S30000x32x1, .i32⟩ : BufTy).Contents (Elt F) → (⟨S30000x32x128, .f32⟩ : BufTy).Contents (Elt F)) ]

theorem opsA_sub : (opsA : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.ternary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.binary_bufs_sub .., StableHlo.ternary_bufs_sub .., StableHlo.unary_bufs_sub .., StableHlo.binary_bufs_sub ..⟩

theorem opsA_fresh : ∀ op ∈ (opsA : List (HloOp τ sig (Elt F))), op.fresh = ∅ := by
  intro _ h; (repeat (cases h with | head => rfl | tail _ h => ?_)); exact nomatch h

/-- Influences, weighted features, generated weights, and the sum over kernel points. -/
abbrev opsB : List (HloOp τ sig (Elt F)) :=
  [ StableHlo.unary main_arg0 main_v18 (broadcastInDim S30000x1x3 ![0, 2] bcast_S30000x3_S30000x1x3_0_2 : (⟨S30000x3, .f32⟩ : BufTy).Contents (Elt F) → (⟨S30000x1x3, .f32⟩ : BufTy).Contents (Elt F)),
    StableHlo.unary main_v18 main_v19 (broadcastInDim S30000x32x3 ![0, 1, 2] bcast_S30000x1x3_S30000x32x3_0_1_2 : (⟨S30000x1x3, .f32⟩ : BufTy).Contents (Elt F) → (⟨S30000x32x3, .f32⟩ : BufTy).Contents (Elt F)),
    StableHlo.binary main_v10 main_v19 main_v20 (subf : (⟨S30000x32x3, .f32⟩ : BufTy).Contents (Elt F) → (⟨S30000x32x3, .f32⟩ : BufTy).Contents (Elt F) → (⟨S30000x32x3, .f32⟩ : BufTy).Contents (Elt F)),
    StableHlo.unary main_v20 main_v21 (broadcastInDim S30000x32x1x3 ![0, 1, 3] bcast_S30000x32x3_S30000x32x1x3_0_1_3 : (⟨S30000x32x3, .f32⟩ : BufTy).Contents (Elt F) → (⟨S30000x32x1x3, .f32⟩ : BufTy).Contents (Elt F)),
    StableHlo.unary main_arg4 main_v22 (broadcastInDim S1x1x15x3 ![2, 3] bcast_S15x3_S1x1x15x3_2_3 : (⟨S15x3, .f32⟩ : BufTy).Contents (Elt F) → (⟨S1x1x15x3, .f32⟩ : BufTy).Contents (Elt F)),
    StableHlo.unary main_v21 main_v23 (broadcastInDim S30000x32x15x3 ![0, 1, 2, 3] bcast_S30000x32x1x3_S30000x32x15x3_0_1_2_3 : (⟨S30000x32x1x3, .f32⟩ : BufTy).Contents (Elt F) → (⟨S30000x32x15x3, .f32⟩ : BufTy).Contents (Elt F)),
    StableHlo.unary main_v22 main_v24 (broadcastInDim S30000x32x15x3 ![0, 1, 2, 3] bcast_S1x1x15x3_S30000x32x15x3_0_1_2_3 : (⟨S1x1x15x3, .f32⟩ : BufTy).Contents (Elt F) → (⟨S30000x32x15x3, .f32⟩ : BufTy).Contents (Elt F)),
    StableHlo.binary main_v23 main_v24 main_v25 (subf : (⟨S30000x32x15x3, .f32⟩ : BufTy).Contents (Elt F) → (⟨S30000x32x15x3, .f32⟩ : BufTy).Contents (Elt F) → (⟨S30000x32x15x3, .f32⟩ : BufTy).Contents (Elt F)),
    StableHlo.binary main_v25 main_v25 main_v26 (mulf : (⟨S30000x32x15x3, .f32⟩ : BufTy).Contents (Elt F) → (⟨S30000x32x15x3, .f32⟩ : BufTy).Contents (Elt F) → (⟨S30000x32x15x3, .f32⟩ : BufTy).Contents (Elt F)),
    StableHlo.nullary main_cst_4 (constant S_ .f32 0x00000000#32),
    StableHlo.binary main_v26 main_cst_4 main_v27 ((fun x v => Host.reduceAdd x v reducesTo_S30000x32x15x3_S30000x32x15_d3 h_S_) : (⟨S30000x32x15x3, .f32⟩ : BufTy).Contents (Elt F) → (⟨S_, .f32⟩ : BufTy).Contents (Elt F) → (⟨S30000x32x15, .f32⟩ : BufTy).Contents (Elt F)),
    StableHlo.unary main_v27 main_v28 (Host.sqrt : (⟨S30000x32x15, .f32⟩ : BufTy).Contents (Elt F) → (⟨S30000x32x15, .f32⟩ : BufTy).Contents (Elt F)),
    StableHlo.nullary main_cst_5 (constant S_ .f32 0x40000000#32),
    StableHlo.unary main_cst_5 main_v29 (broadcastInDim S30000x32x15 ![] bcast_S_S30000x32x15 : (⟨S_, .f32⟩ : BufTy).Contents (Elt F) → (⟨S30000x32x15, .f32⟩ : BufTy).Contents (Elt F)),
    StableHlo.binary main_v28 main_v29 main_v30 (Host.divf : (⟨S30000x32x15, .f32⟩ : BufTy).Contents (Elt F) → (⟨S30000x32x15, .f32⟩ : BufTy).Contents (Elt F) → (⟨S30000x32x15, .f32⟩ : BufTy).Contents (Elt F)),
    StableHlo.nullary main_cst_6 (constant S_ .f32 0x3F800000#32),
    StableHlo.unary main_cst_6 main_v31 (broadcastInDim S30000x32x15 ![] bcast_S_S30000x32x15 : (⟨S_, .f32⟩ : BufTy).Contents (Elt F) → (⟨S30000x32x15, .f32⟩ : BufTy).Contents (Elt F)),
    StableHlo.binary main_v31 main_v30 main_v32 (subf : (⟨S30000x32x15, .f32⟩ : BufTy).Contents (Elt F) → (⟨S30000x32x15, .f32⟩ : BufTy).Contents (Elt F) → (⟨S30000x32x15, .f32⟩ : BufTy).Contents (Elt F)),
    StableHlo.nullary main_cst_7 (constant S_ .f32 0x00000000#32),
    StableHlo.TRef.unary (.of main_cst_7 : StableHlo.TRef sig ⟨S_, .f32⟩) main_call0.v0 id,
    StableHlo.TRef.unary main_call0.v0 main_call0.v1 (broadcastInDim S30000x32x15 ![] bcast_S_S30000x32x15),
    StableHlo.TRef.binary main_call0.v1 (.of main_v32 : StableHlo.TRef sig ⟨S30000x32x15, .f32⟩) main_call0.v2 maximumf,
    StableHlo.unary main_v33 main_v34 ((transpose S30000x15x32 [0, 2, 1] · transposes_S30000x32x15_S30000x15x32_0_2_1) : (⟨S30000x32x15, .f32⟩ : BufTy).Contents (Elt F) → (⟨S30000x15x32, .f32⟩ : BufTy).Contents (Elt F)),
    StableHlo.binary main_v34 main_v17 main_v35 ((fun l r => Host.dotGeneral dot_S30000x15x32_S30000x32x128_S30000x15x128_2_1_1_2_0_0 none l r) : (⟨S30000x15x32, .f32⟩ : BufTy).Contents (Elt F) → (⟨S30000x32x128, .f32⟩ : BufTy).Contents (Elt F) → (⟨S30000x15x128, .f32⟩ : BufTy).Contents (Elt F)),
    StableHlo.unary main_v17 main_v36 ((extractStridedSlice S30000x1x128 ![0, 0, 0] · slices_S30000x32x128_S30000x1x128_0_0_0) : (⟨S30000x32x128, .f32⟩ : BufTy).Contents (Elt F) → (⟨S30000x1x128, .f32⟩ : BufTy).Contents (Elt F)),
    StableHlo.reshape main_v36 main_v37 rfl shapeCasts_S30000x1x128_S30000x128,
    StableHlo.binary main_v37 main_arg5 main_v38 ((fun l r => Host.dotGeneral dot_S30000x128_S128x32_S30000x32_1_0_0_1_n_n none l r) : (⟨S30000x128, .f32⟩ : BufTy).Contents (Elt F) → (⟨S128x32, .f32⟩ : BufTy).Contents (Elt F) → (⟨S30000x32, .f32⟩ : BufTy).Contents (Elt F)),
    StableHlo.unary main_arg6 main_v39 (broadcastInDim S1x32 ![1] bcast_S32_S1x32_1 : (⟨S32, .f32⟩ : BufTy).Contents (Elt F) → (⟨S1x32, .f32⟩ : BufTy).Contents (Elt F)),
    StableHlo.unary main_v39 main_v40 (broadcastInDim S30000x32 ![0, 1] bcast_S1x32_S30000x32_0_1 : (⟨S1x32, .f32⟩ : BufTy).Contents (Elt F) → (⟨S30000x32, .f32⟩ : BufTy).Contents (Elt F)),
    StableHlo.binary main_v38 main_v40 main_v41 (addf : (⟨S30000x32, .f32⟩ : BufTy).Contents (Elt F) → (⟨S30000x32, .f32⟩ : BufTy).Contents (Elt F) → (⟨S30000x32, .f32⟩ : BufTy).Contents (Elt F)),
    StableHlo.nullary main_cst_8 (constant S_ .f32 0x3DCCCCCD#32),
    StableHlo.TRef.nullary main_call1.cst (constant S_ .f32 0x00000000#32),
    StableHlo.TRef.unary main_call1.cst main_call1.v0 (broadcastInDim S30000x32 ![] bcast_S_S30000x32),
    StableHlo.TRef.binary (.of main_v41 : StableHlo.TRef sig ⟨S30000x32, .f32⟩) main_call1.v0 main_call1.v1 (cmpf .oge),
    StableHlo.TRef.unary (.of main_cst_8 : StableHlo.TRef sig ⟨S_, .f32⟩) main_call1.v2 id,
    StableHlo.TRef.unary main_call1.v2 main_call1.v3 (broadcastInDim S30000x32 ![] bcast_S_S30000x32),
    StableHlo.TRef.binary main_call1.v3 (.of main_v41 : StableHlo.TRef sig ⟨S30000x32, .f32⟩) main_call1.v4 mulf,
    StableHlo.TRef.ternary main_call1.v1 (.of main_v41 : StableHlo.TRef sig ⟨S30000x32, .f32⟩) main_call1.v4 main_call1.call0.v0 select,
    StableHlo.binary main_v42 main_arg7 main_v43 ((fun l r => Host.dotGeneral dot_S30000x32_S32x120_S30000x120_1_0_0_1_n_n none l r) : (⟨S30000x32, .f32⟩ : BufTy).Contents (Elt F) → (⟨S32x120, .f32⟩ : BufTy).Contents (Elt F) → (⟨S30000x120, .f32⟩ : BufTy).Contents (Elt F)),
    StableHlo.unary main_arg8 main_v44 (broadcastInDim S1x120 ![1] bcast_S120_S1x120_1 : (⟨S120, .f32⟩ : BufTy).Contents (Elt F) → (⟨S1x120, .f32⟩ : BufTy).Contents (Elt F)),
    StableHlo.unary main_v44 main_v45 (broadcastInDim S30000x120 ![0, 1] bcast_S1x120_S30000x120_0_1 : (⟨S1x120, .f32⟩ : BufTy).Contents (Elt F) → (⟨S30000x120, .f32⟩ : BufTy).Contents (Elt F)),
    StableHlo.binary main_v43 main_v45 main_v46 (addf : (⟨S30000x120, .f32⟩ : BufTy).Contents (Elt F) → (⟨S30000x120, .f32⟩ : BufTy).Contents (Elt F) → (⟨S30000x120, .f32⟩ : BufTy).Contents (Elt F)),
    StableHlo.reshape main_v46 main_v47 rfl shapeCasts_S30000x120_S30000x15x8,
    StableHlo.reshape main_v35 main_v48 rfl shapeCasts_S30000x15x128_S30000x15x8x16,
    StableHlo.unary main_v47 main_v49 (broadcastInDim S30000x15x8x1 ![0, 1, 2] bcast_S30000x15x8_S30000x15x8x1_0_1_2 : (⟨S30000x15x8, .f32⟩ : BufTy).Contents (Elt F) → (⟨S30000x15x8x1, .f32⟩ : BufTy).Contents (Elt F)),
    StableHlo.unary main_v49 main_v50 (broadcastInDim S30000x15x8x16 ![0, 1, 2, 3] bcast_S30000x15x8x1_S30000x15x8x16_0_1_2_3 : (⟨S30000x15x8x1, .f32⟩ : BufTy).Contents (Elt F) → (⟨S30000x15x8x16, .f32⟩ : BufTy).Contents (Elt F)),
    StableHlo.binary main_v48 main_v50 main_v51 (mulf : (⟨S30000x15x8x16, .f32⟩ : BufTy).Contents (Elt F) → (⟨S30000x15x8x16, .f32⟩ : BufTy).Contents (Elt F) → (⟨S30000x15x8x16, .f32⟩ : BufTy).Contents (Elt F)),
    StableHlo.nullary main_cst_9 (constant S_ .f32 0x00000000#32),
    StableHlo.binary main_v51 main_cst_9 main_v52 ((fun x v => Host.reduceAdd x v reducesTo_S30000x15x8x16_S30000x8x16_d1 h_S_) : (⟨S30000x15x8x16, .f32⟩ : BufTy).Contents (Elt F) → (⟨S_, .f32⟩ : BufTy).Contents (Elt F) → (⟨S30000x8x16, .f32⟩ : BufTy).Contents (Elt F)),
    StableHlo.reshape main_v52 main_v53 rfl shapeCasts_S30000x8x16_S30000x128 ]

theorem opsB_sub : (opsB : List (HloOp τ sig (Elt F))).Forall fun op => op.bufs ⊆ StableHlo.tcRefs τ sig :=
  ⟨StableHlo.unary_bufs_sub .., StableHlo.unary_bufs_sub .., StableHlo.binary_bufs_sub .., StableHlo.unary_bufs_sub .., StableHlo.unary_bufs_sub .., StableHlo.unary_bufs_sub ..,
    StableHlo.unary_bufs_sub .., StableHlo.binary_bufs_sub .., StableHlo.binary_bufs_sub .., StableHlo.nullary_bufs_sub .., StableHlo.binary_bufs_sub .., StableHlo.unary_bufs_sub ..,
    StableHlo.nullary_bufs_sub .., StableHlo.unary_bufs_sub .., StableHlo.binary_bufs_sub .., StableHlo.nullary_bufs_sub .., StableHlo.unary_bufs_sub .., StableHlo.binary_bufs_sub ..,
    StableHlo.nullary_bufs_sub .., StableHlo.unary_bufs_sub .., StableHlo.unary_bufs_sub .., StableHlo.binary_bufs_sub .., StableHlo.unary_bufs_sub .., StableHlo.binary_bufs_sub ..,
    StableHlo.unary_bufs_sub .., StableHlo.reshape_bufs_sub .., StableHlo.binary_bufs_sub .., StableHlo.unary_bufs_sub .., StableHlo.unary_bufs_sub .., StableHlo.binary_bufs_sub ..,
    StableHlo.nullary_bufs_sub .., StableHlo.nullary_bufs_sub .., StableHlo.unary_bufs_sub .., StableHlo.binary_bufs_sub .., StableHlo.unary_bufs_sub .., StableHlo.unary_bufs_sub ..,
    StableHlo.binary_bufs_sub .., StableHlo.ternary_bufs_sub .., StableHlo.binary_bufs_sub .., StableHlo.unary_bufs_sub .., StableHlo.unary_bufs_sub .., StableHlo.binary_bufs_sub ..,
    StableHlo.reshape_bufs_sub .., StableHlo.reshape_bufs_sub .., StableHlo.unary_bufs_sub .., StableHlo.unary_bufs_sub .., StableHlo.binary_bufs_sub .., StableHlo.nullary_bufs_sub ..,
    StableHlo.binary_bufs_sub .., StableHlo.reshape_bufs_sub ..⟩

theorem opsB_fresh : ∀ op ∈ (opsB : List (HloOp τ sig (Elt F))), op.fresh = ∅ := by
  intro _ h; (repeat (cases h with | head => rfl | tail _ h => ?_)); exact nomatch h

/-- The column mean and the column variance over the points. -/
abbrev opsC : List (HloOp τ sig (Elt F)) :=
  [ StableHlo.nullary main_cst_10 (constant S_ .f32 0x00000000#32),
    StableHlo.binary main_v53 main_cst_10 main_v54 ((fun x v => Host.reduceAdd x v reducesTo_S30000x128_S128_d0 h_S_) : (⟨S30000x128, .f32⟩ : BufTy).Contents (Elt F) → (⟨S_, .f32⟩ : BufTy).Contents (Elt F) → (⟨S128, .f32⟩ : BufTy).Contents (Elt F)),
    StableHlo.nullary main_cst_11 (constant S_ .f32 0x46EA6000#32),
    StableHlo.unary main_cst_11 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call2.cst (constant S_ .f32 0x00000000#32),
    StableHlo.TRef.binary (.of main_v53 : StableHlo.TRef sig ⟨S30000x128, .f32⟩) main_call2.cst main_call2.v0 (fun x v => Host.reduceAdd x v reducesTo_S30000x128_S128_d0 h_S_),
    StableHlo.TRef.unary main_call2.v0 main_call2.v1 (broadcastInDim S1x128 ![1] bcast_S128_S1x128_1),
    StableHlo.TRef.nullary main_call2.cst_0 (constant S_ .f32 0x46EA6000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S30000x128 ![0, 1] bcast_S1x128_S30000x128_0_1),
    StableHlo.TRef.binary (.of main_v53 : StableHlo.TRef sig ⟨S30000x128, .f32⟩) main_call2.v4 main_call2.v5 subf,
    StableHlo.TRef.binary main_call2.v5 main_call2.v5 main_call2.v6 mulf,
    StableHlo.TRef.unary (.of main_c_12 : StableHlo.TRef sig ⟨S_, .i32⟩) main_call2.v7 (sitofp .f32),
    StableHlo.TRef.nullary main_call2.cst_1 (constant S_ .f32 0x46EA6000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S30000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b) ]

theorem opsC_sub : (opsC : List (HloOp τ sig (Elt F))).Forall fun op => op.bufs ⊆ StableHlo.tcRefs τ sig :=
  ⟨StableHlo.nullary_bufs_sub .., StableHlo.binary_bufs_sub .., StableHlo.nullary_bufs_sub .., StableHlo.unary_bufs_sub .., StableHlo.binary_bufs_sub .., StableHlo.nullary_bufs_sub ..,
    StableHlo.nullary_bufs_sub .., StableHlo.binary_bufs_sub .., StableHlo.unary_bufs_sub .., StableHlo.nullary_bufs_sub .., StableHlo.unary_bufs_sub .., StableHlo.binary_bufs_sub ..,
    StableHlo.unary_bufs_sub .., StableHlo.binary_bufs_sub .., StableHlo.binary_bufs_sub .., StableHlo.unary_bufs_sub .., StableHlo.nullary_bufs_sub .., StableHlo.binary_bufs_sub ..,
    StableHlo.nullary_bufs_sub .., StableHlo.binary_bufs_sub .., StableHlo.unary_bufs_sub .., StableHlo.binary_bufs_sub .., StableHlo.nullary_bufs_sub .., StableHlo.binary_bufs_sub ..,
    StableHlo.nullary_bufs_sub .., StableHlo.unary_bufs_sub .., StableHlo.unary_bufs_sub .., StableHlo.ternary_bufs_sub ..⟩

theorem opsC_fresh : ∀ op ∈ (opsC : List (HloOp τ sig (Elt F))), op.fresh = ∅ := by
  intro _ h; (repeat (cases h with | head => rfl | tail _ h => ?_)); exact nomatch h

/-- Centre, scale by the inverse root of the variance plus a small constant and by the gain, shift, rectify. -/
abbrev opsD : List (HloOp τ sig (Elt F)) :=
  [ StableHlo.unary main_v56 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S30000x128 ![0, 1] bcast_S1x128_S30000x128_0_1 : (⟨S1x128, .f32⟩ : BufTy).Contents (Elt F) → (⟨S30000x128, .f32⟩ : BufTy).Contents (Elt F)),
    StableHlo.binary main_v53 main_v59 main_v60 (subf : (⟨S30000x128, .f32⟩ : BufTy).Contents (Elt F) → (⟨S30000x128, .f32⟩ : BufTy).Contents (Elt F) → (⟨S30000x128, .f32⟩ : BufTy).Contents (Elt F)),
    StableHlo.nullary main_cst_13 (constant S_ .f32 0x3727C5AC#32),
    StableHlo.unary main_cst_13 main_v61 (broadcastInDim S128 ![] bcast_S_S128 : (⟨S_, .f32⟩ : BufTy).Contents (Elt F) → (⟨S128, .f32⟩ : BufTy).Contents (Elt F)),
    StableHlo.binary main_v57 main_v61 main_v62 (addf : (⟨S128, .f32⟩ : BufTy).Contents (Elt F) → (⟨S128, .f32⟩ : BufTy).Contents (Elt F) → (⟨S128, .f32⟩ : BufTy).Contents (Elt F)),
    StableHlo.unary main_v62 main_v63 (Host.rsqrt : (⟨S128, .f32⟩ : BufTy).Contents (Elt F) → (⟨S128, .f32⟩ : BufTy).Contents (Elt F)),
    StableHlo.unary main_v63 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S30000x128 ![0, 1] bcast_S1x128_S30000x128_0_1 : (⟨S1x128, .f32⟩ : BufTy).Contents (Elt F) → (⟨S30000x128, .f32⟩ : BufTy).Contents (Elt F)),
    StableHlo.binary main_v60 main_v65 main_v66 (mulf : (⟨S30000x128, .f32⟩ : BufTy).Contents (Elt F) → (⟨S30000x128, .f32⟩ : BufTy).Contents (Elt F) → (⟨S30000x128, .f32⟩ : BufTy).Contents (Elt F)),
    StableHlo.unary main_arg9 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S30000x128 ![0, 1] bcast_S1x128_S30000x128_0_1 : (⟨S1x128, .f32⟩ : BufTy).Contents (Elt F) → (⟨S30000x128, .f32⟩ : BufTy).Contents (Elt F)),
    StableHlo.binary main_v66 main_v68 main_v69 (mulf : (⟨S30000x128, .f32⟩ : BufTy).Contents (Elt F) → (⟨S30000x128, .f32⟩ : BufTy).Contents (Elt F) → (⟨S30000x128, .f32⟩ : BufTy).Contents (Elt F)),
    StableHlo.unary main_arg10 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S30000x128 ![0, 1] bcast_S1x128_S30000x128_0_1 : (⟨S1x128, .f32⟩ : BufTy).Contents (Elt F) → (⟨S30000x128, .f32⟩ : BufTy).Contents (Elt F)),
    StableHlo.binary main_v69 main_v71 main_v72 (addf : (⟨S30000x128, .f32⟩ : BufTy).Contents (Elt F) → (⟨S30000x128, .f32⟩ : BufTy).Contents (Elt F) → (⟨S30000x128, .f32⟩ : BufTy).Contents (Elt F)),
    StableHlo.nullary main_cst_14 (constant S_ .f32 0x3DCCCCCD#32),
    StableHlo.TRef.nullary main_call3.cst (constant S_ .f32 0x00000000#32),
    StableHlo.TRef.unary main_call3.cst main_call3.v0 (broadcastInDim S30000x128 ![] bcast_S_S30000x128),
    StableHlo.TRef.binary (.of main_v72 : StableHlo.TRef sig ⟨S30000x128, .f32⟩) main_call3.v0 main_call3.v1 (cmpf .oge),
    StableHlo.TRef.unary (.of main_cst_14 : StableHlo.TRef sig ⟨S_, .f32⟩) main_call3.v2 id,
    StableHlo.TRef.unary main_call3.v2 main_call3.v3 (broadcastInDim S30000x128 ![] bcast_S_S30000x128),
    StableHlo.TRef.binary main_call3.v3 (.of main_v72 : StableHlo.TRef sig ⟨S30000x128, .f32⟩) main_call3.v4 mulf,
    StableHlo.TRef.ternary main_call3.v1 (.of main_v72 : StableHlo.TRef sig ⟨S30000x128, .f32⟩) main_call3.v4 main_call3.call0.v0 select ]

theorem opsD_sub : (opsD : List (HloOp τ sig (Elt F))).Forall fun op => op.bufs ⊆ StableHlo.tcRefs τ sig :=
  ⟨StableHlo.unary_bufs_sub .., StableHlo.unary_bufs_sub .., StableHlo.binary_bufs_sub .., StableHlo.nullary_bufs_sub .., StableHlo.unary_bufs_sub .., StableHlo.binary_bufs_sub ..,
    StableHlo.unary_bufs_sub .., StableHlo.unary_bufs_sub .., StableHlo.unary_bufs_sub .., StableHlo.binary_bufs_sub .., StableHlo.unary_bufs_sub .., StableHlo.unary_bufs_sub ..,
    StableHlo.binary_bufs_sub .., StableHlo.unary_bufs_sub .., StableHlo.unary_bufs_sub .., StableHlo.binary_bufs_sub .., StableHlo.nullary_bufs_sub .., StableHlo.nullary_bufs_sub ..,
    StableHlo.unary_bufs_sub .., StableHlo.binary_bufs_sub .., StableHlo.unary_bufs_sub .., StableHlo.unary_bufs_sub .., StableHlo.binary_bufs_sub .., StableHlo.ternary_bufs_sub ..⟩

theorem opsD_fresh : ∀ op ∈ (opsD : List (HloOp τ sig (Elt F))), op.fresh = ∅ := by
  intro _ h; (repeat (cases h with | head => rfl | tail _ h => ?_)); exact nomatch h

/-- The whole program's operations, in order. -/
abbrev ops : List (HloOp τ sig (Elt F)) := opsA ++ (opsB ++ (opsC ++ opsD))

theorem forall_append {α : Type} {p : α → Prop} {l₁ l₂ : List α} (h₁ : l₁.Forall p) (h₂ : l₂.Forall p) :
    (l₁ ++ l₂).Forall p :=
  List.forall_iff_forall_mem.2 fun x hx =>
    (List.mem_append.1 hx).elim (List.forall_iff_forall_mem.1 h₁ x) (List.forall_iff_forall_mem.1 h₂ x)

theorem ops_sub : (ops : List (HloOp τ sig (Elt F))).Forall fun op => op.bufs ⊆ StableHlo.tcRefs τ sig :=
  forall_append opsA_sub (forall_append opsB_sub (forall_append opsC_sub opsD_sub))

theorem ops_fresh : ∀ op ∈ (ops : List (HloOp τ sig (Elt F))), op.fresh = ∅ := fun op h =>
  (List.mem_append.1 h).elim (opsA_fresh op) fun h => (List.mem_append.1 h).elim (opsB_fresh op) fun h =>
    (List.mem_append.1 h).elim (opsC_fresh op) (opsD_fresh op)

/-- The program is the sequence of its operations: both sides are the same chain of steps once the called
    functions are opened at their calls. -/
theorem main_eq (c : Dev nD) : main (F := F) c = StableHlo.seq ops := by
  chain_rfl

theorem scopedRefs_eq : (Finset.univ.filter fun b : Ref sig .tc => b.isScoped) = ∅ := by decide
theorem scopedSems_eq : (Finset.univ.filter fun sm : SemLoc sig => sm.isScoped .tc) = ∅ := by decide

/-- From any memory with zero counters every fair run of the program ends, each device buffer at the fold of the
    operations over what the launch put there. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = StableHlo.after ops (StableHlo.launchContents m c) (Proc.devRef .tc b) :=
  StableHlo.run_seq scopedRefs_eq scopedSems_eq defs main (fun _ => ops) main_eq (fun _ => ops_sub) m ρ
    (fun _ => ops_fresh)

end Cert.ReferenceIdeal.RefRun

end
-- ==== Proof.RefRunFrame.lean ====
/-
  Which buffers each stretch of the reference writes, as a list of references: a buffer outside a stretch's list
  holds after the stretch what it held before. The eleven arguments are in no list.
-/
import proofs.«106741_j66271345377641_1_alg».proof.Proof.RefRunOps

noncomputable section

namespace Cert.ReferenceIdeal.RefRun

open Idealize.ShloMosaic Idealize.ShloMosaic.TcCoe Idealize.SL.Sem Cert.ReferenceIdeal Cert.ReferenceIdeal.Facts₀

variable [Cert.ReferenceIdeal.Facts]

open Idealize.ShloMosaic.StableHlo

variable {F : FTy → Type} [FloatOps F]

/-- An operation whose one written buffer is in a list writes inside the list. -/
theorem writes_sub_of_mem {op : HloOp τ sig (Elt F)} {y : Ref sig .tc} {Wl : List (Ref sig .tc)}
    (hw : op.writes = {Proc.devRef .tc y}) (hy : y ∈ Wl) :
    op.writes ⊆ (Wl.map (Proc.devRef (τ := τ) .tc)).toFinset := by
  rw [hw, Finset.singleton_subset_iff, List.mem_toFinset]
  exact List.mem_map.2 ⟨y, hy, rfl⟩

/-- The buffers stretch A writes, in order. -/
abbrev WA : List (Ref sig .tc) :=
  [main_cst, main_v0, main_v1, main_cst_0, main_v2, main_v3, main_c, main_v4,
    main_v5, main_c_1, main_v6, main_v7, main_v8, main_v9, main_v10, main_c_2,
    main_v11, main_v12, main_c_3, main_v13, main_v14, main_v15, main_v16, main_v17]

theorem opsA_writes : (opsA : List (HloOp τ sig (Elt F))).Forall fun op =>
    op.writes ⊆ (WA.map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide)⟩

/-- A buffer stretch A does not write keeps its contents. -/
theorem opsA_keeps {r : Ref sig .tc} (hr : r ∉ WA) (W : Valuation τ sig (Elt F)) :
    after opsA W (Proc.devRef .tc r) = W (Proc.devRef .tc r) :=
  after_of_writes_sub opsA W opsA_writes hr

/-- The buffers stretch B writes, in order. -/
abbrev WB : List (Ref sig .tc) :=
  [main_v18, main_v19, main_v20, main_v21, main_v22, main_v23, main_v24, main_v25,
    main_v26, main_cst_4, main_v27, main_v28, main_cst_5, main_v29, main_v30, main_cst_6,
    main_v31, main_v32, main_cst_7, main_call0.v0.ref, main_call0.v1.ref, main_call0.v2.ref, main_v34, main_v35,
    main_v36, main_v37, main_v38, main_v39, main_v40, main_v41, main_cst_8, main_call1.cst.ref,
    main_call1.v0.ref, main_call1.v1.ref, main_call1.v2.ref, main_call1.v3.ref, main_call1.v4.ref, main_call1.call0.v0.ref, main_v43, main_v44,
    main_v45, main_v46, main_v47, main_v48, main_v49, main_v50, main_v51, main_cst_9,
    main_v52, main_v53]

theorem opsB_writes : (opsB : List (HloOp τ sig (Elt F))).Forall fun op =>
    op.writes ⊆ (WB.map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide)⟩

/-- A buffer stretch B does not write keeps its contents. -/
theorem opsB_keeps {r : Ref sig .tc} (hr : r ∉ WB) (W : Valuation τ sig (Elt F)) :
    after opsB W (Proc.devRef .tc r) = W (Proc.devRef .tc r) :=
  after_of_writes_sub opsB W opsB_writes hr

/-- The buffers stretch C writes, in order. -/
abbrev WC : List (Ref sig .tc) :=
  [main_cst_10, main_v54, main_cst_11, main_v55, main_v56, main_c_12, main_call2.cst.ref, main_call2.v0.ref,
    main_call2.v1.ref, main_call2.cst_0.ref, main_call2.v2.ref, main_call2.v3.ref, main_call2.v4.ref, main_call2.v5.ref, main_call2.v6.ref, main_call2.v7.ref,
    main_call2.cst_1.ref, main_call2.v8.ref, main_call2.cst_2.ref, main_call2.v9.ref, main_call2.v10.ref, main_call2.v11.ref, main_call2.cst_3.ref, main_call2.v12.ref,
    main_call2.cst_4.ref, main_call2.call0.v0.ref, main_call2.call0.v1.ref, main_call2.call0.v2.ref]

theorem opsC_writes : (opsC : List (HloOp τ sig (Elt F))).Forall fun op =>
    op.writes ⊆ (WC.map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide)⟩

/-- A buffer stretch C does not write keeps its contents. -/
theorem opsC_keeps {r : Ref sig .tc} (hr : r ∉ WC) (W : Valuation τ sig (Elt F)) :
    after opsC W (Proc.devRef .tc r) = W (Proc.devRef .tc r) :=
  after_of_writes_sub opsC W opsC_writes hr

/-- The buffers stretch D writes, in order. -/
abbrev WD : List (Ref sig .tc) :=
  [main_v58, main_v59, main_v60, main_cst_13, main_v61, main_v62, main_v63, main_v64,
    main_v65, main_v66, main_v67, main_v68, main_v69, main_v70, main_v71, main_v72,
    main_cst_14, main_call3.cst.ref, main_call3.v0.ref, main_call3.v1.ref, main_call3.v2.ref, main_call3.v3.ref, main_call3.v4.ref, main_call3.call0.v0.ref]

theorem opsD_writes : (opsD : List (HloOp τ sig (Elt F))).Forall fun op =>
    op.writes ⊆ (WD.map (Proc.devRef (τ := τ) .tc)).toFinset :=
  ⟨writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide),
    writes_sub_of_mem rfl (by decide), writes_sub_of_mem rfl (by decide), writes_sub_of_mem rfl (by decide), writes_sub_of_mem rfl (by decide)⟩

/-- A buffer stretch D does not write keeps its contents. -/
theorem opsD_keeps {r : Ref sig .tc} (hr : r ∉ WD) (W : Valuation τ sig (Elt F)) :
    after opsD W (Proc.devRef .tc r) = W (Proc.devRef .tc r) :=
  after_of_writes_sub opsD W opsD_writes hr

end Cert.ReferenceIdeal.RefRun

end
-- ==== Proof.RefRunA.lean ====
/-
  What the first stretch of the reference (the two gathers) leaves behind, from any buffer contents: the gathered
  neighbour positions and the gathered neighbour features, as the functions `npts` and `nfeat` of the source
  arrays and the neighbour indices.
-/
import proofs.«106741_j66271345377641_1_alg».proof.Proof.RefRunOps
import proofs.«106741_j66271345377641_1_alg».proof.Proof.RefOps

noncomputable section

namespace Cert.ReferenceIdeal.RefRun

open Idealize.ShloMosaic Idealize.ShloMosaic.TcCoe Idealize.SL.Sem Cert.ReferenceIdeal Cert.ReferenceIdeal.Facts₀

variable [Cert.ReferenceIdeal.Facts]

open Idealize.ShloMosaic.StableHlo

/-- After the gathers the positions buffer holds `npts` of the source positions and the indices. -/
theorem A_npts (W : Valuation τ sig (Elt Ideal)) :
    after (opsA (F := Ideal)) W (Proc.devRef .tc main_v10) = Ops.npts (W (Proc.devRef .tc main_arg1)) (W (Proc.devRef .tc main_arg3)) := by
  after_results_simp
  rfl

/-- After the gathers the features buffer holds `nfeat` of the source features and the indices. -/
theorem A_nfeat (W : Valuation τ sig (Elt Ideal)) :
    after (opsA (F := Ideal)) W (Proc.devRef .tc main_v17) = Ops.nfeat (W (Proc.devRef .tc main_arg2)) (W (Proc.devRef .tc main_arg3)) := by
  after_results_simp
  rfl

end Cert.ReferenceIdeal.RefRun

end
-- ==== Proof.RefRunB.lean ====
/-
  What the second stretch of the reference leaves behind, from any buffer contents: the pre-normalisation array,
  as the function `pre` of the query positions, the gathered neighbour positions and features, the kernel points and
  the weight generator's parameters.
-/
import proofs.«106741_j66271345377641_1_alg».proof.Proof.RefRunOps
import proofs.«106741_j66271345377641_1_alg».proof.Proof.RefOps

noncomputable section

namespace Cert.ReferenceIdeal.RefRun

open Idealize.ShloMosaic Idealize.ShloMosaic.TcCoe Idealize.SL.Sem Cert.ReferenceIdeal Cert.ReferenceIdeal.Facts₀

variable [Cert.ReferenceIdeal.Facts]

open Idealize.ShloMosaic.StableHlo

/-- After the second stretch the pre-normalisation buffer holds `pre` of what the stretch reads. -/
theorem B_pre (W : Valuation τ sig (Elt Ideal)) :
    after (opsB (F := Ideal)) W (Proc.devRef .tc main_v53)
      = Ops.pre (W (Proc.devRef .tc main_arg0)) (W (Proc.devRef .tc main_v10)) (W (Proc.devRef .tc main_v17)) (W (Proc.devRef .tc main_arg4)) (W (Proc.devRef .tc main_arg5))
          (W (Proc.devRef .tc main_arg6)) (W (Proc.devRef .tc main_arg7)) (W (Proc.devRef .tc main_arg8)) := by
  after_results_simp
  rfl

end Cert.ReferenceIdeal.RefRun

end
-- ==== Proof.RefRunC.lean ====
/-
  What the third stretch of the reference leaves behind, from any buffer contents: the column mean and the column
  variance of the pre-normalisation array.
-/
import proofs.«106741_j66271345377641_1_alg».proof.Proof.RefRunOps
import proofs.«106741_j66271345377641_1_alg».proof.Proof.RefOps

noncomputable section

namespace Cert.ReferenceIdeal.RefRun

open Idealize.ShloMosaic Idealize.ShloMosaic.TcCoe Idealize.SL.Sem Cert.ReferenceIdeal Cert.ReferenceIdeal.Facts₀

variable [Cert.ReferenceIdeal.Facts]

open Idealize.ShloMosaic.StableHlo

/-- After the third stretch the mean buffer holds the column mean of the pre-normalisation array. -/
theorem C_mean (W : Valuation τ sig (Elt Ideal)) :
    after (opsC (F := Ideal)) W (Proc.devRef .tc main_v56) = Ops.mean (W (Proc.devRef .tc main_v53)) := by
  after_results_simp
  rfl

/-- After the third stretch the variance buffer holds the column variance of the pre-normalisation array. -/
theorem C_var (W : Valuation τ sig (Elt Ideal)) :
    after (opsC (F := Ideal)) W (Proc.devRef .tc main_v57) = Ops.var (W (Proc.devRef .tc main_v53)) := by
  after_results_simp
  rfl

end Cert.ReferenceIdeal.RefRun

end
-- ==== Proof.RefRunD.lean ====
/-
  What the last stretch of the reference leaves behind, from any buffer contents: the normalised and rectified
  array, as the function `norm` of the pre-normalisation array, the mean, the variance, the gain and the shift.
-/
import proofs.«106741_j66271345377641_1_alg».proof.Proof.RefRunOps
import proofs.«106741_j66271345377641_1_alg».proof.Proof.RefOps

noncomputable section

namespace Cert.ReferenceIdeal.RefRun

open Idealize.ShloMosaic Idealize.ShloMosaic.TcCoe Idealize.SL.Sem Cert.ReferenceIdeal Cert.ReferenceIdeal.Facts₀

variable [Cert.ReferenceIdeal.Facts]

open Idealize.ShloMosaic.StableHlo

/-- After the last stretch the result buffer holds `norm` of what the stretch reads. -/
theorem D_out (W : Valuation τ sig (Elt Ideal)) :
    after (opsD (F := Ideal)) W (Proc.devRef .tc main_v73)
      = Ops.norm (W (Proc.devRef .tc main_v53)) (W (Proc.devRef .tc main_v56)) (W (Proc.devRef .tc main_v57)) (W (Proc.devRef .tc main_arg9)) (W (Proc.devRef .tc main_arg10)) := by
  after_results_simp
  rfl

end Cert.ReferenceIdeal.RefRun

end
-- ==== Proof.RefRun.lean ====
/-
  The reference program's run. From any memory with zero counters every fair run ends; the result buffer then
  holds the function `out` of the eleven arguments (the gathers, the pre-normalisation array, its column mean and
  variance, the normalisation, composed), and the arguments are as launched. The fold of the operations is read
  stretch by stretch: each stretch's value as a function of the buffers it reads, and the buffers it leaves alone.
-/
import proofs.«106741_j66271345377641_1_alg».proof.Proof.RefRunFrame
import proofs.«106741_j66271345377641_1_alg».proof.Proof.RefRunA
import proofs.«106741_j66271345377641_1_alg».proof.Proof.RefRunB
import proofs.«106741_j66271345377641_1_alg».proof.Proof.RefRunC
import proofs.«106741_j66271345377641_1_alg».proof.Proof.RefRunD

noncomputable section

namespace Cert.ReferenceIdeal.RefRun

open Idealize.ShloMosaic Idealize.ShloMosaic.TcCoe Idealize.SL.Sem Cert.ReferenceIdeal Cert.ReferenceIdeal.Facts₀

variable [Cert.ReferenceIdeal.Facts]

open Idealize.ShloMosaic.StableHlo

/-- Running two lines one after the other folds the second over what the first leaves. -/
theorem after_append {F : FTy → Type} (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A buffer none of the four stretches writes is as launched after the whole program. -/
theorem ops_keeps {F : FTy → Type} [FloatOps F] {r : Ref sig .tc} (hA : r ∉ WA) (hB : r ∉ WB) (hC : r ∉ WC) (hD : r ∉ WD)
    (V : Valuation τ sig (Elt F)) :
    after (opsA ++ (opsB ++ (opsC ++ opsD))) V (Proc.devRef .tc r) = V (Proc.devRef .tc r) := by
  rw [after_append, after_append, after_append, opsD_keeps hD, opsC_keeps hC, opsB_keeps hB, opsA_keeps hA]

/-- The result buffer after the whole program: `out` of the arguments' contents. -/
theorem out_eq (V : Valuation τ sig (Elt Ideal)) :
    after (opsA ++ (opsB ++ (opsC ++ opsD)) : List (HloOp τ sig (Elt Ideal))) V (Proc.devRef .tc main_v73)
      = Ops.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) := by
  rw [after_append, after_append, after_append, D_out, C_mean, C_var,
    opsC_keeps (r := main_v53) (by decide), opsC_keeps (r := main_arg9) (by decide), opsC_keeps (r := main_arg10) (by decide),
    B_pre, opsB_keeps (r := main_arg9) (by decide), opsB_keeps (r := main_arg10) (by decide),
    A_npts, A_nfeat, opsA_keeps (r := main_arg0) (by decide),
    opsA_keeps (r := main_arg4) (by decide),
    opsA_keeps (r := main_arg5) (by decide),
    opsA_keeps (r := main_arg6) (by decide),
    opsA_keeps (r := main_arg7) (by decide),
    opsA_keeps (r := main_arg8) (by decide),
    opsA_keeps (r := main_arg9) (by decide),
    opsA_keeps (r := main_arg10) (by decide)]
  rfl

/-- From any memory with zero counters every fair run of the reference ends with the result buffer at `out` of
    the arguments and the arguments as launched. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v73)
        = Ops.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run (defs (F := Ideal)) _ _).mono (fun _ h c => ⟨(h c main_v73).trans (out_eq _),
      (h c main_arg0).trans (ops_keeps (by decide) (by decide) (by decide) (by decide) _),
      (h c main_arg1).trans (ops_keeps (by decide) (by decide) (by decide) (by decide) _),
      (h c main_arg2).trans (ops_keeps (by decide) (by decide) (by decide) (by decide) _),
      (h c main_arg3).trans (ops_keeps (by decide) (by decide) (by decide) (by decide) _),
      (h c main_arg4).trans (ops_keeps (by decide) (by decide) (by decide) (by decide) _),
      (h c main_arg5).trans (ops_keeps (by decide) (by decide) (by decide) (by decide) _),
      (h c main_arg6).trans (ops_keeps (by decide) (by decide) (by decide) (by decide) _),
      (h c main_arg7).trans (ops_keeps (by decide) (by decide) (by decide) (by decide) _),
      (h c main_arg8).trans (ops_keeps (by decide) (by decide) (by decide) (by decide) _),
      (h c main_arg9).trans (ops_keeps (by decide) (by decide) (by decide) (by decide) _),
      (h c main_arg10).trans (ops_keeps (by decide) (by decide) (by decide) (by decide) _)⟩)
    (run_after m ρ)

end Cert.ReferenceIdeal.RefRun

end
-- ==== Proof.lean ====
/-
  A point-convolution block with generated weights and batch normalisation: the Pallas program against its plain
  reference, equal as extended reals.

  Per query point both programs gather 32 neighbours (positions and features, from sources padded by a shadow
  row), weigh each neighbour's features by its influence on each of 15 kernel points
  (`max 0 (1 - distance / 2)`), generate 15 × 8 weights from the first neighbour's features through two dense
  layers with a leaky rectifier between, and sum over the kernel points the weighted feature times the weight of
  the channel's group of 16. The Pallas program does this in blocks of 600 query points and picks the group's
  weight by a product with the literal 0/1 membership matrix of the groups; the reference picks it by reshaping.
  On the extended reals `x · 0 = 0` and `x · 1 = x` without exception, so the product keeps exactly the group's
  weight and the two pre-normalisation arrays are equal entry by entry — no finiteness of the inputs is used.
  Both programs then take the column mean and variance of that array by the same host operations, and centre,
  scale, shift and rectify every entry; the Pallas program does the last step in blocks of 3000 rows.

  The frames of the two Pallas programs are the generated ones. The reference's run (its operations listed, the
  four outlined functions inlined at their call sites) gives its frame and its result as a function of the
  arguments. The kernel program's run is read at its last boundary: the second region's blocks tile the output
  array, each block the body's value of the blocks it read; likewise the first region; the host operations before
  and between the regions are the reference's own gather, mean and variance. The idealisation rewrote nothing, so
  it is preserved trivially.
-/
import proofs.«106741_j66271345377641_1_alg».proof.Defs
import proofs.«106741_j66271345377641_1_alg».proof.Proof.Gen.Kernel
import proofs.«106741_j66271345377641_1_alg».proof.Proof.Gen.Kernel.Frame
import proofs.«106741_j66271345377641_1_alg».proof.Proof.Gen.KernelIdeal
import proofs.«106741_j66271345377641_1_alg».proof.Proof.Gen.KernelIdeal.Frame
import proofs.«106741_j66271345377641_1_alg».proof.Proof.Gen.ReferenceIdeal
import proofs.«106741_j66271345377641_1_alg».proof.Proof.Gen.Pre_finite_inputs
import proofs.«106741_j66271345377641_1_alg».proof.Proof.KRun
import proofs.«106741_j66271345377641_1_alg».proof.Proof.KValue
import proofs.«106741_j66271345377641_1_alg».proof.Proof.KerPay0
import proofs.«106741_j66271345377641_1_alg».proof.Proof.KerPay1
import proofs.«106741_j66271345377641_1_alg».proof.Proof.Bridge
import proofs.«106741_j66271345377641_1_alg».proof.Proof.RefRun
import Idealize.ShloMosaic.Adequacy
import Idealize.ShloMosaic.Init

noncomputable section

namespace Cert.Proof

open Idealize.ShloMosaic Idealize.SL.Sem

/-- The word-level program's frame. -/
theorem frame_k : Cert.frame_Kernel := fun m ρ _ => Cert.Kernel.Gen.frame m ρ

/-- The idealised program's frame. -/
theorem frame_ki : Cert.frame_KernelIdeal := fun m ρ _ => Cert.KernelIdeal.Gen.frame m ρ

/-- The reference's frame: its run with the result dropped. -/
theorem frame_ri : Cert.frame_ReferenceIdeal := fun m ρ _ =>
  (θ_run (Cert.ReferenceIdeal.defs (F := Ideal)) _ _).mono (fun _ h c => (h c).2) (Cert.ReferenceIdeal.RefRun.run m ρ)

/-- The idealisation rewrote no operation. -/
theorem preserves : Cert.preserves_Kernel_KernelIdeal := trivial

/-- Both programs end with the reference's result function of the (agreeing) arguments. -/
theorem algebraic : Cert.algebraic_KernelIdeal_ReferenceIdeal := by
  intro m ρ m' ρ' _ hagree
  refine ⟨fun c => Cert.ReferenceIdeal.Ops.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)), ?_, ?_⟩
  · refine (θ_run (Cert.KernelIdeal.defs (F := Ideal)) _ _).mono (fun r h c => ⟨(h c).1.trans ?_, (h c).2⟩)
      (Cert.KernelIdeal.KRun.run (F := Ideal) m ρ)
    exact (Cert.KernelIdeal.KValue.result_eq m ρ Cert.KernelIdeal.Pay.out0_9_apply Cert.KernelIdeal.Pay.out1_5_apply c).trans
      (Cert.Bridge.out_eq _ _ _ _ _ _ _ _ _ _ _)
  · refine (θ_run (Cert.ReferenceIdeal.defs (F := Ideal)) _ _).mono (fun r h c => ⟨(h c).1.trans ?_, (h c).2⟩)
      (Cert.ReferenceIdeal.RefRun.run m' ρ')
    obtain ⟨h0, h1, h2, h3, h4, h5, h6, h7, h8, h9, h10⟩ := hagree c
    rw [h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
